-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x17 : Shape := ⟨2, ![16384, 17]⟩
abbrev S16384x6 : Shape := ⟨2, ![16384, 6]⟩
abbrev S16x168400 : Shape := ⟨2, ![16, 168400]⟩
abbrev S200 : Shape := ⟨1, ![200]⟩
abbrev S2x200 : Shape := ⟨2, ![2, 200]⟩
abbrev S17 : Shape := ⟨1, ![17]⟩
abbrev S1 : Shape := ⟨1, ![1]⟩
abbrev S_ : Shape := ⟨0, ![]⟩

class Facts : Prop where
  bcast_S_S16384x17 : S_.BroadcastsInDim S16384x17 (![] : Fin 0 → Fin S16384x17.rank)
  reducesTo_S16384x17_S_d0_1 : S16384x17.ReducesTo [0, 1] S_
  h_S_ : 0 < S_.numel
  bcast_S_S16384x6 : S_.BroadcastsInDim S16384x6 (![] : Fin 0 → Fin S16384x6.rank)
  reducesTo_S16384x6_S_d0_1 : S16384x6.ReducesTo [0, 1] S_
  bcast_S_S16x168400 : S_.BroadcastsInDim S16x168400 (![] : Fin 0 → Fin S16x168400.rank)
  reducesTo_S16x168400_S_d0_1 : S16x168400.ReducesTo [0, 1] S_
  bcast_S_S200 : S_.BroadcastsInDim S200 (![] : Fin 0 → Fin S200.rank)
  reducesTo_S200_S_d0 : S200.ReducesTo [0] S_
  bcast_S_S2x200 : S_.BroadcastsInDim S2x200 (![] : Fin 0 → Fin S2x200.rank)
  reducesTo_S2x200_S_d0_1 : S2x200.ReducesTo [0, 1] S_
  bcast_S_S17 : S_.BroadcastsInDim S17 (![] : Fin 0 → Fin S17.rank)
  reducesTo_S17_S_d0 : S17.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S17 .f32) (main_v48 : IVec S_ 1) (main_v49 : FVec F S17 .f32) (main_v50 : FVec F S17 .f32) : IVec S_ 1 :=
  let main_v51 : IVec S17 1 := cmpf .olt main_v49 main_v50
  let main_c_19 : IVec S_ 1 := constantI S_ 1 1#1
  let main_v52 : IVec S_ 1 := (fun x v => Host.reduce IntOp.andi x v reducesTo_S17_S_d0 h_S_) main_v51 main_c_19
  let main_v53 : IVec S_ 1 := andi main_v48 main_v52
  let main_v54 : FVec F S17 .f32 := Host.absf main_arg11
  let main_cst_20 : FVec F S_ .f32 := constant S_ .f32 0x7F800000#32
  let main_v55 : FVec F S17 .f32 := broadcastInDim S17 ![] bcast_S_S17 main_cst_20
  let main_v56 : IVec S17 1 := cmpf .olt main_v54 main_v55
  let main_c_21 : IVec S_ 1 := constantI S_ 1 1#1
  let main_v57 : IVec S_ 1 := (fun x v => Host.reduce IntOp.andi x v reducesTo_S17_S_d0 h_S_) main_v56 main_c_21
  let main_v58 : IVec S_ 1 := andi main_v53 main_v57
  main_v58

def fn_part2 {F : FTy → Type} [FloatOps F] (main_arg7 : FVec F S17 .f32) (main_arg8 : FVec F S1 .f32) (main_arg9 : FVec F S1 .f32) (main_arg10 : FVec F S17 .f32) (main_arg11 : FVec F S17 .f32) (main_v33 : IVec S_ 1) : IVec S_ 1 :=
  let main_v34 : FVec F S17 .f32 := Host.absf main_arg7
  let main_cst_12 : FVec F S_ .f32 := constant S_ .f32 0x7F800000#32
  let main_v35 : FVec F S17 .f32 := broadcastInDim S17 ![] bcast_S_S17 main_cst_12
  let main_v36 : IVec S17 1 := cmpf .olt main_v34 main_v35
  let main_c_13 : IVec S_ 1 := constantI S_ 1 1#1
  let main_v37 : IVec S_ 1 := (fun x v => Host.reduce IntOp.andi x v reducesTo_S17_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S17 .f32 := Host.absf main_arg10
  let main_cst_18 : FVec F S_ .f32 := constant S_ .f32 0x7F800000#32
  let main_v50 : FVec F S17 .f32 := broadcastInDim S17 ![] bcast_S_S17 main_cst_18
  fn_part3 (F := F) main_arg11 main_v48 main_v49 main_v50

def fn_part1 {F : FTy → Type} [FloatOps F] (main_arg4 : FVec F S200 .f32) (main_arg5 : FVec F S200 .f32) (main_arg6 : FVec F S2x200 .f32) (main_arg7 : FVec F S17 .f32) (main_arg8 : FVec F S1 .f32) (main_arg9 : FVec F S1 .f32) (main_arg10 : FVec F S17 .f32) (main_arg11 : FVec F S17 .f32) (main_v13 : IVec S_ 1) (main_v16 : IVec S200 1) : IVec S_ 1 :=
  let main_c_5 : IVec S_ 1 := constantI S_ 1 1#1
  let main_v17 : IVec S_ 1 := (fun x v => Host.reduce IntOp.andi x v reducesTo_S200_S_d0 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S200 .f32 := Host.absf main_arg5
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S2x200 .f32 := Host.absf main_arg6
  let main_cst_10 : FVec F S_ .f32 := constant S_ .f32 0x7F800000#32
  let main_v30 : FVec F S2x200 .f32 := broadcastInDim S2x200 ![] bcast_S_S2x200 main_cst_10
  let main_v31 : IVec S2x200 1 := cmpf .olt main_v29 main_v30
  let main_c_11 : IVec S_ 1 := constantI S_ 1 1#1
  let main_v32 : IVec S_ 1 := (fun x v => Host.reduce IntOp.andi x v reducesTo_S2x200_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x17 .f32) (main_arg1 : FVec F S16384x6 .f32) (main_arg2 : FVec F S16x168400 .f32) (main_arg3 : FVec F S200 .f32) (main_arg4 : FVec F S200 .f32) (main_arg5 : FVec F S200 .f32) (main_arg6 : FVec F S2x200 .f32) (main_arg7 : FVec F S17 .f32) (main_arg8 : FVec F S1 .f32) (main_arg9 : FVec F S1 .f32) (main_arg10 : FVec F S17 .f32) (main_arg11 : FVec F S17 .f32) : IVec S_ 1 :=
  let main_v0 : FVec F S16384x17 .f32 := Host.absf main_arg0
  let main_cst : FVec F S_ .f32 := constant S_ .f32 0x7F800000#32
  let main_v1 : FVec F S16384x17 .f32 := broadcastInDim S16384x17 ![] bcast_S_S16384x17 main_cst
  let main_v2 : IVec S16384x17 1 := cmpf .olt main_v0 main_v1
  let main_c : IVec S_ 1 := constantI S_ 1 1#1
  let main_v3 : IVec S_ 1 := (fun x v => Host.reduce IntOp.andi x v reducesTo_S16384x17_S_d0_1 h_S_) main_v2 main_c
  let main_v4 : FVec F S16384x6 .f32 := Host.absf main_arg1
  let main_cst_0 : FVec F S_ .f32 := constant S_ .f32 0x7F800000#32
  let main_v5 : FVec F S16384x6 .f32 := broadcastInDim S16384x6 ![] bcast_S_S16384x6 main_cst_0
  let main_v6 : IVec S16384x6 1 := cmpf .olt main_v4 main_v5
  let main_c_1 : IVec S_ 1 := constantI S_ 1 1#1
  let main_v7 : IVec S_ 1 := (fun x v => Host.reduce IntOp.andi x v reducesTo_S16384x6_S_d0_1 h_S_) main_v6 main_c_1
  let main_v8 : IVec S_ 1 := andi main_v3 main_v7
  let main_v9 : FVec F S16x168400 .f32 := Host.absf main_arg2
  let main_cst_2 : FVec F S_ .f32 := constant S_ .f32 0x7F800000#32
  let main_v10 : FVec F S16x168400 .f32 := broadcastInDim S16x168400 ![] bcast_S_S16x168400 main_cst_2
  let main_v11 : IVec S16x168400 1 := cmpf .olt main_v9 main_v10
  let main_c_3 : IVec S_ 1 := constantI S_ 1 1#1
  let main_v12 : IVec S_ 1 := (fun x v => Host.reduce IntOp.andi x v reducesTo_S16x168400_S_d0_1 h_S_) main_v11 main_c_3
  let main_v13 : IVec S_ 1 := andi main_v8 main_v12
  let main_v14 : FVec F S200 .f32 := Host.absf main_arg3
  let main_cst_4 : FVec F S_ .f32 := constant S_ .f32 0x7F800000#32
  let main_v15 : FVec F S200 .f32 := broadcastInDim S200 ![] bcast_S_S200 main_cst_4
  let main_v16 : IVec S200 1 := cmpf .olt main_v14 main_v15
  fn_part1 (F := F) main_arg4 main_arg5 main_arg6 main_arg7 main_arg8 main_arg9 main_arg10 main_arg11 main_v13 main_v16
-- ==== Kernel.lean ====
abbrev S16384x17 : Shape := ⟨2, ![16384, 17]⟩
abbrev S16384x6 : Shape := ⟨2, ![16384, 6]⟩
abbrev S16x168400 : Shape := ⟨2, ![16, 168400]⟩
abbrev S200 : Shape := ⟨1, ![200]⟩
abbrev S2x200 : Shape := ⟨2, ![2, 200]⟩
abbrev S17 : Shape := ⟨1, ![17]⟩
abbrev S1 : Shape := ⟨1, ![1]⟩
abbrev S1x17 : Shape := ⟨2, ![1, 17]⟩
abbrev S_ : Shape := ⟨0, ![]⟩
abbrev S16x3400 : Shape := ⟨2, ![16, 3400]⟩
abbrev S16x200x17 : Shape := ⟨3, ![16, 200, 17]⟩
abbrev S16x1200 : Shape := ⟨2, ![16, 1200]⟩
abbrev S16x200x6 : Shape := ⟨3, ![16, 200, 6]⟩
abbrev S16x80000 : Shape := ⟨2, ![16, 80000]⟩
abbrev S16x200x400 : Shape := ⟨3, ![16, 200, 400]⟩
abbrev S16x2x200x200 : Shape := ⟨4, ![16, 2, 200, 200]⟩
abbrev S16x17x200 : Shape := ⟨3, ![16, 17, 200]⟩
abbrev S16x200 : Shape := ⟨2, ![16, 200]⟩
abbrev S16x1x200 : Shape := ⟨3, ![16, 1, 200]⟩
abbrev S16x16384x17 : Shape := ⟨3, ![16, 16384, 17]⟩
abbrev S16x16384x1 : Shape := ⟨3, ![16, 16384, 1]⟩
abbrev S1x200x17 : Shape := ⟨3, ![1, 200, 17]⟩
abbrev S1x200x6 : Shape := ⟨3, ![1, 200, 6]⟩
abbrev S1x200x400 : Shape := ⟨3, ![1, 200, 400]⟩
abbrev S1x2x200x200 : Shape := ⟨4, ![1, 2, 200, 200]⟩
abbrev S1x17x200 : Shape := ⟨3, ![1, 17, 200]⟩
abbrev S1x1x200 : Shape := ⟨3, ![1, 1, 200]⟩
abbrev S2048x17 : Shape := ⟨2, ![2048, 17]⟩
abbrev S2048x6 : Shape := ⟨2, ![2048, 6]⟩
abbrev S1x2048x17 : Shape := ⟨3, ![1, 2048, 17]⟩
abbrev S1x2048x1 : Shape := ⟨3, ![1, 2048, 1]⟩
abbrev S200x17 : Shape := ⟨2, ![200, 17]⟩
abbrev S17x200 : Shape := ⟨2, ![17, 200]⟩
abbrev S2048x200 : Shape := ⟨2, ![2048, 200]⟩
abbrev S1x200 : Shape := ⟨2, ![1, 200]⟩
abbrev S200x6 : Shape := ⟨2, ![200, 6]⟩
abbrev S6x200 : Shape := ⟨2, ![6, 200]⟩
abbrev S2048x400 : Shape := ⟨2, ![2048, 400]⟩
abbrev S200x400 : Shape := ⟨2, ![200, 400]⟩
abbrev S400x200 : Shape := ⟨2, ![400, 200]⟩
abbrev S1x1x200x200 : Shape := ⟨4, ![1, 1, 200, 200]⟩
abbrev S200x200 : Shape := ⟨2, ![200, 200]⟩
abbrev S200x1 : Shape := ⟨2, ![200, 1]⟩
abbrev S2048x1 : Shape := ⟨2, ![2048, 1]⟩
abbrev S1x1 : Shape := ⟨2, ![1, 1]⟩
abbrev S16384x16x17 : Shape := ⟨3, ![16384, 16, 17]⟩
abbrev S16384x16x1 : Shape := ⟨3, ![16384, 16, 1]⟩
abbrev S1x1x17 : Shape := ⟨3, ![1, 1, 17]⟩

abbrev nBuf : Space → Nat
  | .hbm => 64
  | .vmem => 31
  | .smem => 0
  | _ => 0

abbrev bufTy : (tb : Table) → Fin (tcTables nBuf tb) → BufTy
  | .hbm, ⟨0, _⟩ => ⟨S16384x17, .f32⟩
  | .hbm, ⟨1, _⟩ => ⟨S16384x6, .f32⟩
  | .hbm, ⟨2, _⟩ => ⟨S16x168400, .f32⟩
  | .hbm, ⟨3, _⟩ => ⟨S200, .f32⟩
  | .hbm, ⟨4, _⟩ => ⟨S200, .f32⟩
  | .hbm, ⟨5, _⟩ => ⟨S200, .f32⟩
  | .hbm, ⟨6, _⟩ => ⟨S2x200, .f32⟩
  | .hbm, ⟨7, _⟩ => ⟨S17, .f32⟩
  | .hbm, ⟨8, _⟩ => ⟨S1, .f32⟩
  | .hbm, ⟨9, _⟩ => ⟨S1, .f32⟩
  | .hbm, ⟨10, _⟩ => ⟨S17, .f32⟩
  | .hbm, ⟨11, _⟩ => ⟨S17, .f32⟩
  | .hbm, ⟨12, _⟩ => ⟨S1x17, .f32⟩
  | .hbm, ⟨13, _⟩ => ⟨S16384x17, .f32⟩
  | .hbm, ⟨14, _⟩ => ⟨S16384x17, .f32⟩
  | .hbm, ⟨15, _⟩ => ⟨S_, .f32⟩
  | .hbm, ⟨16, _⟩ => ⟨S16384x17, .f32⟩
  | .hbm, ⟨17, _⟩ => ⟨S16384x17, .f32⟩
  | .hbm, ⟨18, _⟩ => ⟨S17, .f32⟩
  | .hbm, ⟨19, _⟩ => ⟨S1x17, .f32⟩
  | .hbm, ⟨20, _⟩ => ⟨S16384x17, .f32⟩
  | .hbm, ⟨21, _⟩ => ⟨S16384x17, .f32⟩
  | .hbm, ⟨22, _⟩ => ⟨S_, .f32⟩
  | .hbm, ⟨23, _⟩ => ⟨S16384x17, .f32⟩
  | .hbm, ⟨24, _⟩ => ⟨S16384x17, .f32⟩
  | .hbm, ⟨25, _⟩ => ⟨S_, .f32⟩
  | .hbm, ⟨26, _⟩ => ⟨S16384x17, .f32⟩
  | .hbm, ⟨27, _⟩ => ⟨S16384x17, .f32⟩
  | .hbm, ⟨28, _⟩ => ⟨S16x3400, .f32⟩
  | .hbm, ⟨29, _⟩ => ⟨S16x200x17, .f32⟩
  | .hbm, ⟨30, _⟩ => ⟨S16x1200, .f32⟩
  | .hbm, ⟨31, _⟩ => ⟨S16x200x6, .f32⟩
  | .hbm, ⟨32, _⟩ => ⟨S16x80000, .f32⟩
  | .hbm, ⟨33, _⟩ => ⟨S16x200x400, .f32⟩
  | .hbm, ⟨34, _⟩ => ⟨S16x80000, .f32⟩
  | .hbm, ⟨35, _⟩ => ⟨S16x2x200x200, .f32⟩
  | .hbm, ⟨36, _⟩ => ⟨S16x3400, .f32⟩
  | .hbm, ⟨37, _⟩ => ⟨S16x17x200, .f32⟩
  | .hbm, ⟨38, _⟩ => ⟨S16x200, .f32⟩
  | .hbm, ⟨39, _⟩ => ⟨S16x1x200, .f32⟩
  | .hbm, ⟨40, _⟩ => ⟨S16x200, .f32⟩
  | .hbm, ⟨41, _⟩ => ⟨S16x1x200, .f32⟩
  | .hbm, ⟨42, _⟩ => ⟨S16x16384x17, .f32⟩
  | .hbm, ⟨43, _⟩ => ⟨S16x16384x1, .f32⟩
  | .hbm, ⟨44, _⟩ => ⟨S16x16384x1, .f32⟩
  | .hbm, ⟨45, _⟩ => ⟨S16384x16x17, .f32⟩
  | .hbm, ⟨46, _⟩ => ⟨S16384x16x1, .f32⟩
  | .hbm, ⟨47, _⟩ => ⟨S16384x16x1, .f32⟩
  | .hbm, ⟨48, _⟩ => ⟨S_, .f32⟩
  | .hbm, ⟨49, _⟩ => ⟨S16384x16x17, .f32⟩
  | .hbm, ⟨50, _⟩ => ⟨S16384x16x17, .f32⟩
  | .hbm, ⟨51, _⟩ => ⟨S_, .f32⟩
  | .hbm, ⟨52, _⟩ => ⟨S16384x16x17, .f32⟩
  | .hbm, ⟨53, _⟩ => ⟨S16384x16x17, .f32⟩
  | .hbm, ⟨54, _⟩ => ⟨S_, .f32⟩
  | .hbm, ⟨55, _⟩ => ⟨S16384x16x17, .f32⟩
  | .hbm, ⟨56, _⟩ => ⟨S16384x16x17, .f32⟩
  | .hbm, ⟨57, _⟩ => ⟨S17, .f32⟩
  | .hbm, ⟨58, _⟩ => ⟨S1x1x17, .f32⟩
  | .hbm, ⟨59, _⟩ => ⟨S16384x16x17, .f32⟩
  | .hbm, ⟨60, _⟩ => ⟨S16384x16x17, .f32⟩
  | .hbm, ⟨61, _⟩ => ⟨S1x1x17, .f32⟩
  | .hbm, ⟨62, _⟩ => ⟨S16384x16x17, .f32⟩
  | .hbm, ⟨63, _⟩ => ⟨S16384x16x17, .f32⟩
  | .local _ .vmem, ⟨0, _⟩ => ⟨S1x200x17, .f32⟩
  | .local _ .vmem, ⟨1, _⟩ => ⟨S1x200x17, .f32⟩
  | .local _ .vmem, ⟨2, _⟩ => ⟨S1x200x6, .f32⟩
  | .local _ .vmem, ⟨3, _⟩ => ⟨S1x200x6, .f32⟩
  | .local _ .vmem, ⟨4, _⟩ => ⟨S1x200x400, .f32⟩
  | .local _ .vmem, ⟨5, _⟩ => ⟨S1x200x400, .f32⟩
  | .local _ .vmem, ⟨6, _⟩ => ⟨S1x2x200x200, .f32⟩
  | .local _ .vmem, ⟨7, _⟩ => ⟨S1x2x200x200, .f32⟩
  | .local _ .vmem, ⟨8, _⟩ => ⟨S1x17x200, .f32⟩
  | .local _ .vmem, ⟨9, _⟩ => ⟨S1x17x200, .f32⟩
  | .local _ .vmem, ⟨10, _⟩ => ⟨S1x1x200, .f32⟩
  | .local _ .vmem, ⟨11, _⟩ => ⟨S1x1x200, .f32⟩
  | .local _ .vmem, ⟨12, _⟩ => ⟨S1x1x200, .f32⟩
  | .local _ .vmem, ⟨13, _⟩ => ⟨S1x1x200, .f32⟩
  | .local _ .vmem, ⟨14, _⟩ => ⟨S200, .f32⟩
  | .local _ .vmem, ⟨15, _⟩ => ⟨S200, .f32⟩
  | .local _ .vmem, ⟨16, _⟩ => ⟨S200, .f32⟩
  | .local _ .vmem, ⟨17, _⟩ => ⟨S2x200, .f32⟩
  | .local _ .vmem, ⟨18, _⟩ => ⟨S17, .f32⟩
  | .local _ .vmem, ⟨19, _⟩ => ⟨S1, .f32⟩
  | .local _ .vmem, ⟨20, _⟩ => ⟨S1, .f32⟩
  | .local _ .vmem, ⟨21, _⟩ => ⟨S2048x17, .f32⟩
  | .local _ .vmem, ⟨22, _⟩ => ⟨S2048x17, .f32⟩
  | .local _ .vmem, ⟨23, _⟩ => ⟨S2048x6, .f32⟩
  | .local _ .vmem, ⟨24, _⟩ => ⟨S2048x6, .f32⟩
  | .local _ .vmem, ⟨25, _⟩ => ⟨S1x2048x17, .f32⟩
  | .local _ .vmem, ⟨26, _⟩ => ⟨S1x2048x17, .f32⟩
  | .local _ .vmem, ⟨27, _⟩ => ⟨S1x2048x1, .f32⟩
  | .local _ .vmem, ⟨28, _⟩ => ⟨S1x2048x1, .f32⟩
  | .local _ .vmem, ⟨29, _⟩ => ⟨S1x2048x1, .f32⟩
  | .local _ .vmem, ⟨30, _⟩ => ⟨S1x2048x1, .f32⟩
  | _, _ => ⟨S16384x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x200x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x200x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x200x400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x200x200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x17x200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x200 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S200 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S200 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S200 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2x200 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S17 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S2048x17 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S2048x6 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x2048x17 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2048x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2048x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

class Facts₀ : Prop where
  bcast_S17_S1x17_1 : S17.BroadcastsInDim S1x17 (![1] : Fin 1 → Fin S1x17.rank)
  bcast_S1x17_S16384x17_0_1 : S1x17.BroadcastsInDim S16384x17 (![0, 1] : Fin 2 → Fin S16384x17.rank)
  bcast_S_S16384x17 : S_.BroadcastsInDim S16384x17 (![] : Fin 0 → Fin S16384x17.rank)
  slices_S16x168400_S16x3400_0_0 : S16x168400.Slices ![0, 0] S16x3400
  shapeCasts_S16x3400_S16x200x17 : S16x3400.ShapeCasts S16x200x17
  slices_S16x168400_S16x1200_0_3400 : S16x168400.Slices ![0, 3400] S16x1200
  shapeCasts_S16x1200_S16x200x6 : S16x1200.ShapeCasts S16x200x6
  slices_S16x168400_S16x80000_0_4600 : S16x168400.Slices ![0, 4600] S16x80000
  shapeCasts_S16x80000_S16x200x400 : S16x80000.ShapeCasts S16x200x400
  slices_S16x168400_S16x80000_0_84600 : S16x168400.Slices ![0, 84600] S16x80000
  shapeCasts_S16x80000_S16x2x200x200 : S16x80000.ShapeCasts S16x2x200x200
  slices_S16x168400_S16x3400_0_164600 : S16x168400.Slices ![0, 164600] S16x3400
  shapeCasts_S16x3400_S16x17x200 : S16x3400.ShapeCasts S16x17x200
  slices_S16x168400_S16x200_0_168000 : S16x168400.Slices ![0, 168000] S16x200
  shapeCasts_S16x200_S16x1x200 : S16x200.ShapeCasts S16x1x200
  slices_S16x168400_S16x200_0_168200 : S16x168400.Slices ![0, 168200] S16x200
  inb_S2048x17_S2048x17_0_0 : ∀ a, (![0, 0] : Fin 2 → Nat) a + S2048x17.size a ≤ S2048x17.size a
  h_S2048x17 : 0 < S2048x17.numel
  shapeCasts_S2048x17_S2048x17 : S2048x17.ShapeCasts S2048x17
  bitsLt_bf16_f32 : FTy.bits .bf16 < FTy.bits .f32
  inb_S1x200x17_S1x200x17_0_0_0 : ∀ a, (![0, 0, 0] : Fin 3 → Nat) a + S1x200x17.size a ≤ S1x200x17.size a
  h_S1x200x17 : 0 < S1x200x17.numel
  shapeCasts_S1x200x17_S200x17 : S1x200x17.ShapeCasts S200x17
  transposes_S200x17_p1_0_S17x200 : S200x17.Transposes [1, 0] S17x200
  inb_S200_S200_0 : ∀ a, (![0] : Fin 1 → Nat) a + S200.size a ≤ S200.size a
  h_S200 : 0 < S200.numel
  shapeCasts_S200_S1x200 : S200.ShapeCasts S1x200
  broadcasts_S1x200_S2048x200 : S1x200.Broadcasts S2048x200
  inb_S2048x6_S2048x6_0_0 : ∀ a, (![0, 0] : Fin 2 → Nat) a + S2048x6.size a ≤ S2048x6.size a
  h_S2048x6 : 0 < S2048x6.numel
  inb_S1x200x6_S1x200x6_0_0_0 : ∀ a, (![0, 0, 0] : Fin 3 → Nat) a + S1x200x6.size a ≤ S1x200x6.size a
  h_S1x200x6 : 0 < S1x200x6.numel
  shapeCasts_S1x200x6_S200x6 : S1x200x6.ShapeCasts S200x6
  transposes_S200x6_p1_0_S6x200 : S200x6.Transposes [1, 0] S6x200
  concatenates_S2048x200_S2048x200_S2048x400_d1 : Shape.Concatenates [S2048x200, S2048x200] S2048x400 1
  inb_S1x200x400_S1x200x400_0_0_0 : ∀ a, (![0, 0, 0] : Fin 3 → Nat) a + S1x200x400.size a ≤ S1x200x400.size a
  h_S1x200x400 : 0 < S1x200x400.numel
  shapeCasts_S1x200x400_S200x400 : S1x200x400.ShapeCasts S200x400
  transposes_S200x400_p1_0_S400x200 : S200x400.Transposes [1, 0] S400x200
  inb_S1x2x200x200_S1x1x200x200_0_0_0_0 : ∀ a, (![0, 0, 0, 0] : Fin 4 → Nat) a + S1x1x200x200.size a ≤ S1x2x200x200.size a
  h_S1x1x200x200 : 0 < S1x1x200x200.numel
  shapeCasts_S1x1x200x200_S200x200 : S1x1x200x200.ShapeCasts S200x200
  transposes_S200x200_p1_0_S200x200 : S200x200.Transposes [1, 0] S200x200
  inb_S2x200_S1x200_0_0 : ∀ a, (![0, 0] : Fin 2 → Nat) a + S1x200.size a ≤ S2x200.size a
  h_S1x200 : 0 < S1x200.numel
  shapeCasts_S1x200_S200 : S1x200.ShapeCasts S200
  inb_S1x2x200x200_S1x1x200x200_0_1_0_0 : ∀ a, (![0, 1, 0, 0] : Fin 4 → Nat) a + S1x1x200x200.size a ≤ S1x2x200x200.size a
  inb_S2x200_S1x200_1_0 : ∀ a, (![1, 0] : Fin 2 → Nat) a + S1x200.size a ≤ S2x200.size a
  inb_S1x17x200_S1x17x200_0_0_0 : ∀ a, (![0, 0, 0] : Fin 3 → Nat) a + S1x17x200.size a ≤ S1x17x200.size a
  h_S1x17x200 : 0 < S1x17x200.numel
  shapeCasts_S1x17x200_S17x200 : S1x17x200.ShapeCasts S17x200
  transposes_S17x200_p1_0_S200x17 : S17x200.Transposes [1, 0] S200x17
  inb_S17_S17_0 : ∀ a, (![0] : Fin 1 → Nat) a + S17.size a ≤ S17.size a
  h_S17 : 0 < S17.numel
  shapeCasts_S17_S1x17 : S17.ShapeCasts S1x17
  broadcasts_S1x17_S2048x17 : S1x17.Broadcasts S2048x17
  inb_S1x1x200_S1x1x200_0_0_0 : ∀ a, (![0, 0, 0] : Fin 3 → Nat) a + S1x1x200.size a ≤ S1x1x200.size a
  h_S1x1x200 : 0 < S1x1x200.numel
  shapeCasts_S1x1x200_S1x200 : S1x1x200.ShapeCasts S1x200
  transposes_S1x200_p1_0_S200x1 : S1x200.Transposes [1, 0] S200x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S1x2048x17_S1x2048x17_0_0_0 : ∀ a, (![0, 0, 0] : Fin 3 → Nat) a + S1x2048x17.size a ≤ S1x2048x17.size a
  h_S1x2048x17 : 0 < S1x2048x17.numel
  shapeCasts_S1x2048x17_S2048x17 : S1x2048x17.ShapeCasts S2048x17
  shapeCasts_S2048x17_S1x2048x17 : S2048x17.ShapeCasts S1x2048x17
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  transposes_S16x16384x17_S16384x16x17_1_0_2 : S16x16384x17.Transposes [1, 0, 2] S16384x16x17
  transposes_S16x16384x1_S16384x16x1_1_0_2 : S16x16384x1.Transposes [1, 0, 2] S16384x16x1
  bcast_S_S16384x16x17 : S_.BroadcastsInDim S16384x16x17 (![] : Fin 0 → Fin S16384x16x17.rank)
  bcast_S17_S1x1x17_2 : S17.BroadcastsInDim S1x1x17 (![2] : Fin 1 → Fin S1x1x17.rank)
  bcast_S1x1x17_S16384x16x17_0_1_2 : S1x1x17.BroadcastsInDim S16384x16x17 (![0, 1, 2] : Fin 3 → Fin S16384x16x17.rank)
  dot_S2048x17_S17x200_S2048x200_1_0_0_1_n_n_wf : DotDims.WF S2048x17 S17x200 S2048x200 [1] [0] [0] [1] [] []
  dot_S2048x6_S6x200_S2048x200_1_0_0_1_n_n_wf : DotDims.WF S2048x6 S6x200 S2048x200 [1] [0] [0] [1] [] []
  dot_S2048x400_S400x200_S2048x200_1_0_0_1_n_n_wf : DotDims.WF S2048x400 S400x200 S2048x200 [1] [0] [0] [1] [] []
  dot_S2048x200_S200x200_S2048x200_1_0_0_1_n_n_wf : DotDims.WF S2048x200 S200x200 S2048x200 [1] [0] [0] [1] [] []
  dot_S2048x200_S200x17_S2048x17_1_0_0_1_n_n_wf : DotDims.WF S2048x200 S200x17 S2048x17 [1] [0] [0] [1] [] []
  dot_S2048x200_S200x1_S2048x1_1_0_0_1_n_n_wf : DotDims.WF S2048x200 S200x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x200x17.size a ≤ S16x200x17.size a
  hwx0_0 : ∀ i : grid0.Coords, EltTy.bits .f32 = 32 ∨ (Rect.block (s := S16x200x17) S1x200x17.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x200x6.size a ≤ S16x200x6.size a
  hwx0_1 : ∀ i : grid0.Coords, EltTy.bits .f32 = 32 ∨ (Rect.block (s := S16x200x6) S1x200x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x200x400.size a ≤ S16x200x400.size a
  hwx0_2 : ∀ i : grid0.Coords, EltTy.bits .f32 = 32 ∨ (Rect.block (s := S16x200x400) S1x200x400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x200x200.size a ≤ S16x2x200x200.size a
  hwx0_3 : ∀ i : grid0.Coords, EltTy.bits .f32 = 32 ∨ (Rect.block (s := S16x2x200x200) S1x2x200x200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x17x200.size a ≤ S16x17x200.size a
  hwx0_4 : ∀ i : grid0.Coords, EltTy.bits .f32 = 32 ∨ (Rect.block (s := S16x17x200) S1x17x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x200.size a ≤ S16x1x200.size a
  hwx0_5 : ∀ i : grid0.Coords, EltTy.bits .f32 = 32 ∨ (Rect.block (s := S16x1x200) S1x1x200.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x200.size a ≤ S16x1x200.size a
  hwx0_6 : ∀ i : grid0.Coords, EltTy.bits .f32 = 32 ∨ (Rect.block (s := S16x1x200) S1x1x200.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S200.size a ≤ S200.size a
  hwx0_7 : ∀ i : grid0.Coords, EltTy.bits .f32 = 32 ∨ (Rect.block (s := S200) S200.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S200.size a ≤ S200.size a
  hwx0_8 : ∀ i : grid0.Coords, EltTy.bits .f32 = 32 ∨ (Rect.block (s := S200) S200.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S200.size a ≤ S200.size a
  hwx0_9 : ∀ i : grid0.Coords, EltTy.bits .f32 = 32 ∨ (Rect.block (s := S200) S200.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2x200.size a ≤ S2x200.size a
  hwx0_10 : ∀ i : grid0.Coords, EltTy.bits .f32 = 32 ∨ (Rect.block (s := S2x200) S2x200.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S17.size a ≤ S17.size a
  hwx0_11 : ∀ i : grid0.Coords, EltTy.bits .f32 = 32 ∨ (Rect.block (s := S17) S17.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1.size a ≤ S1.size a
  hwx0_13 : ∀ i : grid0.Coords, EltTy.bits .f32 = 32 ∨ (Rect.block (s := S1) S1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S2048x17.size a ≤ S16384x17.size a
  hwx0_14 : ∀ i : grid0.Coords, EltTy.bits .f32 = 32 ∨ (Rect.block (s := S16384x17) S2048x17.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2048x6.size a ≤ S16384x6.size a
  hwx0_15 : ∀ i : grid0.Coords, EltTy.bits .f32 = 32 ∨ (Rect.block (s := S16384x6) S2048x6.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x2048x17.size a ≤ S16x16384x17.size a
  hwx0_16 : ∀ i : grid0.Coords, EltTy.bits .f32 = 32 ∨ (Rect.block (s := S16x16384x17) S1x2048x17.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x2048x1.size a ≤ S16x16384x1.size a
  hwx0_17 : ∀ i : grid0.Coords, EltTy.bits .f32 = 32 ∨ (Rect.block (s := S16x16384x1) S1x2048x1.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x2048x1.size a ≤ S16x16384x1.size a
  hwx0_18 : ∀ i : grid0.Coords, EltTy.bits .f32 = 32 ∨ (Rect.block (s := S16x16384x1) S1x2048x1.size (cc0_transform_18 i) (hinb0_18 i)).WholeWords (EltTy.packing .f32)

variable [Facts₀]

def dot_S2048x17_S17x200_S2048x200_1_0_0_1_n_n : DotDims S2048x17 S17x200 S2048x200 where
  lhsContracting := [1]
  rhsContracting := [0]
  lhsNonContracting := [0]
  rhsNonContracting := [1]
  lhsBatch := []
  rhsBatch := []
  wf := dot_S2048x17_S17x200_S2048x200_1_0_0_1_n_n_wf
def dot_S2048x6_S6x200_S2048x200_1_0_0_1_n_n : DotDims S2048x6 S6x200 S2048x200 where
  lhsContracting := [1]
  rhsContracting := [0]
  lhsNonContracting := [0]
  rhsNonContracting := [1]
  lhsBatch := []
  rhsBatch := []
  wf := dot_S2048x6_S6x200_S2048x200_1_0_0_1_n_n_wf
def dot_S2048x400_S400x200_S2048x200_1_0_0_1_n_n : DotDims S2048x400 S400x200 S2048x200 where
  lhsContracting := [1]
  rhsContracting := [0]
  lhsNonContracting := [0]
  rhsNonContracting := [1]
  lhsBatch := []
  rhsBatch := []
  wf := dot_S2048x400_S400x200_S2048x200_1_0_0_1_n_n_wf
def dot_S2048x200_S200x200_S2048x200_1_0_0_1_n_n : DotDims S2048x200 S200x200 S2048x200 where
  lhsContracting := [1]
  rhsContracting := [0]
  lhsNonContracting := [0]
  rhsNonContracting := [1]
  lhsBatch := []
  rhsBatch := []
  wf := dot_S2048x200_S200x200_S2048x200_1_0_0_1_n_n_wf
def dot_S2048x200_S200x17_S2048x17_1_0_0_1_n_n : DotDims S2048x200 S200x17 S2048x17 where
  lhsContracting := [1]
  rhsContracting := [0]
  lhsNonContracting := [0]
  rhsNonContracting := [1]
  lhsBatch := []
  rhsBatch := []
  wf := dot_S2048x200_S200x17_S2048x17_1_0_0_1_n_n_wf
def dot_S2048x200_S200x1_S2048x1_1_0_0_1_n_n : DotDims S2048x200 S200x1 S2048x1 where
  lhsContracting := [1]
  rhsContracting := [0]
  lhsNonContracting := [0]
  rhsNonContracting := [1]
  lhsBatch := []
  rhsBatch := []
  wf := dot_S2048x200_S200x1_S2048x1_1_0_0_1_n_n_wf

abbrev win0_0 : Pipeline.Window sig grid0 :=
  Pipeline.Window.ofSpec (Memref.whole main_v14) S1x200x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x200x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x200x400.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x2x200x200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x17x200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x1x200.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x1x200.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S200.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S200.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S200.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S2x200.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S17.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg8) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg9) S1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v12) S2048x17.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg1) S2048x6.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v27_0) S1x2048x17.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v27_1) S1x2048x1.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v27_2) S1x2048x1.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S16384x17 : Shape := ⟨2, ![16384, 17]⟩
abbrev S16384x6 : Shape := ⟨2, ![16384, 6]⟩
abbrev S16x168400 : Shape := ⟨2, ![16, 168400]⟩
abbrev S200 : Shape := ⟨1, ![200]⟩
abbrev S2x200 : Shape := ⟨2, ![2, 200]⟩
abbrev S17 : Shape := ⟨1, ![17]⟩
abbrev S1 : Shape := ⟨1, ![1]⟩
abbrev S16x3400 : Shape := ⟨2, ![16, 3400]⟩
abbrev S16x200x17 : Shape := ⟨3, ![16, 200, 17]⟩
abbrev S16x1200 : Shape := ⟨2, ![16, 1200]⟩
abbrev S16x200x6 : Shape := ⟨3, ![16, 200, 6]⟩
abbrev S16x80000 : Shape := ⟨2, ![16, 80000]⟩
abbrev S16x200x400 : Shape := ⟨3, ![16, 200, 400]⟩
abbrev S16x2x200x200 : Shape := ⟨4, ![16, 2, 200, 200]⟩
abbrev S16x17x200 : Shape := ⟨3, ![16, 17, 200]⟩
abbrev S16x200 : Shape := ⟨2, ![16, 200]⟩
abbrev S16x1x200 : Shape := ⟨3, ![16, 1, 200]⟩
abbrev S1x17 : Shape := ⟨2, ![1, 17]⟩
abbrev S_ : Shape := ⟨0, ![]⟩
abbrev S16384x16x200 : Shape := ⟨3, ![16384, 16, 200]⟩
abbrev S16x16384x200 : Shape := ⟨3, ![16, 16384, 200]⟩
abbrev S1x1x200 : Shape := ⟨3, ![1, 1, 200]⟩
abbrev S16x16384x400 : Shape := ⟨3, ![16, 16384, 400]⟩
abbrev S16x1x200x200 : Shape := ⟨4, ![16, 1, 200, 200]⟩
abbrev S16x200x200 : Shape := ⟨3, ![16, 200, 200]⟩
abbrev S1x200 : Shape := ⟨2, ![1, 200]⟩
abbrev S16x16384x17 : Shape := ⟨3, ![16, 16384, 17]⟩
abbrev S1x1x17 : Shape := ⟨3, ![1, 1, 17]⟩
abbrev S1x16384x17 : Shape := ⟨3, ![1, 16384, 17]⟩
abbrev S16x16384x1 : Shape := ⟨3, ![16, 16384, 1]⟩
abbrev S1x1x1 : Shape := ⟨3, ![1, 1, 1]⟩
abbrev S16384x16x17 : Shape := ⟨3, ![16384, 16, 17]⟩
abbrev S16384x16x1 : Shape := ⟨3, ![16384, 16, 1]⟩

abbrev nBuf : Space → Nat
  | .hbm => 147
  | .vmem => 0
  | .smem => 0
  | _ => 0

abbrev hbmTy0_0 (i : Nat) : BufTy := match i % 128 with
  | 0 => ⟨S16384x17, .f32⟩
  | 1 => ⟨S16384x6, .f32⟩
  | 2 => ⟨S16x168400, .f32⟩
  | 3 => ⟨S200, .f32⟩
  | 4 => ⟨S200, .f32⟩
  | 5 => ⟨S200, .f32⟩
  | 6 => ⟨S2x200, .f32⟩
  | 7 => ⟨S17, .f32⟩
  | 8 => ⟨S1, .f32⟩
  | 9 => ⟨S1, .f32⟩
  | 10 => ⟨S17, .f32⟩
  | 11 => ⟨S17, .f32⟩
  | 12 => ⟨S16x3400, .f32⟩
  | 13 => ⟨S16x200x17, .f32⟩
  | 14 => ⟨S16x1200, .f32⟩
  | 15 => ⟨S16x200x6, .f32⟩
  | 16 => ⟨S16x80000, .f32⟩
  | 17 => ⟨S16x200x400, .f32⟩
  | 18 => ⟨S16x80000, .f32⟩
  | 19 => ⟨S16x2x200x200, .f32⟩
  | 20 => ⟨S16x3400, .f32⟩
  | 21 => ⟨S16x17x200, .f32⟩
  | 22 => ⟨S16x200, .f32⟩
  | 23 => ⟨S16x1x200, .f32⟩
  | 24 => ⟨S16x200, .f32⟩
  | 25 => ⟨S16x1x200, .f32⟩
  | 26 => ⟨S1x17, .f32⟩
  | 27 => ⟨S16384x17, .f32⟩
  | 28 => ⟨S16384x17, .f32⟩
  | 29 => ⟨S_, .f32⟩
  | 30 => ⟨S16384x17, .f32⟩
  | 31 => ⟨S16384x17, .f32⟩
  | 32 => ⟨S17, .f32⟩
  | 33 => ⟨S1x17, .f32⟩
  | 34 => ⟨S16384x17, .f32⟩
  | 35 => ⟨S16384x17, .f32⟩
  | 36 => ⟨S_, .f32⟩
  | 37 => ⟨S16384x17, .f32⟩
  | 38 => ⟨S16384x17, .f32⟩
  | 39 => ⟨S_, .f32⟩
  | 40 => ⟨S16384x17, .f32⟩
  | 41 => ⟨S16384x17, .f32⟩
  | 42 => ⟨S16384x16x200, .f32⟩
  | 43 => ⟨S16x16384x200, .f32⟩
  | 44 => ⟨S1x1x200, .f32⟩
  | 45 => ⟨S16x16384x200, .f32⟩
  | 46 => ⟨S16x16384x200, .f32⟩
  | 47 => ⟨S16384x16x200, .f32⟩
  | 48 => ⟨S16x16384x200, .f32⟩
  | 49 => ⟨S1x1x200, .f32⟩
  | 50 => ⟨S16x16384x200, .f32⟩
  | 51 => ⟨S16x16384x200, .f32⟩
  | 52 => ⟨S16x16384x400, .f32⟩
  | 53 => ⟨S_, .f32⟩
  | 54 => ⟨S16x16384x400, .f32⟩
  | 55 => ⟨S16x16384x400, .i1⟩
  | 56 => ⟨S_, .f32⟩
  | 57 => ⟨S16x16384x400, .f32⟩
  | 58 => ⟨S16x16384x400, .f32⟩
  | 59 => ⟨S16x16384x400, .f32⟩
  | 60 => ⟨S16x16384x200, .f32⟩
  | 61 => ⟨S1x1x200, .f32⟩
  | 62 => ⟨S16x16384x200, .f32⟩
  | 63 => ⟨S16x16384x200, .f32⟩
  | 64 => ⟨S_, .f32⟩
  | 65 => ⟨S16x16384x200, .f32⟩
  | 66 => ⟨S16x16384x200, .i1⟩
  | 67 => ⟨S_, .f32⟩
  | 68 => ⟨S16x16384x200, .f32⟩
  | 69 => ⟨S16x16384x200, .f32⟩
  | 70 => ⟨S16x16384x200, .f32⟩
  | 71 => ⟨S16x1x200x200, .f32⟩
  | 72 => ⟨S16x200x200, .f32⟩
  | 73 => ⟨S16x16384x200, .f32⟩
  | 74 => ⟨S1x200, .f32⟩
  | 75 => ⟨S200, .f32⟩
  | 76 => ⟨S1x1x200, .f32⟩
  | 77 => ⟨S16x16384x200, .f32⟩
  | 78 => ⟨S16x16384x200, .f32⟩
  | 79 => ⟨S_, .f32⟩
  | 80 => ⟨S16x16384x200, .f32⟩
  | 81 => ⟨S16x16384x200, .i1⟩
  | 82 => ⟨S_, .f32⟩
  | 83 => ⟨S16x16384x200, .f32⟩
  | 84 => ⟨S16x16384x200, .f32⟩
  | 85 => ⟨S16x16384x200, .f32⟩
  | 86 => ⟨S16x1x200x200, .f32⟩
  | 87 => ⟨S16x200x200, .f32⟩
  | 88 => ⟨S16x16384x200, .f32⟩
  | 89 => ⟨S1x200, .f32⟩
  | 90 => ⟨S200, .f32⟩
  | 91 => ⟨S1x1x200, .f32⟩
  | 92 => ⟨S16x16384x200, .f32⟩
  | 93 => ⟨S16x16384x200, .f32⟩
  | 94 => ⟨S_, .f32⟩
  | 95 => ⟨S16x16384x200, .f32⟩
  | 96 => ⟨S16x16384x200, .i1⟩
  | 97 => ⟨S_, .f32⟩
  | 98 => ⟨S16x16384x200, .f32⟩
  | 99 => ⟨S16x16384x200, .f32⟩
  | 100 => ⟨S16x16384x200, .f32⟩
  | 101 => ⟨S16x16384x17, .f32⟩
  | 102 => ⟨S1x1x17, .f32⟩
  | 103 => ⟨S16x16384x17, .f32⟩
  | 104 => ⟨S16x16384x17, .f32⟩
  | 105 => ⟨S1x16384x17, .f32⟩
  | 106 => ⟨S16x16384x17, .f32⟩
  | 107 => ⟨S16x16384x17, .f32⟩
  | 108 => ⟨S16x16384x1, .f32⟩
  | 109 => ⟨S1x1x1, .f32⟩
  | 110 => ⟨S16x16384x1, .f32⟩
  | 111 => ⟨S16x16384x1, .f32⟩
  | 112 => ⟨S16x16384x1, .f32⟩
  | 113 => ⟨S_, .f32⟩
  | 114 => ⟨S16x16384x1, .f32⟩
  | 115 => ⟨S16x16384x1, .f32⟩
  | 116 => ⟨S16x16384x1, .f32⟩
  | 117 => ⟨S1x1x1, .f32⟩
  | 118 => ⟨S16x16384x1, .f32⟩
  | 119 => ⟨S16x16384x1, .f32⟩
  | 120 => ⟨S16x16384x1, .f32⟩
  | 121 => ⟨S16x16384x1, .f32⟩
  | 122 => ⟨S_, .f32⟩
  | 123 => ⟨S16x16384x1, .f32⟩
  | 124 => ⟨S16x16384x1, .f32⟩
  | 125 => ⟨S_, .f32⟩
  | 126 => ⟨S16x16384x1, .f32⟩
  | 127 => ⟨S16x16384x1, .f32⟩
  | _ => ⟨S16384x17, .f32⟩

abbrev hbmTy0_1 (i : Nat) : BufTy := match i % 128 with
  | 0 => ⟨S16384x16x17, .f32⟩
  | 1 => ⟨S16384x16x1, .f32⟩
  | 2 => ⟨S16384x16x1, .f32⟩
  | 3 => ⟨S_, .f32⟩
  | 4 => ⟨S16384x16x17, .f32⟩
  | 5 => ⟨S16384x16x17, .f32⟩
  | 6 => ⟨S_, .f32⟩
  | 7 => ⟨S16384x16x17, .f32⟩
  | 8 => ⟨S16384x16x17, .f32⟩
  | 9 => ⟨S_, .f32⟩
  | 10 => ⟨S16384x16x17, .f32⟩
  | 11 => ⟨S16384x16x17, .f32⟩
  | 12 => ⟨S17, .f32⟩
  | 13 => ⟨S1x1x17, .f32⟩
  | 14 => ⟨S16384x16x17, .f32⟩
  | 15 => ⟨S16384x16x17, .f32⟩
  | 16 => ⟨S1x1x17, .f32⟩
  | 17 => ⟨S16384x16x17, .f32⟩
  | 18 => ⟨S16384x16x17, .f32⟩
  | _ => ⟨S16384x17, .f32⟩

abbrev hbmTy (i : Nat) : BufTy := match i / 128 with
  | 0 => hbmTy0_0 i
  | 1 => hbmTy0_1 i
  | _ => ⟨S16384x17, .f32⟩

abbrev bufTy : (tb : Table) → Fin (tcTables nBuf tb) → BufTy
  | .hbm, ⟨i, _⟩ => hbmTy i
  | _, _ => ⟨S16384x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_0 : Ref sig .tc := ⟨.hbm, 36, rfl⟩
abbrev main_v23 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_call0_v1 : Ref sig .tc := ⟨.hbm, 55, rfl⟩
abbrev main_call0_cst_0 : Ref sig .tc := ⟨.hbm, 56, rfl⟩
abbrev main_call0_v2 : Ref sig .tc := ⟨.hbm, 57, rfl⟩
abbrev main_call0_v3 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_cst : Ref sig .tc := ⟨.hbm, 64, rfl⟩
abbrev main_call1_v0 : Ref sig .tc := ⟨.hbm, 65, rfl⟩
abbrev main_call1_v1 : Ref sig .tc := ⟨.hbm, 66, rfl⟩
abbrev main_call1_cst_0 : Ref sig .tc := ⟨.hbm, 67, rfl⟩
abbrev main_call1_v2 : Ref sig .tc := ⟨.hbm, 68, rfl⟩
abbrev main_call1_v3 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_cst_0 : Ref sig .tc := ⟨.hbm, 82, rfl⟩
abbrev main_call2_v2 : Ref sig .tc := ⟨.hbm, 83, rfl⟩
abbrev main_call2_v3 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call3_cst : Ref sig .tc := ⟨.hbm, 94, rfl⟩
abbrev main_call3_v0 : Ref sig .tc := ⟨.hbm, 95, rfl⟩
abbrev main_call3_v1 : Ref sig .tc := ⟨.hbm, 96, rfl⟩
abbrev main_call3_cst_0 : Ref sig .tc := ⟨.hbm, 97, rfl⟩
abbrev main_call3_v2 : Ref sig .tc := ⟨.hbm, 98, rfl⟩
abbrev main_call3_v3 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_2 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_3 : Ref sig .tc := ⟨.hbm, 122, rfl⟩
abbrev main_v82 : Ref sig .tc := ⟨.hbm, 123, rfl⟩
abbrev main_v83 : Ref sig .tc := ⟨.hbm, 124, rfl⟩
abbrev main_cst_4 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_5 : Ref sig .tc := ⟨.hbm, 131, rfl⟩
abbrev main_v89 : Ref sig .tc := ⟨.hbm, 132, rfl⟩
abbrev main_v90 : Ref sig .tc := ⟨.hbm, 133, rfl⟩
abbrev main_cst_6 : Ref sig .tc := ⟨.hbm, 134, rfl⟩
abbrev main_v91 : Ref sig .tc := ⟨.hbm, 135, rfl⟩
abbrev main_v92 : Ref sig .tc := ⟨.hbm, 136, rfl⟩
abbrev main_cst_7 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩

abbrev nD : Nat := 1
abbrev τ : Topo := Topo.v7x

variable {F : FTy → Type} [FloatOps F]

class Facts₀ : Prop where
  slices_S16x168400_S16x3400_0_0 : S16x168400.Slices ![0, 0] S16x3400
  shapeCasts_S16x3400_S16x200x17 : S16x3400.ShapeCasts S16x200x17
  slices_S16x168400_S16x1200_0_3400 : S16x168400.Slices ![0, 3400] S16x1200
  shapeCasts_S16x1200_S16x200x6 : S16x1200.ShapeCasts S16x200x6
  slices_S16x168400_S16x80000_0_4600 : S16x168400.Slices ![0, 4600] S16x80000
  shapeCasts_S16x80000_S16x200x400 : S16x80000.ShapeCasts S16x200x400
  slices_S16x168400_S16x80000_0_84600 : S16x168400.Slices ![0, 84600] S16x80000
  shapeCasts_S16x80000_S16x2x200x200 : S16x80000.ShapeCasts S16x2x200x200
  slices_S16x168400_S16x3400_0_164600 : S16x168400.Slices ![0, 164600] S16x3400
  shapeCasts_S16x3400_S16x17x200 : S16x3400.ShapeCasts S16x17x200
  slices_S16x168400_S16x200_0_168000 : S16x168400.Slices ![0, 168000] S16x200
  shapeCasts_S16x200_S16x1x200 : S16x200.ShapeCasts S16x1x200
  slices_S16x168400_S16x200_0_168200 : S16x168400.Slices ![0, 168200] S16x200
  bcast_S17_S1x17_1 : S17.BroadcastsInDim S1x17 (![1] : Fin 1 → Fin S1x17.rank)
  bcast_S1x17_S16384x17_0_1 : S1x17.BroadcastsInDim S16384x17 (![0, 1] : Fin 2 → Fin S16384x17.rank)
  bcast_S_S16384x17 : S_.BroadcastsInDim S16384x17 (![] : Fin 0 → Fin S16384x17.rank)
  transposes_S16384x16x200_S16x16384x200_1_0_2 : S16384x16x200.Transposes [1, 0, 2] S16x16384x200
  bcast_S200_S1x1x200_2 : S200.BroadcastsInDim S1x1x200 (![2] : Fin 1 → Fin S1x1x200.rank)
  bcast_S1x1x200_S16x16384x200_0_1_2 : S1x1x200.BroadcastsInDim S16x16384x200 (![0, 1, 2] : Fin 3 → Fin S16x16384x200.rank)
  concatenates_S16x16384x200_S16x16384x200_S16x16384x400_d2 : Shape.Concatenates [S16x16384x200, S16x16384x200] S16x16384x400 2
  bcast_S_S16x16384x400 : S_.BroadcastsInDim S16x16384x400 (![] : Fin 0 → Fin S16x16384x400.rank)
  bcast_S_S16x16384x200 : S_.BroadcastsInDim S16x16384x200 (![] : Fin 0 → Fin S16x16384x200.rank)
  slices_S16x2x200x200_S16x1x200x200_0_0_0_0 : S16x2x200x200.Slices ![0, 0, 0, 0] S16x1x200x200
  shapeCasts_S16x1x200x200_S16x200x200 : S16x1x200x200.ShapeCasts S16x200x200
  slices_S2x200_S1x200_0_0 : S2x200.Slices ![0, 0] S1x200
  shapeCasts_S1x200_S200 : S1x200.ShapeCasts S200
  slices_S16x2x200x200_S16x1x200x200_0_1_0_0 : S16x2x200x200.Slices ![0, 1, 0, 0] S16x1x200x200
  slices_S2x200_S1x200_1_0 : S2x200.Slices ![1, 0] S1x200
  bcast_S17_S1x1x17_2 : S17.BroadcastsInDim S1x1x17 (![2] : Fin 1 → Fin S1x1x17.rank)
  bcast_S1x1x17_S16x16384x17_0_1_2 : S1x1x17.BroadcastsInDim S16x16384x17 (![0, 1, 2] : Fin 3 → Fin S16x16384x17.rank)
  bcast_S16384x17_S1x16384x17_1_2 : S16384x17.BroadcastsInDim S1x16384x17 (![1, 2] : Fin 2 → Fin S1x16384x17.rank)
  bcast_S1x16384x17_S16x16384x17_0_1_2 : S1x16384x17.BroadcastsInDim S16x16384x17 (![0, 1, 2] : Fin 3 → Fin S16x16384x17.rank)
  bcast_S1_S1x1x1_2 : S1.BroadcastsInDim S1x1x1 (![2] : Fin 1 → Fin S1x1x1.rank)
  bcast_S1x1x1_S16x16384x1_0_1_2 : S1x1x1.BroadcastsInDim S16x16384x1 (![0, 1, 2] : Fin 3 → Fin S16x16384x1.rank)
  bcast_S_S16x16384x1 : S_.BroadcastsInDim S16x16384x1 (![] : Fin 0 → Fin S16x16384x1.rank)
  transposes_S16x16384x17_S16384x16x17_1_0_2 : S16x16384x17.Transposes [1, 0, 2] S16384x16x17
  transposes_S16x16384x1_S16384x16x1_1_0_2 : S16x16384x1.Transposes [1, 0, 2] S16384x16x1
  bcast_S_S16384x16x17 : S_.BroadcastsInDim S16384x16x17 (![] : Fin 0 → Fin S16384x16x17.rank)
  bcast_S1x1x17_S16384x16x17_0_1_2 : S1x1x17.BroadcastsInDim S16384x16x17 (![0, 1, 2] : Fin 3 → Fin S16384x16x17.rank)
  dot_S16384x17_S16x200x17_S16384x16x200_1_2_0_01_n_n_wf : DotDims.WF S16384x17 S16x200x17 S16384x16x200 [1] [2] [0] [0, 1] [] []
  dot_S16384x6_S16x200x6_S16384x16x200_1_2_0_01_n_n_wf : DotDims.WF S16384x6 S16x200x6 S16384x16x200 [1] [2] [0] [0, 1] [] []
  dot_S16x16384x400_S16x200x400_S16x16384x200_2_2_1_1_0_0_wf : DotDims.WF S16x16384x400 S16x200x400 S16x16384x200 [2] [2] [1] [1] [0] [0]
  dot_S16x16384x200_S16x200x200_S16x16384x200_2_2_1_1_0_0_wf : DotDims.WF S16x16384x200 S16x200x200 S16x16384x200 [2] [2] [1] [1] [0] [0]
  dot_S16x16384x200_S16x17x200_S16x16384x17_2_2_1_1_0_0_wf : DotDims.WF S16x16384x200 S16x17x200 S16x16384x17 [2] [2] [1] [1] [0] [0]
  dot_S16x16384x200_S16x1x200_S16x16384x1_2_2_1_1_0_0_wf : DotDims.WF S16x16384x200 S16x1x200 S16x16384x1 [2] [2] [1] [1] [0] [0]

variable [Facts₀]

def dot_S16384x17_S16x200x17_S16384x16x200_1_2_0_01_n_n : DotDims S16384x17 S16x200x17 S16384x16x200 where
  lhsContracting := [1]
  rhsContracting := [2]
  lhsNonContracting := [0]
  rhsNonContracting := [0, 1]
  lhsBatch := []
  rhsBatch := []
  wf := dot_S16384x17_S16x200x17_S16384x16x200_1_2_0_01_n_n_wf
def dot_S16384x6_S16x200x6_S16384x16x200_1_2_0_01_n_n : DotDims S16384x6 S16x200x6 S16384x16x200 where
  lhsContracting := [1]
  rhsContracting := [2]
  lhsNonContracting := [0]
  rhsNonContracting := [0, 1]
  lhsBatch := []
  rhsBatch := []
  wf := dot_S16384x6_S16x200x6_S16384x16x200_1_2_0_01_n_n_wf
def dot_S16x16384x400_S16x200x400_S16x16384x200_2_2_1_1_0_0 : DotDims S16x16384x400 S16x200x400 S16x16384x200 where
  lhsContracting := [2]
  rhsContracting := [2]
  lhsNonContracting := [1]
  rhsNonContracting := [1]
  lhsBatch := [0]
  rhsBatch := [0]
  wf := dot_S16x16384x400_S16x200x400_S16x16384x200_2_2_1_1_0_0_wf
def dot_S16x16384x200_S16x200x200_S16x16384x200_2_2_1_1_0_0 : DotDims S16x16384x200 S16x200x200 S16x16384x200 where
  lhsContracting := [2]
  rhsContracting := [2]
  lhsNonContracting := [1]
  rhsNonContracting := [1]
  lhsBatch := [0]
  rhsBatch := [0]
  wf := dot_S16x16384x200_S16x200x200_S16x16384x200_2_2_1_1_0_0_wf
def dot_S16x16384x200_S16x17x200_S16x16384x17_2_2_1_1_0_0 : DotDims S16x16384x200 S16x17x200 S16x16384x17 where
  lhsContracting := [2]
  rhsContracting := [2]
  lhsNonContracting := [1]
  rhsNonContracting := [1]
  lhsBatch := [0]
  rhsBatch := [0]
  wf := dot_S16x16384x200_S16x17x200_S16x16384x17_2_2_1_1_0_0_wf
def dot_S16x16384x200_S16x1x200_S16x16384x1_2_2_1_1_0_0 : DotDims S16x16384x200 S16x1x200 S16x16384x1 where
  lhsContracting := [2]
  rhsContracting := [2]
  lhsNonContracting := [1]
  rhsNonContracting := [1]
  lhsBatch := [0]
  rhsBatch := [0]
  wf := dot_S16x16384x200_S16x1x200_S16x16384x1_2_2_1_1_0_0_wf

class Facts : Prop extends Facts₀ where

variable [Facts]
-- ==== Proof.Spec.lean ====
/-
  The network both programs compute, stated once over the extended reals.

  One ensemble member `e` maps a normalised observation row `x` (17 entries) and an action row `u` (6 entries) through
  two input layers joined side by side, three hidden layers of width 200, and three heads:
    o = x·Woᵀ + bo,  a = u·Waᵀ + ba,  y₀ = φ([o | a]),  y₁ = φ(y₀·Wtᵀ + bt),  y₂ = φ(y₁·Wh₀ᵀ + bh₀),  y₃ = φ(y₂·Wh₁ᵀ + bh₁),
    next state = y₃·Wsᵀ + bs + x,   reward = 2·tanh(y₃·wr + br),   done = 1 / (1 + exp (−(y₃·wd + bd))),
  where φ is the leaky rectifier `t ↦ t` for `t ≥ 0` and `c·t` otherwise, with `c` the single-precision number nearest 0.01.
  Every product sum is a plain finite sum of extended reals: no order of summation and no rounding is left in it.

  Around the network both programs apply the same host arithmetic, kept here as whole-array terms that are never opened:
  the observations are normalised by `(2·(obs − lo) / (hi − lo) − 1)·1`, the seven weight tensors are column ranges of
  the flat parameter matrix `g` given their shapes, and the next-state head is put batch-major and mapped back by
  `((t / 1 + 1) / 2)·(hi − lo) + lo`.
-/
import proofs.«149758_j56289841381718_2_alg».proof.Proof.Gen.ReferenceIdeal
import Idealize.ShloMosaic.Lib.ValueIdx

noncomputable section

open scoped BigOperators

namespace Cert.Net

open Idealize.ShloMosaic Idealize.ShloMosaic.ValueIdx
open Cert.ReferenceIdeal Cert.ReferenceIdeal.Gen

/-! ## One row through one ensemble member -/

/-- The leaky rectifier: `t` where `t ≥ 0`, and `c·t` elsewhere, `c` the single-precision number nearest 0.01. -/
def lrelu (t : EReal) : EReal :=
  Scalar.select (FloatOps.cmpf (F := Ideal) (φ := .f32) .oge t (Ideal.ofBits .f32 0x00000000#32)) t
    (Ideal.ofBits .f32 0x3C23D70A#32 * t)

/-- An affine layer: output `h` is the row against row `h` of the weights, plus the bias. -/
def lin {K H : ℕ} (x : Fin K → EReal) (w : Fin H → Fin K → EReal) (β : Fin H → EReal) (h : Fin H) : EReal :=
  (∑ k : Fin K, x k * w h k) + β h

/-- Two rows of 200 entries side by side. -/
def cat (o a : Fin 200 → EReal) (j : Fin 400) : EReal :=
  if h : j.val < 200 then o ⟨j.val, h⟩ else a ⟨j.val - 200, by omega⟩

/-- One ensemble member's weights and biases. -/
structure Params where
  wo : Fin 200 → Fin 17 → EReal
  wa : Fin 200 → Fin 6 → EReal
  wt : Fin 200 → Fin 400 → EReal
  wh0 : Fin 200 → Fin 200 → EReal
  wh1 : Fin 200 → Fin 200 → EReal
  ws : Fin 17 → Fin 200 → EReal
  wr : Fin 200 → EReal
  wd : Fin 200 → EReal
  bo : Fin 200 → EReal
  ba : Fin 200 → EReal
  bt : Fin 200 → EReal
  bh0 : Fin 200 → EReal
  bh1 : Fin 200 → EReal
  bs : Fin 17 → EReal
  br : EReal
  bd : EReal

def hid0 (P : Params) (x : Fin 17 → EReal) (u : Fin 6 → EReal) (j : Fin 400) : EReal :=
  lrelu (cat (lin x P.wo P.bo) (lin u P.wa P.ba) j)
def hid1 (P : Params) (x : Fin 17 → EReal) (u : Fin 6 → EReal) (h : Fin 200) : EReal :=
  lrelu (lin (hid0 P x u) P.wt P.bt h)
def hid2 (P : Params) (x : Fin 17 → EReal) (u : Fin 6 → EReal) (h : Fin 200) : EReal :=
  lrelu (lin (hid1 P x u) P.wh0 P.bh0 h)
def hid3 (P : Params) (x : Fin 17 → EReal) (u : Fin 6 → EReal) (h : Fin 200) : EReal :=
  lrelu (lin (hid2 P x u) P.wh1 P.bh1 h)

/-- The next-state head, before it is mapped back to the observations' range. -/
def nstate (P : Params) (x : Fin 17 → EReal) (u : Fin 6 → EReal) (o : Fin 17) : EReal :=
  lin (hid3 P x u) P.ws P.bs o + x o
/-- The reward head. -/
def reward (P : Params) (x : Fin 17 → EReal) (u : Fin 6 → EReal) : EReal :=
  Ideal.tanh ((∑ k : Fin 200, hid3 P x u k * P.wr k) + P.br) * Ideal.ofBits .f32 0x40000000#32
/-- The termination head. -/
def done (P : Params) (x : Fin 17 → EReal) (u : Fin 6 → EReal) : EReal :=
  Ideal.logistic ((∑ k : Fin 200, hid3 P x u k * P.wd k) + P.bd)

/-! ## The arrays -/

/-- The arrays the network reads: normalised observations, actions, the seven weight tensors (ensemble-major) and the
    seven biases. -/
structure Arrays where
  xn : FVec Ideal S16384x17 .f32
  ac : FVec Ideal S16384x6 .f32
  wo : FVec Ideal S16x200x17 .f32
  wa : FVec Ideal S16x200x6 .f32
  wt : FVec Ideal S16x200x400 .f32
  wh : FVec Ideal S16x2x200x200 .f32
  ws : FVec Ideal S16x17x200 .f32
  wr : FVec Ideal S16x1x200 .f32
  wd : FVec Ideal S16x1x200 .f32
  bo : FVec Ideal S200 .f32
  ba : FVec Ideal S200 .f32
  bt : FVec Ideal S200 .f32
  bh : FVec Ideal S2x200 .f32
  bs : FVec Ideal S17 .f32
  br : FVec Ideal S1 .f32
  bd : FVec Ideal S1 .f32

/-- Ensemble member `e`'s weights, read off the arrays. -/
def params (A : Arrays) (e : Fin 16) : Params where
  wo h k := A.wo (ix3 e h k)
  wa h k := A.wa (ix3 e h k)
  wt h k := A.wt (ix3 e h k)
  wh0 h k := A.wh (ix4 e (0 : Fin 2) h k)
  wh1 h k := A.wh (ix4 e (1 : Fin 2) h k)
  ws o k := A.ws (ix3 e o k)
  wr k := A.wr (ix3 e (0 : Fin 1) k)
  wd k := A.wd (ix3 e (0 : Fin 1) k)
  bo h := A.bo (ix1 h)
  ba h := A.ba (ix1 h)
  bt h := A.bt (ix1 h)
  bh0 h := A.bh (ix2 (0 : Fin 2) h)
  bh1 h := A.bh (ix2 (1 : Fin 2) h)
  bs o := A.bs (ix1 o)
  br := A.br (ix1 (0 : Fin 1))
  bd := A.bd (ix1 (0 : Fin 1))

/-- Row `b` of the normalised observations. -/
def xrow (A : Arrays) (b : Fin 16384) (k : Fin 17) : EReal := A.xn (ix2 b k)
/-- Row `b` of the actions. -/
def urow (A : Arrays) (b : Fin 16384) (k : Fin 6) : EReal := A.ac (ix2 b k)

/-- The next-state head over all ensemble members and rows, ensemble-major. -/
def G0 (A : Arrays) : FVec Ideal S16x16384x17 .f32 :=
  fun i => nstate (params A (i 0)) (xrow A (i 1)) (urow A (i 1)) (i 2)
/-- The reward head, ensemble-major. -/
def G1 (A : Arrays) : FVec Ideal S16x16384x1 .f32 :=
  fun i => reward (params A (i 0)) (xrow A (i 1)) (urow A (i 1))
/-- The termination head, ensemble-major. -/
def G2 (A : Arrays) : FVec Ideal S16x16384x1 .f32 :=
  fun i => done (params A (i 0)) (xrow A (i 1)) (urow A (i 1))

/-! ## The host arithmetic around the network, as whole-array terms -/

/-- The observations normalised: `(2·(obs − lo) / (hi − lo) − 1)·1`. -/
def obsN (obs : FVec Ideal S16384x17 .f32) (lo hi : FVec Ideal S17 .f32) : FVec Ideal S16384x17 .f32 :=
  mulf (subf (Host.divf
      (mulf (broadcastInDim S16384x17 ![] bcast_S_S16384x17 (constant (F := Ideal) S_ .f32 0x40000000#32))
        (subf obs (broadcastInDim S16384x17 ![0, 1] bcast_S1x17_S16384x17_0_1 (broadcastInDim S1x17 ![1] bcast_S17_S1x17_1 lo))))
      (broadcastInDim S16384x17 ![0, 1] bcast_S1x17_S16384x17_0_1 (broadcastInDim S1x17 ![1] bcast_S17_S1x17_1 (subf hi lo))))
    (broadcastInDim S16384x17 ![] bcast_S_S16384x17 (constant (F := Ideal) S_ .f32 0x3F800000#32)))
    (broadcastInDim S16384x17 ![] bcast_S_S16384x17 (constant (F := Ideal) S_ .f32 0x3F800000#32))

/-- The seven weight tensors: column ranges of the flat parameter matrix, given their shapes. -/
def wObs (g : FVec Ideal S16x168400 .f32) : FVec Ideal S16x200x17 .f32 :=
  shapeCast S16x200x17 (extractStridedSlice S16x3400 ![0, 0] g slices_S16x168400_S16x3400_0_0) shapeCasts_S16x3400_S16x200x17
def wAct (g : FVec Ideal S16x168400 .f32) : FVec Ideal S16x200x6 .f32 :=
  shapeCast S16x200x6 (extractStridedSlice S16x1200 ![0, 3400] g slices_S16x168400_S16x1200_0_3400) shapeCasts_S16x1200_S16x200x6
def wTgt (g : FVec Ideal S16x168400 .f32) : FVec Ideal S16x200x400 .f32 :=
  shapeCast S16x200x400 (extractStridedSlice S16x80000 ![0, 4600] g slices_S16x168400_S16x80000_0_4600) shapeCasts_S16x80000_S16x200x400
def wHid (g : FVec Ideal S16x168400 .f32) : FVec Ideal S16x2x200x200 .f32 :=
  shapeCast S16x2x200x200 (extractStridedSlice S16x80000 ![0, 84600] g slices_S16x168400_S16x80000_0_84600) shapeCasts_S16x80000_S16x2x200x200
def wSt (g : FVec Ideal S16x168400 .f32) : FVec Ideal S16x17x200 .f32 :=
  shapeCast S16x17x200 (extractStridedSlice S16x3400 ![0, 164600] g slices_S16x168400_S16x3400_0_164600) shapeCasts_S16x3400_S16x17x200
def wRw (g : FVec Ideal S16x168400 .f32) : FVec Ideal S16x1x200 .f32 :=
  shapeCast S16x1x200 (extractStridedSlice S16x200 ![0, 168000] g slices_S16x168400_S16x200_0_168000) shapeCasts_S16x200_S16x1x200
def wDn (g : FVec Ideal S16x168400 .f32) : FVec Ideal S16x1x200 .f32 :=
  shapeCast S16x1x200 (extractStridedSlice S16x200 ![0, 168200] g slices_S16x168400_S16x200_0_168200) shapeCasts_S16x200_S16x1x200

/-- The arrays the network reads, from the twelve arguments. -/
def arrays (obs : FVec Ideal S16384x17 .f32) (act : FVec Ideal S16384x6 .f32) (g : FVec Ideal S16x168400 .f32)
    (bo ba bt : FVec Ideal S200 .f32) (bh : FVec Ideal S2x200 .f32) (bs : FVec Ideal S17 .f32) (br bd : FVec Ideal S1 .f32)
    (lo hi : FVec Ideal S17 .f32) : Arrays where
  xn := obsN obs lo hi
  ac := act
  wo := wObs g
  wa := wAct g
  wt := wTgt g
  wh := wHid g
  ws := wSt g
  wr := wRw g
  wd := wDn g
  bo := bo
  ba := ba
  bt := bt
  bh := bh
  bs := bs
  br := br
  bd := bd

/-- The next-state head put batch-major and mapped back: `((t / 1 + 1) / 2)·(hi − lo) + lo`. -/
def denorm (t : FVec Ideal S16x16384x17 .f32) (lo hi : FVec Ideal S17 .f32) : FVec Ideal S16384x16x17 .f32 :=
  addf (mulf (Host.divf (addf (Host.divf (transpose S16384x16x17 [1, 0, 2] t transposes_S16x16384x17_S16384x16x17_1_0_2)
          (broadcastInDim S16384x16x17 ![] bcast_S_S16384x16x17 (constant (F := Ideal) S_ .f32 0x3F800000#32)))
        (broadcastInDim S16384x16x17 ![] bcast_S_S16384x16x17 (constant (F := Ideal) S_ .f32 0x3F800000#32)))
      (broadcastInDim S16384x16x17 ![] bcast_S_S16384x16x17 (constant (F := Ideal) S_ .f32 0x40000000#32)))
      (broadcastInDim S16384x16x17 ![0, 1, 2] bcast_S1x1x17_S16384x16x17_0_1_2 (broadcastInDim S1x1x17 ![2] bcast_S17_S1x1x17_2 (subf hi lo))))
    (broadcastInDim S16384x16x17 ![0, 1, 2] bcast_S1x1x17_S16384x16x17_0_1_2 (broadcastInDim S1x1x17 ![2] bcast_S17_S1x1x17_2 lo))

/-- A scalar head put batch-major. -/
def flip1 (t : FVec Ideal S16x16384x1 .f32) : FVec Ideal S16384x16x1 .f32 :=
  transpose S16384x16x1 [1, 0, 2] t transposes_S16x16384x1_S16384x16x1_1_0_2

/-- The three results, from the twelve arguments. -/
def res0 (obs : FVec Ideal S16384x17 .f32) (act : FVec Ideal S16384x6 .f32) (g : FVec Ideal S16x168400 .f32)
    (bo ba bt : FVec Ideal S200 .f32) (bh : FVec Ideal S2x200 .f32) (bs : FVec Ideal S17 .f32) (br bd : FVec Ideal S1 .f32)
    (lo hi : FVec Ideal S17 .f32) : FVec Ideal S16384x16x17 .f32 :=
  denorm (G0 (arrays obs act g bo ba bt bh bs br bd lo hi)) lo hi
def res1 (obs : FVec Ideal S16384x17 .f32) (act : FVec Ideal S16384x6 .f32) (g : FVec Ideal S16x168400 .f32)
    (bo ba bt : FVec Ideal S200 .f32) (bh : FVec Ideal S2x200 .f32) (bs : FVec Ideal S17 .f32) (br bd : FVec Ideal S1 .f32)
    (lo hi : FVec Ideal S17 .f32) : FVec Ideal S16384x16x1 .f32 :=
  flip1 (G1 (arrays obs act g bo ba bt bh bs br bd lo hi))
def res2 (obs : FVec Ideal S16384x17 .f32) (act : FVec Ideal S16384x6 .f32) (g : FVec Ideal S16x168400 .f32)
    (bo ba bt : FVec Ideal S200 .f32) (bh : FVec Ideal S2x200 .f32) (bs : FVec Ideal S17 .f32) (br bd : FVec Ideal S1 .f32)
    (lo hi : FVec Ideal S17 .f32) : FVec Ideal S16384x16x1 .f32 :=
  flip1 (G2 (arrays obs act g bo ba bt bh bs br bd lo hi))

end Cert.Net

end
-- ==== Proof.KArr.lean ====
/-
  The arrays the kernel's region finds when it is entered, on each core: the host operations before the region leave
  the normalised observations and the seven weight tensors of `Cert.Net.arrays` in the buffers the region's windows
  stage, and the remaining windows stage argument arrays as launched.
-/
import proofs.«149758_j56289841381718_2_alg».proof.Proof.Gen.KernelIdeal.Frame
import proofs.«149758_j56289841381718_2_alg».proof.Proof.Spec
import Idealize.ShloMosaic.Lib.StableHlo.Run

noncomputable section

namespace Cert.KArr

open Idealize.ShloMosaic Idealize.ShloMosaic.TcCoe Idealize.SL.Sem
open Cert.KernelIdeal Cert.KernelIdeal.Gen

variable (m : (ℓ : Loc nD τ sig) → Buf (Elt Ideal) ℓ)

/-- The arrays the network reads, from core `c`'s twelve argument arrays as launched. -/
def A_k (c : Dev nD) : Cert.Net.Arrays :=
  Cert.Net.arrays (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

/-! ## The buffers the host operations before the region write -/

/-- The observations' window stages the normalised observations. -/
theorem V_v12 (c : Dev nD) : (V m c main_v12 : FVec Ideal S16384x17 .f32) = (A_k m c).xn := by
  show StableHlo.after hostOps0 (fun b => m (c, b)) (Proc.devRef .tc main_v12) = _
  after_results
  rfl

/-- The first weight window stages the observation layer's weights. -/
theorem V_v14 (c : Dev nD) : (V m c main_v14 : FVec Ideal S16x200x17 .f32) = (A_k m c).wo := by
  show StableHlo.after hostOps0 (fun b => m (c, b)) (Proc.devRef .tc main_v14) = _
  after_results
  rfl

/-- The second stages the action layer's weights. -/
theorem V_v16 (c : Dev nD) : (V m c main_v16 : FVec Ideal S16x200x6 .f32) = (A_k m c).wa := by
  show StableHlo.after hostOps0 (fun b => m (c, b)) (Proc.devRef .tc main_v16) = _
  after_results
  rfl

/-- The third stages the joining layer's weights. -/
theorem V_v18 (c : Dev nD) : (V m c main_v18 : FVec Ideal S16x200x400 .f32) = (A_k m c).wt := by
  show StableHlo.after hostOps0 (fun b => m (c, b)) (Proc.devRef .tc main_v18) = _
  after_results
  rfl

/-- The fourth stages the two hidden layers' weights. -/
theorem V_v20 (c : Dev nD) : (V m c main_v20 : FVec Ideal S16x2x200x200 .f32) = (A_k m c).wh := by
  show StableHlo.after hostOps0 (fun b => m (c, b)) (Proc.devRef .tc main_v20) = _
  after_results
  rfl

/-- The fifth stages the next-state head's weights. -/
theorem V_v22 (c : Dev nD) : (V m c main_v22 : FVec Ideal S16x17x200 .f32) = (A_k m c).ws := by
  show StableHlo.after hostOps0 (fun b => m (c, b)) (Proc.devRef .tc main_v22) = _
  after_results
  rfl

/-- The sixth stages the reward head's weights. -/
theorem V_v24 (c : Dev nD) : (V m c main_v24 : FVec Ideal S16x1x200 .f32) = (A_k m c).wr := by
  show StableHlo.after hostOps0 (fun b => m (c, b)) (Proc.devRef .tc main_v24) = _
  after_results
  rfl

/-- The seventh stages the termination head's weights. -/
theorem V_v26 (c : Dev nD) : (V m c main_v26 : FVec Ideal S16x1x200 .f32) = (A_k m c).wd := by
  show StableHlo.after hostOps0 (fun b => m (c, b)) (Proc.devRef .tc main_v26) = _
  after_results
  rfl

/-! ## The argument arrays the region stages as launched -/

/-- The actions. -/
theorem V_arg1 (c : Dev nD) : (V m c main_arg1 : FVec Ideal S16384x6 .f32) = (A_k m c).ac := V_main_arg1 m c

/-- The observation layer's bias. -/
theorem V_arg3 (c : Dev nD) : (V m c main_arg3 : FVec Ideal S200 .f32) = (A_k m c).bo := V_main_arg3 m c

/-- The action layer's bias. -/
theorem V_arg4 (c : Dev nD) : (V m c main_arg4 : FVec Ideal S200 .f32) = (A_k m c).ba := V_main_arg4 m c

/-- The joining layer's bias. -/
theorem V_arg5 (c : Dev nD) : (V m c main_arg5 : FVec Ideal S200 .f32) = (A_k m c).bt := V_main_arg5 m c

/-- The two hidden layers' biases. -/
theorem V_arg6 (c : Dev nD) : (V m c main_arg6 : FVec Ideal S2x200 .f32) = (A_k m c).bh := V_main_arg6 m c

/-- The next-state head's bias. -/
theorem V_arg7 (c : Dev nD) : (V m c main_arg7 : FVec Ideal S17 .f32) = (A_k m c).bs := V_main_arg7 m c

/-- The reward head's bias. -/
theorem V_arg8 (c : Dev nD) : (V m c main_arg8 : FVec Ideal S1 .f32) = (A_k m c).br := V_main_arg8 m c

/-- The termination head's bias. -/
theorem V_arg9 (c : Dev nD) : (V m c main_arg9 : FVec Ideal S1 .f32) = (A_k m c).bd := V_main_arg9 m c

end Cert.KArr

end
-- ==== Proof.KGrid.lean ====
/-
  The grid of the kernel's one region, 16 ensemble members by 8 row blocks, run member-major: point `t` works on member
  `t / 8` and on rows `2048·(t % 8) … 2048·(t % 8) + 2047`. The windows' printed index maps, decided over the 128 points:
  a weight window's block is the member's, a bias window has one block, the observation and action windows' block is
  the row block's, and an output window's block is the member's row block.
-/
import proofs.«149758_j56289841381718_2_alg».proof.Proof.Gen.KernelIdeal.Frame

noncomputable section

namespace Cert.KGrid

open Idealize.ShloMosaic Idealize.ShloMosaic.TcCoe Idealize.SL.Sem
open Cert.KernelIdeal Cert.KernelIdeal.Gen

/-- A point of the grid is below 128. -/
theorem lt_N (t : Fin cfg0.N) : t.val < 128 := lt_of_lt_of_eq t.isLt N_0

/-- The ensemble member point `t` works on. -/
def eOf (t : Fin cfg0.N) : Fin 16 := ⟨t.val / 8, by have := lt_N t; omega⟩
/-- The row block point `t` works on. -/
def bOf (t : Fin cfg0.N) : Fin 8 := ⟨t.val % 8, Nat.mod_lt _ (by decide)⟩
/-- Row `r` of row block `b`, as a row of the batch. -/
def rowOf (b : Fin 8) (r : Fin 2048) : Fin 16384 := ⟨2048 * b.val + r.val, by have := b.isLt; have := r.isLt; omega⟩

theorem eOf_val (t : Fin cfg0.N) : (eOf t).val = t.val / 8 := rfl
theorem bOf_val (t : Fin cfg0.N) : (bOf t).val = t.val % 8 := rfl
theorem rowOf_val (b : Fin 8) (r : Fin 2048) : (rowOf b r).val = 2048 * b.val + r.val := rfl

/-- The point that works on member `e` and row block `b`. -/
def ptOf (e : Fin 16) (b : Fin 8) : Fin cfg0.N := ⟨8 * e.val + b.val, by
  have := e.isLt; have := b.isLt; exact lt_of_lt_of_eq (show 8 * e.val + b.val < 128 by omega) N_0.symm⟩
theorem ptOf_val (e : Fin 16) (b : Fin 8) : (ptOf e b).val = 8 * e.val + b.val := rfl

/-- The weight windows' blocks are the member's. -/
theorem idx_weights : ∀ t : Fin cfg0.N,
    (win0_0.index t (0 : Fin 3) = t.val / 8 ∧ win0_0.index t (1 : Fin 3) = 0 ∧ win0_0.index t (2 : Fin 3) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = 0 ∧ win0_2.index t (2 : Fin 3) = 0)
    ∧ (win0_3.index t (0 : Fin 4) = t.val / 8 ∧ win0_3.index t (1 : Fin 4) = 0 ∧ win0_3.index t (2 : Fin 4) = 0 ∧ win0_3.index t (3 : Fin 4) = 0)
    ∧ (win0_4.index t (0 : Fin 3) = t.val / 8 ∧ win0_4.index t (1 : Fin 3) = 0 ∧ win0_4.index t (2 : Fin 3) = 0)
    ∧ (win0_5.index t (0 : Fin 3) = t.val / 8 ∧ win0_5.index t (1 : Fin 3) = 0 ∧ win0_5.index t (2 : Fin 3) = 0)
    ∧ (win0_6.index t (0 : Fin 3) = t.val / 8 ∧ win0_6.index t (1 : Fin 3) = 0 ∧ win0_6.index t (2 : Fin 3) = 0) :=
  (by decide +kernel : ∀ t : Fin grid0.N, _)

/-- Each bias window has the one block. -/
theorem idx_biases : ∀ t : Fin cfg0.N,
    win0_7.index t (0 : Fin 1) = 0 ∧ win0_8.index t (0 : Fin 1) = 0 ∧ win0_9.index t (0 : Fin 1) = 0
    ∧ (win0_10.index t (0 : Fin 2) = 0 ∧ win0_10.index t (1 : Fin 2) = 0)
    ∧ win0_11.index t (0 : Fin 1) = 0 ∧ win0_12.index t (0 : Fin 1) = 0 ∧ win0_13.index t (0 : Fin 1) = 0 :=
  (by decide +kernel : ∀ t : Fin grid0.N, _)

/-- The observation and action windows' blocks are the row block's. -/
theorem idx_rows : ∀ t : Fin cfg0.N,
    (win0_14.index t (0 : Fin 2) = t.val % 8 ∧ win0_14.index t (1 : Fin 2) = 0)
    ∧ (win0_15.index t (0 : Fin 2) = t.val % 8 ∧ win0_15.index t (1 : Fin 2) = 0) :=
  (by decide +kernel : ∀ t : Fin grid0.N, _)

/-- An output window's block is the member's row block. -/
theorem idx_outs : ∀ t : Fin cfg0.N,
    (win0_16.index t (0 : Fin 3) = t.val / 8 ∧ win0_16.index t (1 : Fin 3) = t.val % 8 ∧ win0_16.index t (2 : Fin 3) = 0)
    ∧ (win0_17.index t (0 : Fin 3) = t.val / 8 ∧ win0_17.index t (1 : Fin 3) = t.val % 8 ∧ win0_17.index t (2 : Fin 3) = 0)
    ∧ (win0_18.index t (0 : Fin 3) = t.val / 8 ∧ win0_18.index t (1 : Fin 3) = t.val % 8 ∧ win0_18.index t (2 : Fin 3) = 0) :=
  (by decide +kernel : ∀ t : Fin grid0.N, _)

end Cert.KGrid

end
-- ==== Proof.KRead.lean ====
/-
  Each input window's block at a grid point, read at an index, is the matching array of `Cert.Net.arrays` at the index the
  block's place names: a block's coordinate on an axis is the block's index there times the block's extent plus the
  coordinate inside the block.
-/
import proofs.«149758_j56289841381718_2_alg».proof.Proof.KArr
import proofs.«149758_j56289841381718_2_alg».proof.Proof.KGrid

noncomputable section

namespace Cert.KRead

open Idealize.ShloMosaic Idealize.ShloMosaic.TcCoe Idealize.ShloMosaic.ValueIdx Idealize.SL.Sem
open Cert.KernelIdeal Cert.KernelIdeal.Gen Cert.KArr Cert.KGrid

variable (m : (ℓ : Loc nD τ sig) → Buf (Elt Ideal) ℓ)

/-- The observation layer's weight block is the member's. -/
theorem blk0_apply (c : Dev nD) (t : Fin cfg0.N) (h : Fin 200) (k : Fin 17) :
    (iblk m c 0 t : Vec Ideal S1x200x17 .f32) (ix3 (0 : Fin 1) h k) = (A_k m c).wo (ix3 (eOf t) h k) := by
  obtain ⟨⟨e0, e1, e2⟩, -⟩ := idx_weights t
  show (V m c main_v14 : FVec Ideal S16x200x17 .f32) (((cfg0.win 0).blk t).view.emb (ix3 (0 : Fin 1) h k)) = _
  refine (congrFun (V_v14 m c) _).trans (congrArg (A_k m c).wo (funext fun a => Fin.ext ?_))
  match a with
  | ⟨0, _⟩ => show win0_0.index t (0 : Fin 3) * 1 + 1 * 0 = t.val / 8; omega
  | ⟨1, _⟩ => show win0_0.index t (1 : Fin 3) * 200 + 1 * h.val = h.val; omega
  | ⟨2, _⟩ => show win0_0.index t (2 : Fin 3) * 17 + 1 * k.val = k.val; omega

/-- The action layer's weight block is the member's. -/
theorem blk1_apply (c : Dev nD) (t : Fin cfg0.N) (h : Fin 200) (k : Fin 6) :
    (iblk m c 1 t : Vec Ideal S1x200x6 .f32) (ix3 (0 : Fin 1) h k) = (A_k m c).wa (ix3 (eOf t) h k) := by
  obtain ⟨-, ⟨e0, e1, e2⟩, -⟩ := idx_weights t
  show (V m c main_v16 : FVec Ideal S16x200x6 .f32) (((cfg0.win 1).blk t).view.emb (ix3 (0 : Fin 1) h k)) = _
  refine (congrFun (V_v16 m c) _).trans (congrArg (A_k m c).wa (funext fun a => Fin.ext ?_))
  match a with
  | ⟨0, _⟩ => show win0_1.index t (0 : Fin 3) * 1 + 1 * 0 = t.val / 8; omega
  | ⟨1, _⟩ => show win0_1.index t (1 : Fin 3) * 200 + 1 * h.val = h.val; omega
  | ⟨2, _⟩ => show win0_1.index t (2 : Fin 3) * 6 + 1 * k.val = k.val; omega

/-- The joining layer's weight block is the member's. -/
theorem blk2_apply (c : Dev nD) (t : Fin cfg0.N) (h : Fin 200) (k : Fin 400) :
    (iblk m c 2 t : Vec Ideal S1x200x400 .f32) (ix3 (0 : Fin 1) h k) = (A_k m c).wt (ix3 (eOf t) h k) := by
  obtain ⟨-, -, ⟨e0, e1, e2⟩, -⟩ := idx_weights t
  show (V m c main_v18 : FVec Ideal S16x200x400 .f32) (((cfg0.win 2).blk t).view.emb (ix3 (0 : Fin 1) h k)) = _
  refine (congrFun (V_v18 m c) _).trans (congrArg (A_k m c).wt (funext fun a => Fin.ext ?_))
  match a with
  | ⟨0, _⟩ => show win0_2.index t (0 : Fin 3) * 1 + 1 * 0 = t.val / 8; omega
  | ⟨1, _⟩ => show win0_2.index t (1 : Fin 3) * 200 + 1 * h.val = h.val; omega
  | ⟨2, _⟩ => show win0_2.index t (2 : Fin 3) * 400 + 1 * k.val = k.val; omega

/-- The two hidden layers' weight block is the member's. -/
theorem blk3_apply (c : Dev nD) (t : Fin cfg0.N) (l : Fin 2) (h : Fin 200) (k : Fin 200) :
    (iblk m c 3 t : Vec Ideal S1x2x200x200 .f32) (ix4 (0 : Fin 1) l h k) = (A_k m c).wh (ix4 (eOf t) l h k) := by
  obtain ⟨-, -, -, ⟨e0, e1, e2, e3⟩, -⟩ := idx_weights t
  show (V m c main_v20 : FVec Ideal S16x2x200x200 .f32) (((cfg0.win 3).blk t).view.emb (ix4 (0 : Fin 1) l h k)) = _
  refine (congrFun (V_v20 m c) _).trans (congrArg (A_k m c).wh (funext fun a => Fin.ext ?_))
  match a with
  | ⟨0, _⟩ => show win0_3.index t (0 : Fin 4) * 1 + 1 * 0 = t.val / 8; omega
  | ⟨1, _⟩ => show win0_3.index t (1 : Fin 4) * 2 + 1 * l.val = l.val; omega
  | ⟨2, _⟩ => show win0_3.index t (2 : Fin 4) * 200 + 1 * h.val = h.val; omega
  | ⟨3, _⟩ => show win0_3.index t (3 : Fin 4) * 200 + 1 * k.val = k.val; omega

/-- The next-state head's weight block is the member's. -/
theorem blk4_apply (c : Dev nD) (t : Fin cfg0.N) (o : Fin 17) (k : Fin 200) :
    (iblk m c 4 t : Vec Ideal S1x17x200 .f32) (ix3 (0 : Fin 1) o k) = (A_k m c).ws (ix3 (eOf t) o k) := by
  obtain ⟨-, -, -, -, ⟨e0, e1, e2⟩, -⟩ := idx_weights t
  show (V m c main_v22 : FVec Ideal S16x17x200 .f32) (((cfg0.win 4).blk t).view.emb (ix3 (0 : Fin 1) o k)) = _
  refine (congrFun (V_v22 m c) _).trans (congrArg (A_k m c).ws (funext fun a => Fin.ext ?_))
  match a with
  | ⟨0, _⟩ => show win0_4.index t (0 : Fin 3) * 1 + 1 * 0 = t.val / 8; omega
  | ⟨1, _⟩ => show win0_4.index t (1 : Fin 3) * 17 + 1 * o.val = o.val; omega
  | ⟨2, _⟩ => show win0_4.index t (2 : Fin 3) * 200 + 1 * k.val = k.val; omega

/-- The reward head's weight block is the member's. -/
theorem blk5_apply (c : Dev nD) (t : Fin cfg0.N) (k : Fin 200) :
    (iblk m c 5 t : Vec Ideal S1x1x200 .f32) (ix3 (0 : Fin 1) (0 : Fin 1) k) = (A_k m c).wr (ix3 (eOf t) (0 : Fin 1) k) := by
  obtain ⟨-, -, -, -, -, ⟨e0, e1, e2⟩, -⟩ := idx_weights t
  show (V m c main_v24 : FVec Ideal S16x1x200 .f32) (((cfg0.win 5).blk t).view.emb (ix3 (0 : Fin 1) (0 : Fin 1) k)) = _
  refine (congrFun (V_v24 m c) _).trans (congrArg (A_k m c).wr (funext fun a => Fin.ext ?_))
  match a with
  | ⟨0, _⟩ => show win0_5.index t (0 : Fin 3) * 1 + 1 * 0 = t.val / 8; omega
  | ⟨1, _⟩ => show win0_5.index t (1 : Fin 3) * 1 + 1 * 0 = 0; omega
  | ⟨2, _⟩ => show win0_5.index t (2 : Fin 3) * 200 + 1 * k.val = k.val; omega

/-- The termination head's weight block is the member's. -/
theorem blk6_apply (c : Dev nD) (t : Fin cfg0.N) (k : Fin 200) :
    (iblk m c 6 t : Vec Ideal S1x1x200 .f32) (ix3 (0 : Fin 1) (0 : Fin 1) k) = (A_k m c).wd (ix3 (eOf t) (0 : Fin 1) k) := by
  obtain ⟨-, -, -, -, -, -, e0, e1, e2⟩ := idx_weights t
  show (V m c main_v26 : FVec Ideal S16x1x200 .f32) (((cfg0.win 6).blk t).view.emb (ix3 (0 : Fin 1) (0 : Fin 1) k)) = _
  refine (congrFun (V_v26 m c) _).trans (congrArg (A_k m c).wd (funext fun a => Fin.ext ?_))
  match a with
  | ⟨0, _⟩ => show win0_6.index t (0 : Fin 3) * 1 + 1 * 0 = t.val / 8; omega
  | ⟨1, _⟩ => show win0_6.index t (1 : Fin 3) * 1 + 1 * 0 = 0; omega
  | ⟨2, _⟩ => show win0_6.index t (2 : Fin 3) * 200 + 1 * k.val = k.val; omega

/-- The observation layer's bias block is the bias. -/
theorem blk7_apply (c : Dev nD) (t : Fin cfg0.N) (h : Fin 200) :
    (iblk m c 7 t : Vec Ideal S200 .f32) (ix1 h) = (A_k m c).bo (ix1 h) := by
  obtain ⟨e0, -⟩ := idx_biases t
  show (V m c main_arg3 : FVec Ideal S200 .f32) (((cfg0.win 7).blk t).view.emb (ix1 h)) = _
  refine (congrFun (V_arg3 m c) _).trans (congrArg (A_k m c).bo (funext fun a => Fin.ext ?_))
  match a with
  | ⟨0, _⟩ => show win0_7.index t (0 : Fin 1) * 200 + 1 * h.val = h.val; omega

/-- The action layer's bias block is the bias. -/
theorem blk8_apply (c : Dev nD) (t : Fin cfg0.N) (h : Fin 200) :
    (iblk m c 8 t : Vec Ideal S200 .f32) (ix1 h) = (A_k m c).ba (ix1 h) := by
  obtain ⟨-, e0, -⟩ := idx_biases t
  show (V m c main_arg4 : FVec Ideal S200 .f32) (((cfg0.win 8).blk t).view.emb (ix1 h)) = _
  refine (congrFun (V_arg4 m c) _).trans (congrArg (A_k m c).ba (funext fun a => Fin.ext ?_))
  match a with
  | ⟨0, _⟩ => show win0_8.index t (0 : Fin 1) * 200 + 1 * h.val = h.val; omega

/-- The joining layer's bias block is the bias. -/
theorem blk9_apply (c : Dev nD) (t : Fin cfg0.N) (h : Fin 200) :
    (iblk m c 9 t : Vec Ideal S200 .f32) (ix1 h) = (A_k m c).bt (ix1 h) := by
  obtain ⟨-, -, e0, -⟩ := idx_biases t
  show (V m c main_arg5 : FVec Ideal S200 .f32) (((cfg0.win 9).blk t).view.emb (ix1 h)) = _
  refine (congrFun (V_arg5 m c) _).trans (congrArg (A_k m c).bt (funext fun a => Fin.ext ?_))
  match a with
  | ⟨0, _⟩ => show win0_9.index t (0 : Fin 1) * 200 + 1 * h.val = h.val; omega

/-- The hidden layers' bias block is the biases. -/
theorem blk10_apply (c : Dev nD) (t : Fin cfg0.N) (l : Fin 2) (h : Fin 200) :
    (iblk m c 10 t : Vec Ideal S2x200 .f32) (ix2 l h) = (A_k m c).bh (ix2 l h) := by
  obtain ⟨-, -, -, ⟨e0, e1⟩, -⟩ := idx_biases t
  show (V m c main_arg6 : FVec Ideal S2x200 .f32) (((cfg0.win 10).blk t).view.emb (ix2 l h)) = _
  refine (congrFun (V_arg6 m c) _).trans (congrArg (A_k m c).bh (funext fun a => Fin.ext ?_))
  match a with
  | ⟨0, _⟩ => show win0_10.index t (0 : Fin 2) * 2 + 1 * l.val = l.val; omega
  | ⟨1, _⟩ => show win0_10.index t (1 : Fin 2) * 200 + 1 * h.val = h.val; omega

/-- The next-state head's bias block is the bias. -/
theorem blk11_apply (c : Dev nD) (t : Fin cfg0.N) (o : Fin 17) :
    (iblk m c 11 t : Vec Ideal S17 .f32) (ix1 o) = (A_k m c).bs (ix1 o) := by
  obtain ⟨-, -, -, -, e0, -⟩ := idx_biases t
  show (V m c main_arg7 : FVec Ideal S17 .f32) (((cfg0.win 11).blk t).view.emb (ix1 o)) = _
  refine (congrFun (V_arg7 m c) _).trans (congrArg (A_k m c).bs (funext fun a => Fin.ext ?_))
  match a with
  | ⟨0, _⟩ => show win0_11.index t (0 : Fin 1) * 17 + 1 * o.val = o.val; omega

/-- The reward head's bias block is the bias. -/
theorem blk12_apply (c : Dev nD) (t : Fin cfg0.N) :
    (iblk m c 12 t : Vec Ideal S1 .f32) (ix1 (0 : Fin 1)) = (A_k m c).br (ix1 (0 : Fin 1)) := by
  obtain ⟨-, -, -, -, -, e0, -⟩ := idx_biases t
  show (V m c main_arg8 : FVec Ideal S1 .f32) (((cfg0.win 12).blk t).view.emb (ix1 (0 : Fin 1))) = _
  refine (congrFun (V_arg8 m c) _).trans (congrArg (A_k m c).br (funext fun a => Fin.ext ?_))
  match a with
  | ⟨0, _⟩ => show win0_12.index t (0 : Fin 1) * 1 + 1 * 0 = 0; omega

/-- The termination head's bias block is the bias. -/
theorem blk13_apply (c : Dev nD) (t : Fin cfg0.N) :
    (iblk m c 13 t : Vec Ideal S1 .f32) (ix1 (0 : Fin 1)) = (A_k m c).bd (ix1 (0 : Fin 1)) := by
  obtain ⟨-, -, -, -, -, -, e0⟩ := idx_biases t
  show (V m c main_arg9 : FVec Ideal S1 .f32) (((cfg0.win 13).blk t).view.emb (ix1 (0 : Fin 1))) = _
  refine (congrFun (V_arg9 m c) _).trans (congrArg (A_k m c).bd (funext fun a => Fin.ext ?_))
  match a with
  | ⟨0, _⟩ => show win0_13.index t (0 : Fin 1) * 1 + 1 * 0 = 0; omega

/-- The observation block is the row block's rows of the normalised observations. -/
theorem blk14_apply (c : Dev nD) (t : Fin cfg0.N) (r : Fin 2048) (k : Fin 17) :
    (iblk m c 14 t : Vec Ideal S2048x17 .f32) (ix2 r k) = (A_k m c).xn (ix2 (rowOf (bOf t) r) k) := by
  obtain ⟨⟨e0, e1⟩, -⟩ := idx_rows t
  show (V m c main_v12 : FVec Ideal S16384x17 .f32) (((cfg0.win 14).blk t).view.emb (ix2 r k)) = _
  refine (congrFun (V_v12 m c) _).trans (congrArg (A_k m c).xn (funext fun a => Fin.ext ?_))
  match a with
  | ⟨0, _⟩ => show win0_14.index t (0 : Fin 2) * 2048 + 1 * r.val = 2048 * (t.val % 8) + r.val; omega
  | ⟨1, _⟩ => show win0_14.index t (1 : Fin 2) * 17 + 1 * k.val = k.val; omega

/-- The action block is the row block's rows of the actions. -/
theorem blk15_apply (c : Dev nD) (t : Fin cfg0.N) (r : Fin 2048) (k : Fin 6) :
    (iblk m c 15 t : Vec Ideal S2048x6 .f32) (ix2 r k) = (A_k m c).ac (ix2 (rowOf (bOf t) r) k) := by
  obtain ⟨-, e0, e1⟩ := idx_rows t
  show (V m c main_arg1 : FVec Ideal S16384x6 .f32) (((cfg0.win 15).blk t).view.emb (ix2 r k)) = _
  refine (congrFun (V_arg1 m c) _).trans (congrArg (A_k m c).ac (funext fun a => Fin.ext ?_))
  match a with
  | ⟨0, _⟩ => show win0_15.index t (0 : Fin 2) * 2048 + 1 * r.val = 2048 * (t.val % 8) + r.val; omega
  | ⟨1, _⟩ => show win0_15.index t (1 : Fin 2) * 6 + 1 * k.val = k.val; omega

end Cert.KRead

end
-- ==== Proof.LibDot.lean ====
/-
  A plain matrix product `[M, K] × [K, N]` on the host, read at an index over the extended reals: entry `(n, j)` is
  `∑ k, H[n,k] · W[k,j]` — no rounding and no order of summation left in it.
-/
import Idealize.ShloMosaic.Lib.ValueIdx
import Idealize.ShloMosaic.PureOps.Ideal.Laws

noncomputable section

namespace Cert.Dot

open Idealize.ShloMosaic Idealize.ShloMosaic.ValueIdx

variable {M K N : Nat}

theorem lhs0 (i : (⟨2, ![M, N]⟩ : Shape).Idx) (q : (DotDims.plain M K N).contr.Idx) : ((DotDims.plain M K N).lhsIdx i q 0).val = (i 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl
theorem lhs1 (i : (⟨2, ![M, N]⟩ : Shape).Idx) (q : (DotDims.plain M K N).contr.Idx) : ((DotDims.plain M K N).lhsIdx i q 1).val = (q ⟨0, Nat.one_pos⟩).val :=
  (DotDims.plain M K N).lhsIdx_val_of_single rfl i q
theorem rhs0 (i : (⟨2, ![M, N]⟩ : Shape).Idx) (q : (DotDims.plain M K N).contr.Idx) : ((DotDims.plain M K N).rhsIdx i q 0).val = (q ⟨0, Nat.one_pos⟩).val :=
  (DotDims.plain M K N).rhsIdx_val_of_single rfl i q
theorem rhs1 (i : (⟨2, ![M, N]⟩ : Shape).Idx) (q : (DotDims.plain M K N).contr.Idx) : ((DotDims.plain M K N).rhsIdx i q 1).val = (i 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

/-- THE PRODUCT AT `(n, j)`: row `n` of the left operand against column `j` of the right one. -/
theorem plainDot_apply {φ₁ φ₂ : FTy} (H : FVec Ideal ⟨2, ![M, K]⟩ φ₁) (W : FVec Ideal ⟨2, ![K, N]⟩ φ₂) (n : Fin M) (j : Fin N) :
    Host.dotGeneral (F := Ideal) (DotDims.plain M K N) none H W (ix2 n j) = ∑ k : Fin K, H (ix2 n k) * W (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact lhs0 _ _
    | ⟨1, _⟩ => exact (lhs1 _ _).trans hk)
  have er : (DotDims.plain M K N).rhsIdx (ix2 n j) ((contrEquiv1 (DotDims.plain M K N) K rfl rfl).symm k) = ix2 k j := funext fun a => Fin.ext (by
    match a with
    | ⟨0, _⟩ => exact (rhs0 _ _).trans hk
    | ⟨1, _⟩ => exact rhs1 _ _)
  rw [el, er]

end Cert.Dot

end
-- ==== Proof.LibMxuDot.lean ====
/-
  A matrix-unit product into the zero accumulator, read at an index over the extended reals. Two arrangements: the
  plain one, `[M, K] × [K, N]`, whose entry `(n, j)` is `∑ k, A[n,k] · B[k,j]`; and the one that contracts the ROW axis
  of both operands, `[K, M] × [K, N]`, whose entry `(e, f)` is `∑ o, A[o,e] · B[o,f]`.
-/
import Idealize.ShloMosaic.Lib.ValueIdx
import Idealize.ShloMosaic.PureOps.Ideal.Laws
import proofs.«149758_j56289841381718_2_alg».proof.Proof.LibDot

noncomputable section

namespace Cert.KBodyDot

open Idealize.ShloMosaic Idealize.ShloMosaic.ValueIdx

variable {M K N : Nat}

/-- THE PLAIN PRODUCT AT `(n, j)`, for any record of dimension numbers that is the plain one. -/
theorem plainMatmul_apply {φ₁ φ₂ : FTy} (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂) (n : Fin M) (j : Fin N) :
    matmul D prec A B (constant (F := Ideal) ⟨2, ![M, N]⟩ .f32 0x00000000#32) (ix2 n j) = ∑ k : Fin K, A (ix2 n k) * B (ix2 k j) := by
  subst hD
  refine (Ideal.matmul_constant_zero_apply (DotDims.plain M K N) prec A B (ix2 n j)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 n j) ((contrEquiv1 (DotDims.plain M K N) K rfl rfl).symm k) = ix2 n k := funext fun a => Fin.ext (by
    match a with
    | ⟨0, _⟩ => exact Cert.Dot.lhs0 _ _
    | ⟨1, _⟩ => exact (Cert.Dot.lhs1 _ _).trans hk)
  have er : (DotDims.plain M K N).rhsIdx (ix2 n j) ((contrEquiv1 (DotDims.plain M K N) K rfl rfl).symm k) = ix2 k j := funext fun a => Fin.ext (by
    match a with
    | ⟨0, _⟩ => exact (Cert.Dot.rhs0 _ _).trans hk
    | ⟨1, _⟩ => exact Cert.Dot.rhs1 _ _)
  rw [el, er]

/-- The dimension numbers that contract axis 0 of both operands: `[K, M]` by `[K, N]` gives `[M, N]`. -/
def rowsDot (M K N : Nat) (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section
variable (wf : DotDims.WF ⟨2, ![K, M]⟩ ⟨2, ![K, N]⟩ ⟨2, ![M, N]⟩ [0] [0] [1] [1] [] [])

theorem rlhs0 (i : (⟨2, ![M, N]⟩ : Shape).Idx) (q : (rowsDot M K N wf).contr.Idx) : ((rowsDot M K N wf).lhsIdx i q 0).val = (q ⟨0, Nat.one_pos⟩).val :=
  (rowsDot M K N wf).lhsIdx_val_of_single rfl i q
theorem rlhs1 (i : (⟨2, ![M, N]⟩ : Shape).Idx) (q : (rowsDot M K N wf).contr.Idx) : ((rowsDot M K N wf).lhsIdx i q 1).val = (i 0).val := by
  unfold DotDims.lhsIdx
  rw [dif_neg (show ¬(1 : Fin 2) ∈ (rowsDot M K N wf).lhsBatch from List.not_mem_nil), dif_pos (show (1 : Fin 2) ∈ (rowsDot M K N wf).lhsNonContracting from List.mem_singleton.mpr rfl)]
  rfl
theorem rrhs0 (i : (⟨2, ![M, N]⟩ : Shape).Idx) (q : (rowsDot M K N wf).contr.Idx) : ((rowsDot M K N wf).rhsIdx i q 0).val = (q ⟨0, Nat.one_pos⟩).val :=
  (rowsDot M K N wf).rhsIdx_val_of_single rfl i q
theorem rrhs1 (i : (⟨2, ![M, N]⟩ : Shape).Idx) (q : (rowsDot M K N wf).contr.Idx) : ((rowsDot M K N wf).rhsIdx i q 1).val = (i 1).val := by
  unfold DotDims.rhsIdx
  rw [dif_neg (show ¬(1 : Fin 2) ∈ (rowsDot M K N wf).rhsBatch from List.not_mem_nil), dif_pos (show (1 : Fin 2) ∈ (rowsDot M K N wf).rhsNonContracting from List.mem_singleton.mpr rfl)]
  rfl

/-- THE ROW-CONTRACTED PRODUCT AT `(e, f)`: column `e` of the left operand against column `f` of the right one. -/
theorem rowsMatmul_apply {φ₁ φ₂ : FTy} (D : DotDims ⟨2, ![K, M]⟩ ⟨2, ![K, N]⟩ ⟨2, ![M, N]⟩) (hD : D = rowsDot M K N wf)
    (prec : Option ContractPrecision) (A : FVec Ideal ⟨2, ![K, M]⟩ φ₁) (B : FVec Ideal ⟨2, ![K, N]⟩ φ₂) (e : Fin M) (f : Fin N) :
    matmul D prec A B (constant (F := Ideal) ⟨2, ![M, N]⟩ .f32 0x00000000#32) (ix2 e f) = ∑ o : Fin K, A (ix2 o e) * B (ix2 o f) := by
  subst hD
  refine (Ideal.matmul_constant_zero_apply (rowsDot M K N wf) prec A B (ix2 e f)).trans ?_
  rw [← Equiv.sum_comp (contrEquiv1 (rowsDot M K N wf) K rfl rfl).symm]
  refine Finset.sum_congr rfl fun k _ => ?_
  have hk := contrEquiv1_symm_val (rowsDot M K N wf) K rfl rfl k
  have el : (rowsDot M K N wf).lhsIdx (ix2 e f) ((contrEquiv1 (rowsDot M K N wf) K rfl rfl).symm k) = ix2 k e := funext fun a => Fin.ext (by
    match a with
    | ⟨0, _⟩ => exact (rlhs0 wf _ _).trans hk
    | ⟨1, _⟩ => exact rlhs1 wf _ _)
  have er : (rowsDot M K N wf).rhsIdx (ix2 e f) ((contrEquiv1 (rowsDot M K N wf) K rfl rfl).symm k) = ix2 k f := funext fun a => Fin.ext (by
    match a with
    | ⟨0, _⟩ => exact (rrhs0 wf _ _).trans hk
    | ⟨1, _⟩ => exact rrhs1 wf _ _)
  rw [el, er]

end

end Cert.KBodyDot

end
-- ==== Proof.LibKernelLayout.lean ====
/-
  Layout operations and reductions read at an index, in the forms the two bodies use: a vector made a column, a column
  spread over lanes, a bias row spread over rows, a sum or a maximum along one axis of a matrix, and the
  "not equal to zero" mask as a number.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.KBodyLayout

open Idealize.ShloMosaic Idealize.ShloMosaic.ValueIdx

variable {α : Type}

/-- A vector of length `a` cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length `b` made a `[1, b]` row and spread over `a` rows reads, at `(p, c)`, the vector at `c`. -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The index over `(j)` with row `o` inserted on axis 0 is `(o, j)`. -/
theorem lift0_eq {a b : ℕ} (h : (⟨2, ![a, b]⟩ : Shape).Reduces [0] ⟨1, ![b]⟩) (j : Fin b) (o : Fin a) :
    h.lift (ix1 j) o = ix2 o j :=
  funext fun ax => Fin.ext (by
    match ax with
    | ⟨0, _⟩ => rfl
    | ⟨1, _⟩ => rfl)

/-- The index over `(o)` with column `f` inserted on axis 1 is `(o, f)`. -/
theorem lift1_eq {a b : ℕ} (h : (⟨2, ![a, b]⟩ : Shape).Reduces [1] ⟨1, ![a]⟩) (o : Fin a) (f : Fin b) :
    h.lift (ix1 o) f = ix2 o f :=
  funext fun ax => Fin.ext (by
    match ax with
    | ⟨0, _⟩ => rfl
    | ⟨1, _⟩ => rfl)

/-- A sum down the rows of an `[a, b]` matrix reads, at column `j`, the sum over the rows of that column. -/
theorem sumRows_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (j : Fin b) :
    multiReduction .add [0] ⟨1, ![b]⟩ src 0x00000000#32 h hφ hacc (ix1 j) = ∑ o : Fin a, src (ix2 o j) :=
  (Ideal.multiReduction_add_single src _ h hφ hacc (ix1 j)).trans
    (Finset.sum_congr rfl fun o _ => congrArg src (lift0_eq h j o))

/-- A maximum down the rows of an `[a, b]` matrix reads, at column `j`, the largest entry of that column, starting
    from the value the accumulator's word denotes. -/
theorem maxRows_apply {a b : ℕ} (src : FVec Ideal ⟨2, ![a, b]⟩ .f32) (h : (⟨2, ![a, b]⟩ : Shape).Reduces [0] ⟨1, ![b]⟩)
    (hφ : FKind.Formats .f32) (hacc : (0xFF800000#32 : BitVec 32) = FKind.maximumf.neutral .f32 hφ) (j : Fin b) :
    multiReduction .maximumf [0] ⟨1, ![b]⟩ src 0xFF800000#32 h hφ hacc (ix1 j)
      = (Finset.univ : Finset (Fin a)).fold max (Ideal.ofBits .f32 0xFF800000#32) (fun o => src (ix2 o j)) :=
  (Ideal.multiReduction_maximumf_single src _ h hφ hacc (ix1 j)).trans
    (congrArg (Finset.fold max (Ideal.ofBits .f32 0xFF800000#32) · Finset.univ) (funext fun o => congrArg src (lift0_eq h j o)))

/-- A maximum along the lanes of an `[a, b]` matrix reads, at row `o`, the largest entry of that row, starting from
    the value the accumulator's word denotes. -/
theorem maxLanes_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (o : Fin a) :
    multiReduction .maximumf [1] ⟨1, ![a]⟩ src 0xFF800000#32 h hφ hacc (ix1 o)
      = (Finset.univ : Finset (Fin b)).fold max (Ideal.ofBits .f32 0xFF800000#32) (fun f => src (ix2 o f)) :=
  (Ideal.multiReduction_maximumf_single src _ h hφ hacc (ix1 o)).trans
    (congrArg (Finset.fold max (Ideal.ofBits .f32 0xFF800000#32) · Finset.univ) (funext fun f => congrArg src (lift1_eq h o f)))

/-- The comparison "is not equal to zero", widened to a 32-bit integer and converted to a number, is one when the
    value is not zero and zero when it is. -/
theorem ne_zero_mask (x : EReal) :
    (FloatOps.sitofp (F := Ideal) .f32 ((FloatOps.cmpf (F := Ideal) (φ := .f32) .one x (Ideal.ofBits .f32 0x00000000#32)).setWidth 32) : EReal)
      = if x ≠ 0 then 1 else 0 := by
  rw [Ideal.cmpf_def, Ideal.ofBits_zero_f32]
  unfold Ideal.cmp
  by_cases hx : x = 0
  · subst hx
    simp
    show (((0#32 : BitVec 32).toInt : ℝ) : EReal) = 0
    simp
  · simp [hx]
    show (((1#32 : BitVec 32).toInt : ℝ) : EReal) = 1
    simp

end Cert.KBodyLayout

end
-- ==== Proof.KLayer.lean ====
/-
  The pieces one grid step's arithmetic is made of, read at an index over the extended reals: the leaky rectifier
  applied entry by entry; a weight block prepared for the matrix unit (its leading unit axis dropped, then transposed)
  read at `(k, h)` as the block's entry `(0, h, k)`; a product of rows against such prepared weights as a plain sum; a
  bias spread over the rows; and two row blocks of width 200 placed side by side.
-/
import Idealize.ShloMosaic.Lib.ValueIdx
import Idealize.ShloMosaic.Lib.ValueLayout
import Idealize.ShloMosaic.Lib.Pipeline.Value
import Idealize.ShloMosaic.PureOps.Ideal.Laws
import proofs.«149758_j56289841381718_2_alg».proof.Proof.LibMxuDot
import proofs.«149758_j56289841381718_2_alg».proof.Proof.LibKernelLayout
import proofs.«149758_j56289841381718_2_alg».proof.Proof.Spec

noncomputable section

open scoped BigOperators

namespace Cert.KLayer

open Idealize.ShloMosaic Idealize.ShloMosaic.ValueIdx

variable {M K N : ℕ}

/-- The rectifier as the body spells it — compare with zero, scale by the slope, select — is `Cert.Net.lrelu` entry by entry. -/
theorem lrelu_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = Cert.Net.lrelu (v i) := rfl

/-- A `[1, N, K]` weight block with its unit axis dropped and then transposed reads, at `(k, h)`, the block at `(0, h, k)`. -/
theorem wT_apply (w : FVec Ideal ⟨3, ![1, N, K]⟩ .f32) (hc : (⟨3, ![1, N, K]⟩ : Shape).ShapeCasts ⟨2, ![N, K]⟩)
    (hb : FTy.bf16.bits < FTy.f32.bits) (ht : (⟨2, ![N, K]⟩ : Shape).Transposes [1, 0] ⟨2, ![K, N]⟩) (k : Fin K) (h : Fin N) :
    transpose ⟨2, ![K, N]⟩ [1, 0] (truncf .bf16 (shapeCast ⟨2, ![N, K]⟩ w hc) hb) ht (ix2 k h) = w (ix3 (0 : Fin 1) h k) :=
  (transpose_ix2_apply (truncf .bf16 (shapeCast ⟨2, ![N, K]⟩ w hc) hb) ht k h).trans (shapeCast_1ab_ab_apply w hc h k)

/-- Rows against prepared weights: entry `(r, h)` of the product is row `r` against row `h` of the weight block. -/
theorem mm_apply {φ : FTy} (D : DotDims ⟨2, ![M, K]⟩ ⟨2, ![K, N]⟩ ⟨2, ![M, N]⟩) (hD : D = DotDims.plain M K N)
    (X : FVec Ideal ⟨2, ![M, K]⟩ φ) (w : FVec Ideal ⟨3, ![1, N, K]⟩ .f32)
    (hc : (⟨3, ![1, N, K]⟩ : Shape).ShapeCasts ⟨2, ![N, K]⟩) (hb : FTy.bf16.bits < FTy.f32.bits)
    (ht : (⟨2, ![N, K]⟩ : Shape).Transposes [1, 0] ⟨2, ![K, N]⟩) (r : Fin M) (h : Fin N) :
    matmul D none X (transpose ⟨2, ![K, N]⟩ [1, 0] (truncf .bf16 (shapeCast ⟨2, ![N, K]⟩ w hc) hb) ht)
        (constant (F := Ideal) ⟨2, ![M, N]⟩ .f32 0x00000000#32) (ix2 r h)
      = ∑ k : Fin K, X (ix2 r k) * w (ix3 (0 : Fin 1) h k) :=
  (Cert.KBodyDot.plainMatmul_apply D hD none X _ r h).trans
    (Finset.sum_congr rfl fun k _ => congrArg (X (ix2 r k) * ·) (wT_apply w hc hb ht k h))

/-- A `[1, 1, N, K]` block with both unit axes dropped reads, at `(h, k)`, the block at `(0, 0, h, k)`. -/
theorem shapeCast_11ab_ab_apply {α : Type} (x : (⟨4, ![1, 1, N, K]⟩ : Shape).Idx → α)
    (hc : (⟨4, ![1, 1, N, K]⟩ : Shape).ShapeCasts ⟨2, ![N, K]⟩) (h : Fin N) (k : Fin K) :
    shapeCast ⟨2, ![N, K]⟩ x hc (ix2 h k) = x (ix4 (0 : Fin 1) (0 : Fin 1) h k) :=
  shapeCast_apply x hc _ _ (by
    rw [Shape.rowMajor_val_four, Shape.rowMajor_val_two]
    show ((0 * 1 + 0) * N + h.val) * K + k.val = h.val * K + k.val
    simp only [Nat.zero_mul, Nat.zero_add])

/-- Rows against a prepared `[1, 1, N, K]` weight block (one of a stack of hidden-layer matrices). -/
theorem mm4_apply {φ : FTy} (D : DotDims ⟨2, ![M, K]⟩ ⟨2, ![K, N]⟩ ⟨2, ![M, N]⟩) (hD : D = DotDims.plain M K N)
    (X : FVec Ideal ⟨2, ![M, K]⟩ φ) (w : FVec Ideal ⟨4, ![1, 1, N, K]⟩ .f32)
    (hc : (⟨4, ![1, 1, N, K]⟩ : Shape).ShapeCasts ⟨2, ![N, K]⟩) (hb : FTy.bf16.bits < FTy.f32.bits)
    (ht : (⟨2, ![N, K]⟩ : Shape).Transposes [1, 0] ⟨2, ![K, N]⟩) (r : Fin M) (h : Fin N) :
    matmul D none X (transpose ⟨2, ![K, N]⟩ [1, 0] (truncf .bf16 (shapeCast ⟨2, ![N, K]⟩ w hc) hb) ht)
        (constant (F := Ideal) ⟨2, ![M, N]⟩ .f32 0x00000000#32) (ix2 r h)
      = ∑ k : Fin K, X (ix2 r k) * w (ix4 (0 : Fin 1) (0 : Fin 1) h k) :=
  (Cert.KBodyDot.plainMatmul_apply D hD none X _ r h).trans
    (Finset.sum_congr rfl fun k _ => congrArg (X (ix2 r k) * ·)
      ((transpose_ix2_apply (truncf .bf16 (shapeCast ⟨2, ![N, K]⟩ w hc) hb) ht k h).trans (shapeCast_11ab_ab_apply w hc h k)))

/-- A `[1, N]` row made a vector and a row again, spread over `M` rows, reads at `(r, h)` the row at `(0, h)`. -/
theorem rowBias2_apply {α : Type} (v : (⟨2, ![1, N]⟩ : Shape).Idx → α) (h0 : (⟨2, ![1, N]⟩ : Shape).ShapeCasts ⟨1, ![N]⟩)
    (h1 : (⟨1, ![N]⟩ : Shape).ShapeCasts ⟨2, ![1, N]⟩) (h2 : (⟨2, ![1, N]⟩ : Shape).Broadcasts ⟨2, ![M, N]⟩) (r : Fin M) (h : Fin N) :
    broadcastTo ⟨2, ![M, N]⟩ (shapeCast ⟨2, ![1, N]⟩ (shapeCast ⟨1, ![N]⟩ v h0) h1) h2 (ix2 r h) = v (ix2 (0 : Fin 1) h) :=
  (Cert.KBodyLayout.rowBias_apply (shapeCast ⟨1, ![N]⟩ v h0) h1 h2 r h).trans (shapeCast_1a_a_apply v h0 h)

/-- Two `[M, 200]` blocks side by side read, at `(r, j)`, the first for `j < 200` and the second, at `j − 200`, otherwise. -/
theorem cat_apply {α : Type} (a b : (⟨2, ![M, 200]⟩ : Shape).Idx → α)
    (hcat : Shape.Concatenates [⟨2, ![M, 200]⟩, ⟨2, ![M, 200]⟩] ⟨2, ![M, 400]⟩ 1) (r : Fin M) (j : Fin 400) :
    concatenate ⟨2, ![M, 400]⟩ 1 [⟨⟨2, ![M, 200]⟩, a⟩, ⟨⟨2, ![M, 200]⟩, b⟩] hcat (ix2 r j)
      = if h : j.val < 200 then a (ix2 r ⟨j.val, h⟩) else b (ix2 r ⟨j.val - 200, by omega⟩) := by
  split
  · next h =>
    exact concatenate_pair_apply_left _ a b hcat _ rfl (ix2 r ⟨j.val, h⟩) fun ax => by
      match ax with
      | ⟨0, _⟩ => rfl
      | ⟨1, _⟩ => rfl
  · next h =>
    exact concatenate_pair_apply_right _ a b hcat _ rfl rfl (ix2 r ⟨j.val - 200, by omega⟩)
      (fun ax hne => by
        match ax with
        | ⟨0, _⟩ => rfl
        | ⟨1, _⟩ => exact absurd rfl hne)
      (by show j.val - 200 + 200 = j.val; omega)

end Cert.KLayer

end
-- ==== Proof.KBody.lean ====
/-
  One grid step's arithmetic as a composition of named stages — the two input layers, their blocks placed side by
  side, the rectifier, the three hidden products with their biases, and the three heads — and each stage read at an
  index: row `r` of the stage's output is a function of row `r` of its input alone.
-/
import proofs.«149758_j56289841381718_2_alg».proof.Proof.Gen.KernelIdeal.Frame
import proofs.«149758_j56289841381718_2_alg».proof.Proof.KLayer

noncomputable section

open scoped BigOperators

namespace Cert.KBody

open Idealize.ShloMosaic Idealize.ShloMosaic.ValueIdx
open Cert.KernelIdeal Cert.KernelIdeal.Gen

/-! ## The stages -/

/-- The rectifier, entry by entry, then the change of format the matrix unit wants (the identity on extended reals). -/
def act {s : Shape} (pre : FVec Ideal s .f32) : FVec Ideal s .bf16 :=
  truncf .bf16 (select (cmpf .oge pre (broadcast s (Scalar.ofBits (F := Ideal) .f32 0x00000000#32))) pre
    (mulf (broadcast s (Scalar.ofBits (F := Ideal) .f32 0x3C23D70A#32)) pre)) bitsLt_bf16_f32

/-- The observation layer: rows of the block against the 200 × 17 weights, plus the bias. -/
def obsLayer (v0 : Vec Ideal S2048x17 .f32) (v3 : Vec Ideal S1x200x17 .f32) (v8 : Vec Ideal S200 .f32) : FVec Ideal S2048x200 .f32 :=
  addf (matmul dot_S2048x17_S17x200_S2048x200_1_0_0_1_n_n none (truncf .bf16 (k0_pay3 v0) bitsLt_bf16_f32)
      (transpose S17x200 [1, 0] (truncf .bf16 (shapeCast S200x17 v3 shapeCasts_S1x200x17_S200x17) bitsLt_bf16_f32) transposes_S200x17_p1_0_S17x200)
      (constant S2048x200 .f32 0x00000000#32))
    (broadcastTo S2048x200 (shapeCast S1x200 v8 shapeCasts_S200_S1x200) broadcasts_S1x200_S2048x200)

/-- The action layer: rows of the block against the 200 × 6 weights, plus the bias. -/
def actLayer (v12 : Vec Ideal S2048x6 .f32) (v14 : Vec Ideal S1x200x6 .f32) (v19 : Vec Ideal S200 .f32) : FVec Ideal S2048x200 .f32 :=
  addf (matmul dot_S2048x6_S6x200_S2048x200_1_0_0_1_n_n none (truncf .bf16 v12 bitsLt_bf16_f32)
      (transpose S6x200 [1, 0] (truncf .bf16 (shapeCast S200x6 v14 shapeCasts_S1x200x6_S200x6) bitsLt_bf16_f32) transposes_S200x6_p1_0_S6x200)
      (constant S2048x200 .f32 0x00000000#32))
    (broadcastTo S2048x200 (shapeCast S1x200 v19 shapeCasts_S200_S1x200) broadcasts_S1x200_S2048x200)

/-- Two blocks of width 200 side by side. -/
def sideBySide (p q : FVec Ideal S2048x200 .f32) : FVec Ideal S2048x400 .f32 :=
  concatenate S2048x400 1 [⟨S2048x200, p⟩, ⟨S2048x200, q⟩] concatenates_S2048x200_S2048x200_S2048x400_d1

/-- The product of the joined, rectified rows with the 200 × 400 weights (its bias is added by the next stage). -/
def tgtProduct (y : FVec Ideal S2048x400 .bf16) (v30 : Vec Ideal S1x200x400 .f32) : FVec Ideal S2048x200 .f32 :=
  matmul dot_S2048x400_S400x200_S2048x200_1_0_0_1_n_n none y
    (transpose S400x200 [1, 0] (truncf .bf16 (shapeCast S200x400 v30 shapeCasts_S1x200x400_S200x400) bitsLt_bf16_f32) transposes_S200x400_p1_0_S400x200)
    (constant S2048x200 .f32 0x00000000#32)

/-- A bias row added to every row. -/
def addRow (v34 : FVec Ideal S2048x200 .f32) (v36 : FVec Ideal S1x200 .f32) : FVec Ideal S2048x200 .f32 :=
  addf v34 (broadcastTo S2048x200 v36 broadcasts_S1x200_S2048x200)

/-- A hidden layer: rows against one 200 × 200 matrix of the stack, plus that layer's bias row. -/
def hidLayer (y : FVec Ideal S2048x200 .bf16) (w : Vec Ideal S1x1x200x200 .f32) (b : Vec Ideal S1x200 .f32) : FVec Ideal S2048x200 .f32 :=
  addf (matmul dot_S2048x200_S200x200_S2048x200_1_0_0_1_n_n none y
      (transpose S200x200 [1, 0] (truncf .bf16 (shapeCast S200x200 w shapeCasts_S1x1x200x200_S200x200) bitsLt_bf16_f32) transposes_S200x200_p1_0_S200x200)
      (constant S2048x200 .f32 0x00000000#32))
    (broadcastTo S2048x200 (shapeCast S1x200 (shapeCast S200 b shapeCasts_S1x200_S200) shapeCasts_S200_S1x200) broadcasts_S1x200_S2048x200)

/-- The next-state head: rows against the 17 × 200 weights, plus the bias, plus the normalised observations. -/
def stateHead (v1 : FVec Ideal S2048x17 .f32) (y : FVec Ideal S2048x200 .bf16) (v77 : Vec Ideal S1x17x200 .f32) (v82 : Vec Ideal S17 .f32) :
    FVec Ideal S2048x17 .f32 :=
  addf (addf (matmul dot_S2048x200_S200x17_S2048x17_1_0_0_1_n_n none y
        (transpose S200x17 [1, 0] (truncf .bf16 (shapeCast S17x200 v77 shapeCasts_S1x17x200_S17x200) bitsLt_bf16_f32) transposes_S17x200_p1_0_S200x17)
        (constant S2048x17 .f32 0x00000000#32))
      (broadcastTo S2048x17 (shapeCast S1x17 v82 shapeCasts_S17_S1x17) broadcasts_S1x17_S2048x17)) v1

/-- A scalar head before its squashing function: rows against one weight row, plus the bias. -/
def scalarHead (y : FVec Ideal S2048x200 .bf16) (w : Vec Ideal S1x1x200 .f32) (b : Vec Ideal S1 .f32) : FVec Ideal S2048x1 .f32 :=
  addf (matmul dot_S2048x200_S200x1_S2048x1_1_0_0_1_n_n none y
      (transpose S200x1 [1, 0] (truncf .bf16 (shapeCast S1x200 w shapeCasts_S1x1x200_S1x200) bitsLt_bf16_f32) transposes_S1x200_p1_0_S200x1)
      (constant S2048x1 .f32 0x00000000#32))
    (broadcastTo S2048x1 (shapeCast S1x1 b shapeCasts_S1_S1x1) broadcasts_S1x1_S2048x1)

/-! ## The body's stores are these stages composed -/

theorem pay4_eq (v0 : Vec Ideal S2048x17 .f32) (v3 : Vec Ideal S1x200x17 .f32) (v8 : Vec Ideal S200 .f32) (v12 : Vec Ideal S2048x6 .f32)
    (v14 : Vec Ideal S1x200x6 .f32) (v19 : Vec Ideal S200 .f32) (v30 : Vec Ideal S1x200x400 .f32) :
    k0_pay4 (F := Ideal) v0 v3 v8 v12 v14 v19 v30 = tgtProduct (act (sideBySide (obsLayer v0 v3 v8) (actLayer v12 v14 v19))) v30 := rfl

theorem pay6_eq (v34 : FVec Ideal S2048x200 .f32) (v36 : FVec Ideal S1x200 .f32) (v45 : Vec Ideal S1x1x200x200 .f32) (v50 : Vec Ideal S1x200 .f32)
    (v61 : Vec Ideal S1x1x200x200 .f32) (v66 : Vec Ideal S1x200 .f32) :
    k0_pay6 (F := Ideal) v34 v36 v45 v50 v61 v66 = act (hidLayer (act (hidLayer (act (addRow v34 v36)) v45 v50)) v61 v66) := rfl

theorem pay9_eq (v1 : FVec Ideal S2048x17 .f32) (v76 : FVec Ideal S2048x200 .bf16) (v77 : Vec Ideal S1x17x200 .f32) (v82 : Vec Ideal S17 .f32) :
    k0_pay9 (F := Ideal) v1 v76 v77 v82 = shapeCast S1x2048x17 (stateHead v1 v76 v77 v82) shapeCasts_S2048x17_S1x2048x17 := rfl

theorem pay7_eq (v76 : FVec Ideal S2048x200 .bf16) (v87 : Vec Ideal S1x1x200 .f32) (v92 : Vec Ideal S1 .f32) :
    k0_pay7 (F := Ideal) v76 v87 v92 = mulf (tanh (scalarHead v76 v87 v92)) (broadcast S2048x1 (Scalar.ofBits (F := Ideal) .f32 0x40000000#32)) := rfl

theorem pay8_eq (v76 : FVec Ideal S2048x200 .bf16) (v99 : Vec Ideal S1x1x200 .f32) (v104 : Vec Ideal S1 .f32) :
    k0_pay8 (F := Ideal) v76 v99 v104 = logistic (scalarHead v76 v99 v104) := rfl

/-! ## Each stage at an index -/

theorem act_apply {s : Shape} (pre : FVec Ideal s .f32) (i : s.Idx) : act pre i = Cert.Net.lrelu (pre i) := rfl

theorem obsLayer_apply (v0 : Vec Ideal S2048x17 .f32) (v3 : Vec Ideal S1x200x17 .f32) (v8 : Vec Ideal S200 .f32) (r : Fin 2048) (j : Fin 200) :
    obsLayer v0 v3 v8 (ix2 r j) = Cert.Net.lin (fun k => v0 (ix2 r k)) (fun h k => v3 (ix3 (0 : Fin 1) h k)) (fun h => v8 (ix1 h)) j := by
  unfold obsLayer Cert.Net.lin
  refine congrArg₂ (· + ·) ((Cert.KLayer.mm_apply dot_S2048x17_S17x200_S2048x200_1_0_0_1_n_n rfl _ v3 _ _ _ r j).trans ?_)
    (Cert.KBodyLayout.rowBias_apply v8 _ _ r j)
  refine Finset.sum_congr rfl fun k _ => congrArg (· * v3 (ix3 (0 : Fin 1) j k)) ?_
  show k0_pay3 v0 (ix2 r k) = v0 (ix2 r k)
  unfold k0_pay3
  rw [shapeCast_self]

theorem actLayer_apply (v12 : Vec Ideal S2048x6 .f32) (v14 : Vec Ideal S1x200x6 .f32) (v19 : Vec Ideal S200 .f32) (r : Fin 2048) (j : Fin 200) :
    actLayer v12 v14 v19 (ix2 r j) = Cert.Net.lin (fun k => v12 (ix2 r k)) (fun h k => v14 (ix3 (0 : Fin 1) h k)) (fun h => v19 (ix1 h)) j := by
  unfold actLayer Cert.Net.lin
  exact congrArg₂ (· + ·) (Cert.KLayer.mm_apply dot_S2048x6_S6x200_S2048x200_1_0_0_1_n_n rfl _ v14 _ _ _ r j)
    (Cert.KBodyLayout.rowBias_apply v19 _ _ r j)

theorem sideBySide_apply (p q : FVec Ideal S2048x200 .f32) (r : Fin 2048) (j : Fin 400) :
    sideBySide p q (ix2 r j) = Cert.Net.cat (fun h => p (ix2 r h)) (fun h => q (ix2 r h)) j := by
  unfold sideBySide Cert.Net.cat
  exact Cert.KLayer.cat_apply p q _ r j

theorem tgtProduct_apply (y : FVec Ideal S2048x400 .bf16) (v30 : Vec Ideal S1x200x400 .f32) (r : Fin 2048) (h : Fin 200) :
    tgtProduct y v30 (ix2 r h) = ∑ k : Fin 400, y (ix2 r k) * v30 (ix3 (0 : Fin 1) h k) := by
  unfold tgtProduct
  exact Cert.KLayer.mm_apply dot_S2048x400_S400x200_S2048x200_1_0_0_1_n_n rfl y v30 _ _ _ r h

theorem addRow_apply (v34 : FVec Ideal S2048x200 .f32) (v36 : FVec Ideal S1x200 .f32) (r : Fin 2048) (h : Fin 200) :
    addRow v34 v36 (ix2 r h) = v34 (ix2 r h) + v36 (ix2 (0 : Fin 1) h) := by
  unfold addRow
  exact congrArg (v34 (ix2 r h) + ·) (broadcastTo_1b_ab_apply v36 _ r h)

theorem hidLayer_apply (y : FVec Ideal S2048x200 .bf16) (w : Vec Ideal S1x1x200x200 .f32) (b : Vec Ideal S1x200 .f32) (r : Fin 2048) (h : Fin 200) :
    hidLayer y w b (ix2 r h) = (∑ k : Fin 200, y (ix2 r k) * w (ix4 (0 : Fin 1) (0 : Fin 1) h k)) + b (ix2 (0 : Fin 1) h) := by
  unfold hidLayer
  exact congrArg₂ (· + ·) (Cert.KLayer.mm4_apply dot_S2048x200_S200x200_S2048x200_1_0_0_1_n_n rfl y w _ _ _ r h)
    (Cert.KLayer.rowBias2_apply b _ _ _ r h)

theorem stateHead_apply (v1 : FVec Ideal S2048x17 .f32) (y : FVec Ideal S2048x200 .bf16) (v77 : Vec Ideal S1x17x200 .f32) (v82 : Vec Ideal S17 .f32)
    (r : Fin 2048) (o : Fin 17) :
    stateHead v1 y v77 v82 (ix2 r o) = (∑ k : Fin 200, y (ix2 r k) * v77 (ix3 (0 : Fin 1) o k)) + v82 (ix1 o) + v1 (ix2 r o) := by
  unfold stateHead
  exact congrArg (· + v1 (ix2 r o)) (congrArg₂ (· + ·) (Cert.KLayer.mm_apply dot_S2048x200_S200x17_S2048x17_1_0_0_1_n_n rfl y v77 _ _ _ r o)
    (Cert.KBodyLayout.rowBias_apply v82 _ _ r o))

theorem scalarHead_apply (y : FVec Ideal S2048x200 .bf16) (w : Vec Ideal S1x1x200 .f32) (b : Vec Ideal S1 .f32) (r : Fin 2048) :
    scalarHead y w b (ix2 r (0 : Fin 1)) = (∑ k : Fin 200, y (ix2 r k) * w (ix3 (0 : Fin 1) (0 : Fin 1) k)) + b (ix1 (0 : Fin 1)) := by
  unfold scalarHead
  exact congrArg₂ (· + ·) (Cert.KLayer.mm_apply dot_S2048x200_S200x1_S2048x1_1_0_0_1_n_n rfl y w _ _ _ r (0 : Fin 1))
    (Cert.KBodyLayout.rowBias_apply b _ _ r (0 : Fin 1))

end Cert.KBody

end
-- ==== Proof.KPay.lean ====
/-
  What one grid step leaves in its three output blocks, entry by entry: the network of `Cert.Net` applied to row `r` of
  the step's observation and action blocks with the weights held in the step's weight blocks. Row `r` of every stage
  depends on row `r` of the stage before it only, so the layers are read one after the other along that row.
-/
import proofs.«149758_j56289841381718_2_alg».proof.Proof.Gen.KernelIdeal.Frame
import proofs.«149758_j56289841381718_2_alg».proof.Proof.Spec
import proofs.«149758_j56289841381718_2_alg».proof.Proof.KBody

noncomputable section

open scoped BigOperators

namespace Cert.KPay

open Idealize.ShloMosaic Idealize.ShloMosaic.ValueIdx
open Cert.KernelIdeal Cert.KernelIdeal.Gen Cert.KBody

/-- The weights and biases held in one grid step's blocks (the ensemble axis of each weight block has extent one). -/
def blkParams (x0 : Vec Ideal S1x200x17 .f32) (x1 : Vec Ideal S1x200x6 .f32) (x2 : Vec Ideal S1x200x400 .f32)
    (x3 : Vec Ideal S1x2x200x200 .f32) (x4 : Vec Ideal S1x17x200 .f32) (x5 x6 : Vec Ideal S1x1x200 .f32)
    (x7 x8 x9 : Vec Ideal S200 .f32) (x10 : Vec Ideal S2x200 .f32) (x11 : Vec Ideal S17 .f32) (x12 x13 : Vec Ideal S1 .f32) :
    Cert.Net.Params where
  wo h k := x0 (ix3 (0 : Fin 1) h k)
  wa h k := x1 (ix3 (0 : Fin 1) h k)
  wt h k := x2 (ix3 (0 : Fin 1) h k)
  wh0 h k := x3 (ix4 (0 : Fin 1) (0 : Fin 2) h k)
  wh1 h k := x3 (ix4 (0 : Fin 1) (1 : Fin 2) h k)
  ws o k := x4 (ix3 (0 : Fin 1) o k)
  wr k := x5 (ix3 (0 : Fin 1) (0 : Fin 1) k)
  wd k := x6 (ix3 (0 : Fin 1) (0 : Fin 1) k)
  bo h := x7 (ix1 h)
  ba h := x8 (ix1 h)
  bt h := x9 (ix1 h)
  bh0 h := x10 (ix2 (0 : Fin 2) h)
  bh1 h := x10 (ix2 (1 : Fin 2) h)
  bs o := x11 (ix1 o)
  br := x12 (ix1 (0 : Fin 1))
  bd := x13 (ix1 (0 : Fin 1))

/-! ## The layers along one row -/

section layers

variable (P : Cert.Net.Params) (x : Fin 17 → EReal) (u : Fin 6 → EReal) (r : Fin 2048)

/-- The joined, rectified input layers at row `r`. -/
theorem layer0 (b14 : Vec Ideal S2048x17 .f32) (b0 : Vec Ideal S1x200x17 .f32) (b7 : Vec Ideal S200 .f32)
    (b15 : Vec Ideal S2048x6 .f32) (b1 : Vec Ideal S1x200x6 .f32) (b8 : Vec Ideal S200 .f32)
    (hx : ∀ k, b14 (ix2 r k) = x k) (hu : ∀ k, b15 (ix2 r k) = u k)
    (hwo : ∀ h k, b0 (ix3 (0 : Fin 1) h k) = P.wo h k) (hbo : ∀ h, b7 (ix1 h) = P.bo h)
    (hwa : ∀ h k, b1 (ix3 (0 : Fin 1) h k) = P.wa h k) (hba : ∀ h, b8 (ix1 h) = P.ba h) (j : Fin 400) :
    act (sideBySide (obsLayer b14 b0 b7) (actLayer b15 b1 b8)) (ix2 r j) = Cert.Net.hid0 P x u j := by
  rw [act_apply, sideBySide_apply]
  unfold Cert.Net.hid0
  refine congrArg Cert.Net.lrelu (congrArg₂ (fun o a => Cert.Net.cat o a j) (funext fun q => ?_) (funext fun q => ?_))
  · rw [obsLayer_apply]; unfold Cert.Net.lin; simp only [hx, hwo, hbo]
  · rw [actLayer_apply]; unfold Cert.Net.lin; simp only [hu, hwa, hba]

/-- The first hidden layer at row `r`, from the layer before it. -/
theorem layer1 (Y0 : FVec Ideal S2048x400 .bf16) (b2 : Vec Ideal S1x200x400 .f32) (b9 : Vec Ideal S200 .f32)
    (e0 : ∀ j, Y0 (ix2 r j) = Cert.Net.hid0 P x u j)
    (hwt : ∀ h k, b2 (ix3 (0 : Fin 1) h k) = P.wt h k) (hbt : ∀ h, b9 (ix1 h) = P.bt h) (j : Fin 200) :
    act (addRow (tgtProduct Y0 b2) (k0_pay5 b9)) (ix2 r j) = Cert.Net.hid1 P x u j := by
  rw [act_apply, addRow_apply, tgtProduct_apply]
  unfold Cert.Net.hid1 Cert.Net.lin
  refine congrArg Cert.Net.lrelu (congrArg₂ (· + ·) (Finset.sum_congr rfl fun k _ => ?_) ?_)
  · rw [e0, hwt]
  · unfold k0_pay5
    exact (shapeCast_a_1a_apply b9 _ 0 j).trans (hbt j)

/-- A later hidden layer at row `r`, from the layer before it: `g` the layer before, `g'` this one. -/
theorem layerH (Y : FVec Ideal S2048x200 .bf16) (w : Vec Ideal S1x1x200x200 .f32) (c : Vec Ideal S1x200 .f32)
    (g : Fin 200 → EReal) (W : Fin 200 → Fin 200 → EReal) (β : Fin 200 → EReal)
    (e : ∀ j, Y (ix2 r j) = g j) (hw : ∀ h k, w (ix4 (0 : Fin 1) (0 : Fin 1) h k) = W h k) (hc : ∀ h, c (ix2 (0 : Fin 1) h) = β h)
    (j : Fin 200) :
    act (hidLayer Y w c) (ix2 r j) = Cert.Net.lrelu (Cert.Net.lin g W β j) := by
  rw [act_apply, hidLayer_apply]
  unfold Cert.Net.lin
  refine congrArg Cert.Net.lrelu (congrArg₂ (· + ·) (Finset.sum_congr rfl fun k _ => ?_) (hc j))
  rw [e, hw]

/-- The three hidden layers at row `r`. -/
theorem trunk (b14 : Vec Ideal S2048x17 .f32) (b0 : Vec Ideal S1x200x17 .f32) (b7 : Vec Ideal S200 .f32)
    (b15 : Vec Ideal S2048x6 .f32) (b1 : Vec Ideal S1x200x6 .f32) (b8 : Vec Ideal S200 .f32)
    (b2 : Vec Ideal S1x200x400 .f32) (b9 : Vec Ideal S200 .f32)
    (w0 : Vec Ideal S1x1x200x200 .f32) (c0 : Vec Ideal S1x200 .f32) (w1 : Vec Ideal S1x1x200x200 .f32) (c1 : Vec Ideal S1x200 .f32)
    (hx : ∀ k, b14 (ix2 r k) = x k) (hu : ∀ k, b15 (ix2 r k) = u k)
    (hwo : ∀ h k, b0 (ix3 (0 : Fin 1) h k) = P.wo h k) (hbo : ∀ h, b7 (ix1 h) = P.bo h)
    (hwa : ∀ h k, b1 (ix3 (0 : Fin 1) h k) = P.wa h k) (hba : ∀ h, b8 (ix1 h) = P.ba h)
    (hwt : ∀ h k, b2 (ix3 (0 : Fin 1) h k) = P.wt h k) (hbt : ∀ h, b9 (ix1 h) = P.bt h)
    (hw0 : ∀ h k, w0 (ix4 (0 : Fin 1) (0 : Fin 1) h k) = P.wh0 h k) (hc0 : ∀ h, c0 (ix2 (0 : Fin 1) h) = P.bh0 h)
    (hw1 : ∀ h k, w1 (ix4 (0 : Fin 1) (0 : Fin 1) h k) = P.wh1 h k) (hc1 : ∀ h, c1 (ix2 (0 : Fin 1) h) = P.bh1 h)
    (j : Fin 200) :
    k0_pay6 (F := Ideal) (k0_pay4 b14 b0 b7 b15 b1 b8 b2) (k0_pay5 b9) w0 c0 w1 c1 (ix2 r j) = Cert.Net.hid3 P x u j := by
  rw [pay6_eq, pay4_eq]
  exact layerH r _ w1 c1 (Cert.Net.hid2 P x u) P.wh1 P.bh1
    (layerH r _ w0 c0 (Cert.Net.hid1 P x u) P.wh0 P.bh0
      (layer1 P x u r _ b2 b9 (layer0 P x u r b14 b0 b7 b15 b1 b8 hx hu hwo hbo hwa hba) hwt hbt) hw0 hc0) hw1 hc1 j

/-- The next-state head at row `r`, column `o`. -/
theorem stateOut (b14 : Vec Ideal S2048x17 .f32) (Y3 : FVec Ideal S2048x200 .bf16) (b4 : Vec Ideal S1x17x200 .f32) (b11 : Vec Ideal S17 .f32)
    (hx : ∀ k, b14 (ix2 r k) = x k) (e3 : ∀ j, Y3 (ix2 r j) = Cert.Net.hid3 P x u j)
    (hws : ∀ o k, b4 (ix3 (0 : Fin 1) o k) = P.ws o k) (hbs : ∀ o, b11 (ix1 o) = P.bs o) (o : Fin 17) :
    k0_pay9 (F := Ideal) (k0_pay3 b14) Y3 b4 b11 (ix3 (0 : Fin 1) r o) = Cert.Net.nstate P x u o := by
  rw [pay9_eq]
  refine (shapeCast_ab_1ab_apply _ _ (0 : Fin 1) r o).trans ?_
  rw [stateHead_apply]
  unfold Cert.Net.nstate Cert.Net.lin
  refine congrArg₂ (· + ·) (congrArg₂ (· + ·) (Finset.sum_congr rfl fun k _ => ?_) (hbs o)) ?_
  · rw [e3, hws]
  · unfold k0_pay3
    rw [shapeCast_self]
    exact hx o

/-- The reward head at row `r`. -/
theorem rewardOut (Y3 : FVec Ideal S2048x200 .bf16) (b5 : Vec Ideal S1x1x200 .f32) (b12 : Vec Ideal S1 .f32)
    (e3 : ∀ j, Y3 (ix2 r j) = Cert.Net.hid3 P x u j)
    (hwr : ∀ k, b5 (ix3 (0 : Fin 1) (0 : Fin 1) k) = P.wr k) (hbr : b12 (ix1 (0 : Fin 1)) = P.br) :
    k0_pay1 (F := Ideal) (k0_pay7 Y3 b5 b12) (ix3 (0 : Fin 1) r (0 : Fin 1)) = Cert.Net.reward P x u := by
  unfold k0_pay1
  refine (shapeCast_ab_1ab_apply _ _ (0 : Fin 1) r (0 : Fin 1)).trans ?_
  rw [pay7_eq]
  show Ideal.tanh (scalarHead Y3 b5 b12 (ix2 r (0 : Fin 1))) * Ideal.ofBits .f32 0x40000000#32 = _
  rw [scalarHead_apply]
  unfold Cert.Net.reward
  simp only [e3, hwr, hbr]

/-- The termination head at row `r`. -/
theorem doneOut (Y3 : FVec Ideal S2048x200 .bf16) (b6 : Vec Ideal S1x1x200 .f32) (b13 : Vec Ideal S1 .f32)
    (e3 : ∀ j, Y3 (ix2 r j) = Cert.Net.hid3 P x u j)
    (hwd : ∀ k, b6 (ix3 (0 : Fin 1) (0 : Fin 1) k) = P.wd k) (hbd : b13 (ix1 (0 : Fin 1)) = P.bd) :
    k0_pay2 (F := Ideal) (k0_pay8 Y3 b6 b13) (ix3 (0 : Fin 1) r (0 : Fin 1)) = Cert.Net.done P x u := by
  unfold k0_pay2
  refine (shapeCast_ab_1ab_apply _ _ (0 : Fin 1) r (0 : Fin 1)).trans ?_
  rw [pay8_eq]
  show Ideal.logistic (scalarHead Y3 b6 b13 (ix2 r (0 : Fin 1))) = _
  rw [scalarHead_apply]
  unfold Cert.Net.done
  simp only [e3, hwd, hbd]

end layers

/-! ## The loads through the blocks' rectangles -/

theorem z1 : (![0] : Fin 1 → ℕ) = fun _ => 0 := funext fun a => by match a with | ⟨0, _⟩ => rfl
theorem z2 : (![0, 0] : Fin 2 → ℕ) = fun _ => 0 := funext fun a => by match a with | ⟨0, _⟩ => rfl | ⟨1, _⟩ => rfl
theorem z3 : (![0, 0, 0] : Fin 3 → ℕ) = fun _ => 0 := funext fun a => by match a with | ⟨0, _⟩ => rfl | ⟨1, _⟩ => rfl | ⟨2, _⟩ => rfl

/-- Hidden matrix `j` of the stack, loaded as a `[1, 1, 200, 200]` piece, reads the block at `(0, j, h, k)`. -/
theorem ld_hid0 (x3 : Vec Ideal S1x2x200x200 .f32) (h k : Fin 200) :
    View.ld x3 r0_6 (ix4 (0 : Fin 1) (0 : Fin 1) h k) = x3 (ix4 (0 : Fin 1) (0 : Fin 2) h k) := by
  show x3 (r0_6.emb (ix4 (0 : Fin 1) (0 : Fin 1) h k)) = _
  refine congrArg x3 (funext fun a => Fin.ext ?_)
  match a with
  | ⟨0, _⟩ => rfl
  | ⟨1, _⟩ => rfl
  | ⟨2, _⟩ => show 0 + 1 * h.val = h.val; omega
  | ⟨3, _⟩ => show 0 + 1 * k.val = k.val; omega
theorem ld_hid1 (x3 : Vec Ideal S1x2x200x200 .f32) (h k : Fin 200) :
    View.ld x3 r0_8 (ix4 (0 : Fin 1) (0 : Fin 1) h k) = x3 (ix4 (0 : Fin 1) (1 : Fin 2) h k) := by
  show x3 (r0_8.emb (ix4 (0 : Fin 1) (0 : Fin 1) h k)) = _
  refine congrArg x3 (funext fun a => Fin.ext ?_)
  match a with
  | ⟨0, _⟩ => rfl
  | ⟨1, _⟩ => rfl
  | ⟨2, _⟩ => show 0 + 1 * h.val = h.val; omega
  | ⟨3, _⟩ => show 0 + 1 * k.val = k.val; omega
/-- Bias row `j` of the hidden layers, loaded as a `[1, 200]` piece, reads the block at `(j, h)`. -/
theorem ld_hb0 (x10 : Vec Ideal S2x200 .f32) (h : Fin 200) :
    View.ld x10 r0_7 (ix2 (0 : Fin 1) h) = x10 (ix2 (0 : Fin 2) h) := by
  show x10 (r0_7.emb (ix2 (0 : Fin 1) h)) = _
  refine congrArg x10 (funext fun a => Fin.ext ?_)
  match a with
  | ⟨0, _⟩ => rfl
  | ⟨1, _⟩ => show 0 + 1 * h.val = h.val; omega
theorem ld_hb1 (x10 : Vec Ideal S2x200 .f32) (h : Fin 200) :
    View.ld x10 r0_9 (ix2 (0 : Fin 1) h) = x10 (ix2 (1 : Fin 2) h) := by
  show x10 (r0_9.emb (ix2 (0 : Fin 1) h)) = _
  refine congrArg x10 (funext fun a => Fin.ext ?_)
  match a with
  | ⟨0, _⟩ => rfl
  | ⟨1, _⟩ => show 0 + 1 * h.val = h.val; omega

/-! ## The three output blocks -/

variable (x0 : Vec Ideal S1x200x17 .f32) (x1 : Vec Ideal S1x200x6 .f32) (x2 : Vec Ideal S1x200x400 .f32)
    (x3 : Vec Ideal S1x2x200x200 .f32) (x4 : Vec Ideal S1x17x200 .f32) (x5 x6 : Vec Ideal S1x1x200 .f32)
    (x7 x8 x9 : Vec Ideal S200 .f32) (x10 : Vec Ideal S2x200 .f32) (x11 : Vec Ideal S17 .f32) (x12 x13 : Vec Ideal S1 .f32)
    (x14 : Vec Ideal S2048x17 .f32) (x15 : Vec Ideal S2048x6 .f32)

/-- The hidden layers of the step at row `r`, over the blocks as loaded. -/
theorem trunk_blk (r : Fin 2048) (j : Fin 200) :
    k0_pay6 (F := Ideal) (k0_pay4 (View.ld x14 r0_0) (View.ld x0 r0_1) (View.ld x7 r0_2) (View.ld x15 r0_3) (View.ld x1 r0_4) (View.ld x8 r0_2) (View.ld x2 r0_5))
        (k0_pay5 (View.ld x9 r0_2)) (View.ld x3 r0_6) (View.ld x10 r0_7) (View.ld x3 r0_8) (View.ld x10 r0_9) (ix2 r j)
      = Cert.Net.hid3 (blkParams x0 x1 x2 x3 x4 x5 x6 x7 x8 x9 x10 x11 x12 x13) (fun k => x14 (ix2 r k)) (fun k => x15 (ix2 r k)) j :=
  trunk _ _ _ r _ _ _ _ _ _ _ _ _ _ _ _
    (fun k => congrFun (View.ld_unit_zero (S := S2048x17) z2 _ x14) _) (fun k => congrFun (View.ld_unit_zero (S := S2048x6) z2 _ x15) _)
    (fun h k => congrFun (View.ld_unit_zero (S := S1x200x17) z3 _ x0) _) (fun h => congrFun (View.ld_unit_zero (S := S200) z1 _ x7) _)
    (fun h k => congrFun (View.ld_unit_zero (S := S1x200x6) z3 _ x1) _) (fun h => congrFun (View.ld_unit_zero (S := S200) z1 _ x8) _)
    (fun h k => congrFun (View.ld_unit_zero (S := S1x200x400) z3 _ x2) _) (fun h => congrFun (View.ld_unit_zero (S := S200) z1 _ x9) _)
    (ld_hid0 x3) (ld_hb0 x10) (ld_hid1 x3) (ld_hb1 x10) j

/-- The next-state block at row `r`, column `o`. -/
theorem out16_apply (r : Fin 2048) (o : Fin 17) :
    out0_16 (F := Ideal) x0 x1 x2 x3 x4 x5 x6 x7 x8 x9 x10 x11 x12 x13 x14 x15 (ix3 (0 : Fin 1) r o)
      = Cert.Net.nstate (blkParams x0 x1 x2 x3 x4 x5 x6 x7 x8 x9 x10 x11 x12 x13)
          (fun k => x14 (ix2 r k)) (fun k => x15 (ix2 r k)) o := by
  unfold out0_16
  rw [View.canon_unit_zero (S := S1x2048x17) z3]
  exact stateOut _ _ _ r _ _ _ _ (fun k => congrFun (View.ld_unit_zero (S := S2048x17) z2 _ x14) _)
    (trunk_blk x0 x1 x2 x3 x4 x5 x6 x7 x8 x9 x10 x11 x12 x13 x14 x15 r)
    (fun q k => congrFun (View.ld_unit_zero (S := S1x17x200) z3 _ x4) _) (fun q => congrFun (View.ld_unit_zero (S := S17) z1 _ x11) _) o

/-- The reward block at row `r`. -/
theorem out17_apply (r : Fin 2048) :
    out0_17 (F := Ideal) x0 x1 x2 x3 x4 x5 x6 x7 x8 x9 x10 x11 x12 x13 x14 x15 (ix3 (0 : Fin 1) r (0 : Fin 1))
      = Cert.Net.reward (blkParams x0 x1 x2 x3 x4 x5 x6 x7 x8 x9 x10 x11 x12 x13)
          (fun k => x14 (ix2 r k)) (fun k => x15 (ix2 r k)) := by
  unfold out0_17
  rw [View.canon_unit_zero (S := S1x2048x1) z3]
  exact rewardOut _ _ _ r _ _ _ (trunk_blk x0 x1 x2 x3 x4 x5 x6 x7 x8 x9 x10 x11 x12 x13 x14 x15 r)
    (fun k => congrFun (View.ld_unit_zero (S := S1x1x200) z3 _ x5) _) (congrFun (View.ld_unit_zero (S := S1) z1 _ x12) _)

/-- The termination block at row `r`. -/
theorem out18_apply (r : Fin 2048) :
    out0_18 (F := Ideal) x0 x1 x2 x3 x4 x5 x6 x7 x8 x9 x10 x11 x12 x13 x14 x15 (ix3 (0 : Fin 1) r (0 : Fin 1))
      = Cert.Net.done (blkParams x0 x1 x2 x3 x4 x5 x6 x7 x8 x9 x10 x11 x12 x13)
          (fun k => x14 (ix2 r k)) (fun k => x15 (ix2 r k)) := by
  unfold out0_18
  rw [View.canon_unit_zero (S := S1x2048x1) z3]
  exact doneOut _ _ _ r _ _ _ (trunk_blk x0 x1 x2 x3 x4 x5 x6 x7 x8 x9 x10 x11 x12 x13 x14 x15 r)
    (fun k => congrFun (View.ld_unit_zero (S := S1x1x200) z3 _ x6) _) (congrFun (View.ld_unit_zero (S := S1) z1 _ x13) _)

end Cert.KPay

end
-- ==== Proof.KBlocks.lean ====
/-
  From the blocks of one grid step to the three arrays the region leaves. At point `t` the input windows' blocks hold
  member `t / 8`'s weights, the biases, and rows `2048·(t % 8) …` of the normalised observations and of the actions, so
  what the step writes back to each output window is that window's block of the head `Cert.Net.G0` / `G1` / `G2` over all
  members and rows; the 128 blocks tile each output array, which therefore ends holding the head.
-/
import proofs.«149758_j56289841381718_2_alg».proof.Proof.KRead
import proofs.«149758_j56289841381718_2_alg».proof.Proof.KPay
import Idealize.ShloMosaic.Lib.Pipeline.Value

noncomputable section

namespace Cert.KBlocks

open Idealize.ShloMosaic Idealize.ShloMosaic.TcCoe Idealize.ShloMosaic.ValueIdx Idealize.SL.Sem
open Idealize.ShloMosaic.Pipeline (Dat)
open Cert.KernelIdeal Cert.KernelIdeal.Gen Cert.KArr Cert.KGrid Cert.KRead

/-! ## One grid step, over blocks that are variables -/

section Step

variable (A : Cert.Net.Arrays) (e : Fin 16) (b : Fin 8)
    (x0 : Vec Ideal S1x200x17 .f32) (x1 : Vec Ideal S1x200x6 .f32) (x2 : Vec Ideal S1x200x400 .f32)
    (x3 : Vec Ideal S1x2x200x200 .f32) (x4 : Vec Ideal S1x17x200 .f32) (x5 x6 : Vec Ideal S1x1x200 .f32)
    (x7 x8 x9 : Vec Ideal S200 .f32) (x10 : Vec Ideal S2x200 .f32) (x11 : Vec Ideal S17 .f32) (x12 x13 : Vec Ideal S1 .f32)
    (x14 : Vec Ideal S2048x17 .f32) (x15 : Vec Ideal S2048x6 .f32)

/-- The sixteen blocks hold member `e`'s weights, the biases, and row block `b` of the observations and actions of `A`. -/
structure BlocksOf : Prop where
  h0 : ∀ (h : Fin 200) (k : Fin 17), x0 (ix3 (0 : Fin 1) h k) = A.wo (ix3 e h k)
  h1 : ∀ (h : Fin 200) (k : Fin 6), x1 (ix3 (0 : Fin 1) h k) = A.wa (ix3 e h k)
  h2 : ∀ (h : Fin 200) (k : Fin 400), x2 (ix3 (0 : Fin 1) h k) = A.wt (ix3 e h k)
  h3 : ∀ (l : Fin 2) (h : Fin 200) (k : Fin 200), x3 (ix4 (0 : Fin 1) l h k) = A.wh (ix4 e l h k)
  h4 : ∀ (o : Fin 17) (k : Fin 200), x4 (ix3 (0 : Fin 1) o k) = A.ws (ix3 e o k)
  h5 : ∀ (k : Fin 200), x5 (ix3 (0 : Fin 1) (0 : Fin 1) k) = A.wr (ix3 e (0 : Fin 1) k)
  h6 : ∀ (k : Fin 200), x6 (ix3 (0 : Fin 1) (0 : Fin 1) k) = A.wd (ix3 e (0 : Fin 1) k)
  h7 : ∀ (h : Fin 200), x7 (ix1 h) = A.bo (ix1 h)
  h8 : ∀ (h : Fin 200), x8 (ix1 h) = A.ba (ix1 h)
  h9 : ∀ (h : Fin 200), x9 (ix1 h) = A.bt (ix1 h)
  h10 : ∀ (l : Fin 2) (h : Fin 200), x10 (ix2 l h) = A.bh (ix2 l h)
  h11 : ∀ (o : Fin 17), x11 (ix1 o) = A.bs (ix1 o)
  h12 : x12 (ix1 (0 : Fin 1)) = A.br (ix1 (0 : Fin 1))
  h13 : x13 (ix1 (0 : Fin 1)) = A.bd (ix1 (0 : Fin 1))
  h14 : ∀ (r : Fin 2048) (k : Fin 17), x14 (ix2 r k) = A.xn (ix2 (rowOf b r) k)
  h15 : ∀ (r : Fin 2048) (k : Fin 6), x15 (ix2 r k) = A.ac (ix2 (rowOf b r) k)

/-- The weights held in the step's blocks are member `e`'s. -/
theorem params_eq (H : BlocksOf A e b x0 x1 x2 x3 x4 x5 x6 x7 x8 x9 x10 x11 x12 x13 x14 x15) :
    KPay.blkParams x0 x1 x2 x3 x4 x5 x6 x7 x8 x9 x10 x11 x12 x13 = Cert.Net.params A e := by
  unfold KPay.blkParams Cert.Net.params
  simp only [H.h0, H.h1, H.h2, H.h3, H.h4, H.h5, H.h6, H.h7, H.h8, H.h9, H.h10, H.h11, H.h12, H.h13]

/-- The next-state block at an index is the head at the index the block's place names. -/
theorem out16_blk (H : BlocksOf A e b x0 x1 x2 x3 x4 x5 x6 x7 x8 x9 x10 x11 x12 x13 x14 x15) (j : S1x2048x17.Idx) (i : S16x16384x17.Idx)
    (hi0 : (i 0).val = e.val) (hi1 : (i 1).val = 2048 * b.val + (j 1).val) (hi2 : (i 2).val = (j 2).val) :
    out0_16 (F := Ideal) x0 x1 x2 x3 x4 x5 x6 x7 x8 x9 x10 x11 x12 x13 x14 x15 j = Cert.Net.G0 A i := by
  obtain ⟨r, o, rfl⟩ : ∃ (r : Fin 2048) (o : Fin 17), j = ix3 (0 : Fin 1) r o := ⟨j 1, j 2, by
    funext a
    match a with
    | ⟨0, _⟩ => exact Fin.ext (by have h : (j 0).val < 1 := (j 0).isLt; show (j 0).val = 0; omega)
    | ⟨1, _⟩ => rfl
    | ⟨2, _⟩ => rfl⟩
  obtain rfl : i = ix3 e (rowOf b r) o := by
    funext a
    match a with
    | ⟨0, _⟩ => exact Fin.ext hi0
    | ⟨1, _⟩ => exact Fin.ext hi1
    | ⟨2, _⟩ => exact Fin.ext hi2
  rw [KPay.out16_apply, params_eq A e b x0 x1 x2 x3 x4 x5 x6 x7 x8 x9 x10 x11 x12 x13 x14 x15 H]
  show Cert.Net.nstate (Cert.Net.params A e) (fun k => x14 (ix2 r k)) (fun k => x15 (ix2 r k)) o
    = Cert.Net.nstate (Cert.Net.params A e) (Cert.Net.xrow A (rowOf b r)) (Cert.Net.urow A (rowOf b r)) o
  rw [show (fun k => x14 (ix2 r k)) = Cert.Net.xrow A (rowOf b r) from funext (H.h14 r),
    show (fun k => x15 (ix2 r k)) = Cert.Net.urow A (rowOf b r) from funext (H.h15 r)]

/-- The reward block at an index is the head at the index the block's place names. -/
theorem out17_blk (H : BlocksOf A e b x0 x1 x2 x3 x4 x5 x6 x7 x8 x9 x10 x11 x12 x13 x14 x15) (j : S1x2048x1.Idx) (i : S16x16384x1.Idx)
    (hi0 : (i 0).val = e.val) (hi1 : (i 1).val = 2048 * b.val + (j 1).val) :
    out0_17 (F := Ideal) x0 x1 x2 x3 x4 x5 x6 x7 x8 x9 x10 x11 x12 x13 x14 x15 j = Cert.Net.G1 A i := by
  obtain ⟨r, rfl⟩ : ∃ (r : Fin 2048), j = ix3 (0 : Fin 1) r (0 : Fin 1) := ⟨j 1, by
    funext a
    match a with
    | ⟨0, _⟩ => exact Fin.ext (by have h : (j 0).val < 1 := (j 0).isLt; show (j 0).val = 0; omega)
    | ⟨1, _⟩ => rfl
    | ⟨2, _⟩ => exact Fin.ext (by have h : (j 2).val < 1 := (j 2).isLt; show (j 2).val = 0; omega)⟩
  obtain rfl : i = ix3 e (rowOf b r) (0 : Fin 1) := by
    funext a
    match a with
    | ⟨0, _⟩ => exact Fin.ext hi0
    | ⟨1, _⟩ => exact Fin.ext hi1
    | ⟨2, _⟩ => exact Fin.ext (by have h : (i 2).val < 1 := (i 2).isLt; show (i 2).val = 0; omega)
  rw [KPay.out17_apply, params_eq A e b x0 x1 x2 x3 x4 x5 x6 x7 x8 x9 x10 x11 x12 x13 x14 x15 H]
  show Cert.Net.reward (Cert.Net.params A e) (fun k => x14 (ix2 r k)) (fun k => x15 (ix2 r k))
    = Cert.Net.reward (Cert.Net.params A e) (Cert.Net.xrow A (rowOf b r)) (Cert.Net.urow A (rowOf b r))
  rw [show (fun k => x14 (ix2 r k)) = Cert.Net.xrow A (rowOf b r) from funext (H.h14 r),
    show (fun k => x15 (ix2 r k)) = Cert.Net.urow A (rowOf b r) from funext (H.h15 r)]

/-- The termination block at an index is the head at the index the block's place names. -/
theorem out18_blk (H : BlocksOf A e b x0 x1 x2 x3 x4 x5 x6 x7 x8 x9 x10 x11 x12 x13 x14 x15) (j : S1x2048x1.Idx) (i : S16x16384x1.Idx)
    (hi0 : (i 0).val = e.val) (hi1 : (i 1).val = 2048 * b.val + (j 1).val) :
    out0_18 (F := Ideal) x0 x1 x2 x3 x4 x5 x6 x7 x8 x9 x10 x11 x12 x13 x14 x15 j = Cert.Net.G2 A i := by
  obtain ⟨r, rfl⟩ : ∃ (r : Fin 2048), j = ix3 (0 : Fin 1) r (0 : Fin 1) := ⟨j 1, by
    funext a
    match a with
    | ⟨0, _⟩ => exact Fin.ext (by have h : (j 0).val < 1 := (j 0).isLt; show (j 0).val = 0; omega)
    | ⟨1, _⟩ => rfl
    | ⟨2, _⟩ => exact Fin.ext (by have h : (j 2).val < 1 := (j 2).isLt; show (j 2).val = 0; omega)⟩
  obtain rfl : i = ix3 e (rowOf b r) (0 : Fin 1) := by
    funext a
    match a with
    | ⟨0, _⟩ => exact Fin.ext hi0
    | ⟨1, _⟩ => exact Fin.ext hi1
    | ⟨2, _⟩ => exact Fin.ext (by have h : (i 2).val < 1 := (i 2).isLt; show (i 2).val = 0; omega)
  rw [KPay.out18_apply, params_eq A e b x0 x1 x2 x3 x4 x5 x6 x7 x8 x9 x10 x11 x12 x13 x14 x15 H]
  show Cert.Net.done (Cert.Net.params A e) (fun k => x14 (ix2 r k)) (fun k => x15 (ix2 r k))
    = Cert.Net.done (Cert.Net.params A e) (Cert.Net.xrow A (rowOf b r)) (Cert.Net.urow A (rowOf b r))
  rw [show (fun k => x14 (ix2 r k)) = Cert.Net.xrow A (rowOf b r) from funext (H.h14 r),
    show (fun k => x15 (ix2 r k)) = Cert.Net.urow A (rowOf b r) from funext (H.h15 r)]

end Step

/-! ## The step at grid point `t`, and the arrays after the region -/

variable (m : (ℓ : Loc nD τ sig) → Buf (Elt Ideal) ℓ)

/-- At point `t` the windows' blocks hold member `t / 8`'s weights and row block `t % 8`. -/
theorem holds (c : Dev nD) (t : Fin cfg0.N) :
    BlocksOf (A_k m c) (eOf t) (bOf t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) :=
  ⟨blk0_apply m c t, blk1_apply m c t, blk2_apply m c t, blk3_apply m c t, blk4_apply m c t, blk5_apply m c t,
    blk6_apply m c t, blk7_apply m c t, blk8_apply m c t, blk9_apply m c t, blk10_apply m c t, blk11_apply m c t,
    blk12_apply m c t, blk13_apply m c t, blk14_apply m c t, blk15_apply m c t⟩

/-- WHAT POINT `t` WRITES BACK to the next-state window's array: the block at `t` of the head over all members and rows. -/
theorem flushed16_eq (c : Dev nD) (t : Fin cfg0.N) :
    (dats m 0 c).flushed 16 t = ((cfg0.win 16).blk t).view.read (Elt Ideal) (Cert.Net.G0 (A_k m c)) := by
  show (cfg0.win 16).cut (grid0.coords t) ((dats m 0 c).after 16 t) = _
  rw [after0_16]
  obtain ⟨⟨e0, e1, e2⟩, -⟩ := idx_outs t
  funext j
  show out0_16 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j
    = Cert.Net.G0 (A_k m c) (((cfg0.win 16).blk t).view.emb j)
  have hj0 : (j 0).val < 1 := (j 0).isLt
  exact out16_blk (A_k m c) (eOf t) (bOf t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (holds m c t) j _
    (show win0_16.index t (0 : Fin 3) * 1 + 1 * (j 0).val = t.val / 8 by omega)
    (show win0_16.index t (1 : Fin 3) * 2048 + 1 * (j 1).val = 2048 * (t.val % 8) + (j 1).val by omega)
    (show win0_16.index t (2 : Fin 3) * 17 + 1 * (j 2).val = (j 2).val by omega)

/-- An index of the array is in point `t`'s block iff each coordinate is in the block's range on its axis. -/
theorem mem_blk16 (t : Fin cfg0.N) (i : S16x16384x17.Idx) :
    i ∈ ((cfg0.win 16).blk t).view.set ↔ ∀ a : Fin 3, win0_16.index t a * S1x2048x17.size a ≤ (i a).val ∧ (i a).val < win0_16.index t a * S1x2048x17.size a + S1x2048x17.size a := by
  show i ∈ ((View.whole main_v27_0).slice (win0_16.rect t)).set ↔ _
  rw [View.set_slice_whole, Rect.mem_set_unit]
  exact Iff.rfl

/-- Every index is in some point's block: row `ρ` of member `e` in the block of point `8·e + ρ / 2048`. -/
theorem cover16 (i : S16x16384x17.Idx) :
    ∃ t : Fin cfg0.N, (cfg0.win 16).flush t = true ∧ i ∈ ((cfg0.win 16).blk t).view.set := by
  have h0 : (i 0).val < 16 := (i 0).isLt
  have h1 : (i 1).val < 16384 := (i 1).isLt
  have h2 : (i 2).val < 17 := (i 2).isLt
  have hb : (i 1).val / 2048 < 8 := by omega
  obtain ⟨t, ht⟩ : ∃ t : Fin cfg0.N, t.val = 8 * (i 0).val + (i 1).val / 2048 :=
    ⟨ptOf ⟨(i 0).val, h0⟩ ⟨(i 1).val / 2048, hb⟩, rfl⟩
  obtain ⟨⟨e0, e1, e2⟩, -⟩ := idx_outs t
  refine ⟨t, flush0_16 t, ?_⟩
  rw [mem_blk16]
  intro a
  match a with
  | ⟨0, _⟩ => show win0_16.index t (0 : Fin 3) * 1 ≤ (i 0).val ∧ (i 0).val < win0_16.index t (0 : Fin 3) * 1 + 1; omega
  | ⟨1, _⟩ => show win0_16.index t (1 : Fin 3) * 2048 ≤ (i 1).val ∧ (i 1).val < win0_16.index t (1 : Fin 3) * 2048 + 2048; omega
  | ⟨2, _⟩ => show win0_16.index t (2 : Fin 3) * 17 ≤ (i 2).val ∧ (i 2).val < win0_16.index t (2 : Fin 3) * 17 + 17; omega

/-- THE ARRAY after the region: the head over all members and rows. -/
theorem final16 (c : Dev nD) : (dats m 0 c).arrAt 16 cfg0.N = Cert.Net.G0 (A_k m c) :=
  (dats m 0 c).arrAt_eq_of_cover 16 (Cert.Net.G0 (A_k m c)) (fun t _ => flushed16_eq m c t) cover16

/-- WHAT POINT `t` WRITES BACK to the reward window's array: the block at `t` of the head over all members and rows. -/
theorem flushed17_eq (c : Dev nD) (t : Fin cfg0.N) :
    (dats m 0 c).flushed 17 t = ((cfg0.win 17).blk t).view.read (Elt Ideal) (Cert.Net.G1 (A_k m c)) := by
  show (cfg0.win 17).cut (grid0.coords t) ((dats m 0 c).after 17 t) = _
  rw [after0_17]
  obtain ⟨-, ⟨e0, e1, e2⟩, -⟩ := idx_outs t
  funext j
  show out0_17 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j
    = Cert.Net.G1 (A_k m c) (((cfg0.win 17).blk t).view.emb j)
  have hj0 : (j 0).val < 1 := (j 0).isLt
  exact out17_blk (A_k m c) (eOf t) (bOf t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (holds m c t) j _
    (show win0_17.index t (0 : Fin 3) * 1 + 1 * (j 0).val = t.val / 8 by omega)
    (show win0_17.index t (1 : Fin 3) * 2048 + 1 * (j 1).val = 2048 * (t.val % 8) + (j 1).val by omega)

/-- An index of the array is in point `t`'s block iff each coordinate is in the block's range on its axis. -/
theorem mem_blk17 (t : Fin cfg0.N) (i : S16x16384x1.Idx) :
    i ∈ ((cfg0.win 17).blk t).view.set ↔ ∀ a : Fin 3, win0_17.index t a * S1x2048x1.size a ≤ (i a).val ∧ (i a).val < win0_17.index t a * S1x2048x1.size a + S1x2048x1.size a := by
  show i ∈ ((View.whole main_v27_1).slice (win0_17.rect t)).set ↔ _
  rw [View.set_slice_whole, Rect.mem_set_unit]
  exact Iff.rfl

/-- Every index is in some point's block: row `ρ` of member `e` in the block of point `8·e + ρ / 2048`. -/
theorem cover17 (i : S16x16384x1.Idx) :
    ∃ t : Fin cfg0.N, (cfg0.win 17).flush t = true ∧ i ∈ ((cfg0.win 17).blk t).view.set := by
  have h0 : (i 0).val < 16 := (i 0).isLt
  have h1 : (i 1).val < 16384 := (i 1).isLt
  have h2 : (i 2).val < 1 := (i 2).isLt
  have hb : (i 1).val / 2048 < 8 := by omega
  obtain ⟨t, ht⟩ : ∃ t : Fin cfg0.N, t.val = 8 * (i 0).val + (i 1).val / 2048 :=
    ⟨ptOf ⟨(i 0).val, h0⟩ ⟨(i 1).val / 2048, hb⟩, rfl⟩
  obtain ⟨-, ⟨e0, e1, e2⟩, -⟩ := idx_outs t
  refine ⟨t, flush0_17 t, ?_⟩
  rw [mem_blk17]
  intro a
  match a with
  | ⟨0, _⟩ => show win0_17.index t (0 : Fin 3) * 1 ≤ (i 0).val ∧ (i 0).val < win0_17.index t (0 : Fin 3) * 1 + 1; omega
  | ⟨1, _⟩ => show win0_17.index t (1 : Fin 3) * 2048 ≤ (i 1).val ∧ (i 1).val < win0_17.index t (1 : Fin 3) * 2048 + 2048; omega
  | ⟨2, _⟩ => show win0_17.index t (2 : Fin 3) * 1 ≤ (i 2).val ∧ (i 2).val < win0_17.index t (2 : Fin 3) * 1 + 1; omega

/-- THE ARRAY after the region: the head over all members and rows. -/
theorem final17 (c : Dev nD) : (dats m 0 c).arrAt 17 cfg0.N = Cert.Net.G1 (A_k m c) :=
  (dats m 0 c).arrAt_eq_of_cover 17 (Cert.Net.G1 (A_k m c)) (fun t _ => flushed17_eq m c t) cover17

/-- WHAT POINT `t` WRITES BACK to the termination window's array: the block at `t` of the head over all members and rows. -/
theorem flushed18_eq (c : Dev nD) (t : Fin cfg0.N) :
    (dats m 0 c).flushed 18 t = ((cfg0.win 18).blk t).view.read (Elt Ideal) (Cert.Net.G2 (A_k m c)) := by
  show (cfg0.win 18).cut (grid0.coords t) ((dats m 0 c).after 18 t) = _
  rw [after0_18]
  obtain ⟨-, -, e0, e1, e2⟩ := idx_outs t
  funext j
  show out0_18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j
    = Cert.Net.G2 (A_k m c) (((cfg0.win 18).blk t).view.emb j)
  have hj0 : (j 0).val < 1 := (j 0).isLt
  exact out18_blk (A_k m c) (eOf t) (bOf t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (holds m c t) j _
    (show win0_18.index t (0 : Fin 3) * 1 + 1 * (j 0).val = t.val / 8 by omega)
    (show win0_18.index t (1 : Fin 3) * 2048 + 1 * (j 1).val = 2048 * (t.val % 8) + (j 1).val by omega)

/-- An index of the array is in point `t`'s block iff each coordinate is in the block's range on its axis. -/
theorem mem_blk18 (t : Fin cfg0.N) (i : S16x16384x1.Idx) :
    i ∈ ((cfg0.win 18).blk t).view.set ↔ ∀ a : Fin 3, win0_18.index t a * S1x2048x1.size a ≤ (i a).val ∧ (i a).val < win0_18.index t a * S1x2048x1.size a + S1x2048x1.size a := by
  show i ∈ ((View.whole main_v27_2).slice (win0_18.rect t)).set ↔ _
  rw [View.set_slice_whole, Rect.mem_set_unit]
  exact Iff.rfl

/-- Every index is in some point's block: row `ρ` of member `e` in the block of point `8·e + ρ / 2048`. -/
theorem cover18 (i : S16x16384x1.Idx) :
    ∃ t : Fin cfg0.N, (cfg0.win 18).flush t = true ∧ i ∈ ((cfg0.win 18).blk t).view.set := by
  have h0 : (i 0).val < 16 := (i 0).isLt
  have h1 : (i 1).val < 16384 := (i 1).isLt
  have h2 : (i 2).val < 1 := (i 2).isLt
  have hb : (i 1).val / 2048 < 8 := by omega
  obtain ⟨t, ht⟩ : ∃ t : Fin cfg0.N, t.val = 8 * (i 0).val + (i 1).val / 2048 :=
    ⟨ptOf ⟨(i 0).val, h0⟩ ⟨(i 1).val / 2048, hb⟩, rfl⟩
  obtain ⟨-, -, e0, e1, e2⟩ := idx_outs t
  refine ⟨t, flush0_18 t, ?_⟩
  rw [mem_blk18]
  intro a
  match a with
  | ⟨0, _⟩ => show win0_18.index t (0 : Fin 3) * 1 ≤ (i 0).val ∧ (i 0).val < win0_18.index t (0 : Fin 3) * 1 + 1; omega
  | ⟨1, _⟩ => show win0_18.index t (1 : Fin 3) * 2048 ≤ (i 1).val ∧ (i 1).val < win0_18.index t (1 : Fin 3) * 2048 + 2048; omega
  | ⟨2, _⟩ => show win0_18.index t (2 : Fin 3) * 1 ≤ (i 2).val ∧ (i 2).val < win0_18.index t (2 : Fin 3) * 1 + 1; omega

/-- THE ARRAY after the region: the head over all members and rows. -/
theorem final18 (c : Dev nD) : (dats m 0 c).arrAt 18 cfg0.N = Cert.Net.G2 (A_k m c) :=
  (dats m 0 c).arrAt_eq_of_cover 18 (Cert.Net.G2 (A_k m c)) (fun t _ => flushed18_eq m c t) cover18

end Cert.KBlocks

end
-- ==== Proof.KRun.lean ====
/-
  The kernel's program, run: the host operations after the region put the three heads the region leaves batch-major and
  map the next-state head back to the observations' range, so the three results are `Cert.Net.res0` / `res1` / `res2` of the
  twelve argument arrays, which end as launched.
-/
import proofs.«149758_j56289841381718_2_alg».proof.Proof.KBlocks
import Idealize.ShloMosaic.Lib.StableHlo.Run

noncomputable section

namespace Cert.KRun

open Idealize.ShloMosaic Idealize.ShloMosaic.TcCoe Idealize.SL.Sem
open Idealize.ShloMosaic.Pipeline (Dat)
open Cert.KernelIdeal Cert.KernelIdeal.Gen Cert.KArr Cert.KBlocks

/-! ## The host operations after the region, over any contents of the buffers -/

/-- The first result is the next-state head's buffer put batch-major and mapped back by the two range arguments. -/
theorem tail0 (W : Valuation τ sig (Elt Ideal)) :
    StableHlo.after (hostOps1 (F := Ideal)) W (Proc.devRef .tc main_v43)
      = Cert.Net.denorm (W (Proc.devRef .tc main_v27_0)) (W (Proc.devRef .tc main_arg10)) (W (Proc.devRef .tc main_arg11)) := by
  after_results_simp
  rfl

/-- The second result is the reward head's buffer put batch-major. -/
theorem tail1 (W : Valuation τ sig (Elt Ideal)) :
    StableHlo.after (hostOps1 (F := Ideal)) W (Proc.devRef .tc main_v29) = Cert.Net.flip1 (W (Proc.devRef .tc main_v27_1)) := by
  after_results
  rfl

/-- The third result is the termination head's buffer put batch-major. -/
theorem tail2 (W : Valuation τ sig (Elt Ideal)) :
    StableHlo.after (hostOps1 (F := Ideal)) W (Proc.devRef .tc main_v30) = Cert.Net.flip1 (W (Proc.devRef .tc main_v27_2)) := by
  after_results
  rfl

/-! ## The buffers the host operations after the region read -/

variable (m : (ℓ : Loc nD τ sig) → Buf (Elt Ideal) ℓ) (ρ : Dev nD → PrngReg)

/-- The core's buffer contents when the region is left. -/
abbrev Wout (c : Dev nD) : Valuation τ sig (Elt Ideal) :=
  Pipeline.withArrays (cfgs 0).spec c (V0 m c) fun w => (dats m 0 c).arrAt w (cfgs 0).N

theorem Wout_v27_0 (c : Dev nD) : Wout m c (Proc.devRef .tc main_v27_0) = Cert.Net.G0 (A_k m c) :=
  (Pipeline.withArrays_arr spec0 launch0.win.arr_inj c _ _ 16).trans (final16 m c)
theorem Wout_v27_1 (c : Dev nD) : Wout m c (Proc.devRef .tc main_v27_1) = Cert.Net.G1 (A_k m c) :=
  (Pipeline.withArrays_arr spec0 launch0.win.arr_inj c _ _ 17).trans (final17 m c)
theorem Wout_v27_2 (c : Dev nD) : Wout m c (Proc.devRef .tc main_v27_2) = Cert.Net.G2 (A_k m c) :=
  (Pipeline.withArrays_arr spec0 launch0.win.arr_inj c _ _ 18).trans (final18 m c)
/-- The range arguments are no array of the region: they are as launched. -/
theorem Wout_arg10 (c : Dev nD) : Wout m c (Proc.devRef .tc main_arg10) = m ((c.tc : Thread nD τ).loc main_arg10) :=
  (Pipeline.withArrays_of_ne _ c (V0 m c) _ main_arg10 (by exact (by decide : ∀ w, Pipeline.arrRef spec0 w ≠ main_arg10))).trans
    (V_main_arg10 m c)
theorem Wout_arg11 (c : Dev nD) : Wout m c (Proc.devRef .tc main_arg11) = m ((c.tc : Thread nD τ).loc main_arg11) :=
  (Pipeline.withArrays_of_ne _ c (V0 m c) _ main_arg11 (by exact (by decide : ∀ w, Pipeline.arrRef spec0 w ≠ main_arg11))).trans
    (V_main_arg11 m c)

/-! ## The three results -/

theorem res_v43 (c : Dev nD) : Pipeline.afterTail₀ cfgs (dats m) 0 (V0 m) [hostOps1] c main_v43
    = Cert.Net.res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Pipeline.afterTail₀
  refine (tail0 (Wout m c)).trans ?_
  rw [Wout_v27_0, Wout_arg10, Wout_arg11]
  rfl

theorem res_v29 (c : Dev nD) : Pipeline.afterTail₀ cfgs (dats m) 0 (V0 m) [hostOps1] c main_v29
    = Cert.Net.res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Pipeline.afterTail₀
  refine (tail1 (Wout m c)).trans ?_
  rw [Wout_v27_1]
  rfl

theorem res_v30 (c : Dev nD) : Pipeline.afterTail₀ cfgs (dats m) 0 (V0 m) [hostOps1] c main_v30
    = Cert.Net.res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Pipeline.afterTail₀
  refine (tail2 (Wout m c)).trans ?_
  rw [Wout_v27_2]
  rfl

/-! ## The run -/

/-- THE RUN: every weakly fair execution of the program terminates, the three results hold `Cert.Net.res0` / `res1` / `res2`
    of the argument arrays, and the argument arrays end as launched. -/
theorem run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      (r.2.mem ((c.tc : Thread nD τ).loc main_v43) = Cert.Net.res0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
        ∧ r.2.mem ((c.tc : Thread nD τ).loc main_v29) = Cert.Net.res1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
        ∧ r.2.mem ((c.tc : Thread nD τ).loc main_v30) = Cert.Net.res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))) :=
  (θ_run defs _ _).mono (fun _ h c => ⟨⟨((h c).2 main_v43 (Pipeline.mem_restRefs_of main_v43 (by decide) (by decide))).trans (res_v43 m c),
      ((h c).2 main_v29 (Pipeline.mem_restRefs_of main_v29 (by decide) (by decide))).trans (res_v29 m c),
      ((h c).2 main_v30 (Pipeline.mem_restRefs_of main_v30 (by decide) (by decide))).trans (res_v30 m c)⟩,
    ⟨(((h c).2 main_arg0 (Pipeline.mem_restRefs_of main_arg0 (by decide) (by decide))).trans (W_main_arg0 m (dats m) c)),
    ((h c).1 15).trans (((dats m 0 c).arrAt_in 15 rfl _).trans ((A_eq m c 15).trans (V_main_arg1 m c))),
    (((h c).2 main_arg2 (Pipeline.mem_restRefs_of main_arg2 (by decide) (by decide))).trans (W_main_arg2 m (dats m) c)),
    ((h c).1 7).trans (((dats m 0 c).arrAt_in 7 rfl _).trans ((A_eq m c 7).trans (V_main_arg3 m c))),
    ((h c).1 8).trans (((dats m 0 c).arrAt_in 8 rfl _).trans ((A_eq m c 8).trans (V_main_arg4 m c))),
    ((h c).1 9).trans (((dats m 0 c).arrAt_in 9 rfl _).trans ((A_eq m c 9).trans (V_main_arg5 m c))),
    ((h c).1 10).trans (((dats m 0 c).arrAt_in 10 rfl _).trans ((A_eq m c 10).trans (V_main_arg6 m c))),
    ((h c).1 11).trans (((dats m 0 c).arrAt_in 11 rfl _).trans ((A_eq m c 11).trans (V_main_arg7 m c))),
    ((h c).1 12).trans (((dats m 0 c).arrAt_in 12 rfl _).trans ((A_eq m c 12).trans (V_main_arg8 m c))),
    ((h c).1 13).trans (((dats m 0 c).arrAt_in 13 rfl _).trans ((A_eq m c 13).trans (V_main_arg9 m c))),
    (((h c).2 main_arg10 (Pipeline.mem_restRefs_of main_arg10 (by decide) (by decide))).trans (W_main_arg10 m (dats m) c)),
    (((h c).2 main_arg11 (Pipeline.mem_restRefs_of main_arg11 (by decide) (by decide))).trans (W_main_arg11 m (dats m) c))⟩⟩) (run_main m ρ)

end Cert.KRun

end
-- ==== Proof.RefOps.lean ====
/-
  The reference program as a straight line: its host operations in program order, the four calls of the outlined
  leaky rectifier written out at their call sites over each call's buffers (six operations and the select of the
  function it calls in turn), cut into seven consecutive windows:
    A  the weight tensors cut out of the flat parameter matrix and the observations normalised,
    B  the two input layers, their concatenation and the first rectifier,
    C  the layer on the concatenation and its rectifier,   D, E  the two hidden layers and theirs,
    F  the three heads,   G  the results put batch-major and the next state mapped back.
  The program is the sequence of these windows, and its run ends with every buffer at the fold of the operations'
  results over the launch contents.
-/
import proofs.«149758_j56289841381718_2_alg».proof.Proof.Gen.ReferenceIdeal
import Idealize.ShloMosaic.Lib.StableHlo.Run
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Window A: operations 1 … 30. -/
def partA : List (HloOp τ sig (Elt F)) :=
  [ StableHlo.unary main_arg2 main_v0 ((extractStridedSlice S16x3400 ![0, 0] · slices_S16x168400_S16x3400_0_0) : (⟨S16x168400, .f32⟩ : BufTy).Contents (Elt F) → (⟨S16x3400, .f32⟩ : BufTy).Contents (Elt F)),
    StableHlo.reshape main_v0 main_v1 rfl shapeCasts_S16x3400_S16x200x17,
    StableHlo.unary main_arg2 main_v2 ((extractStridedSlice S16x1200 ![0, 3400] · slices_S16x168400_S16x1200_0_3400) : (⟨S16x168400, .f32⟩ : BufTy).Contents (Elt F) → (⟨S16x1200, .f32⟩ : BufTy).Contents (Elt F)),
    StableHlo.reshape main_v2 main_v3 rfl shapeCasts_S16x1200_S16x200x6,
    StableHlo.unary main_arg2 main_v4 ((extractStridedSlice S16x80000 ![0, 4600] · slices_S16x168400_S16x80000_0_4600) : (⟨S16x168400, .f32⟩ : BufTy).Contents (Elt F) → (⟨S16x80000, .f32⟩ : BufTy).Contents (Elt F)),
    StableHlo.reshape main_v4 main_v5 rfl shapeCasts_S16x80000_S16x200x400,
    StableHlo.unary main_arg2 main_v6 ((extractStridedSlice S16x80000 ![0, 84600] · slices_S16x168400_S16x80000_0_84600) : (⟨S16x168400, .f32⟩ : BufTy).Contents (Elt F) → (⟨S16x80000, .f32⟩ : BufTy).Contents (Elt F)),
    StableHlo.reshape main_v6 main_v7 rfl shapeCasts_S16x80000_S16x2x200x200,
    StableHlo.unary main_arg2 main_v8 ((extractStridedSlice S16x3400 ![0, 164600] · slices_S16x168400_S16x3400_0_164600) : (⟨S16x168400, .f32⟩ : BufTy).Contents (Elt F) → (⟨S16x3400, .f32⟩ : BufTy).Contents (Elt F)),
    StableHlo.reshape main_v8 main_v9 rfl shapeCasts_S16x3400_S16x17x200,
    StableHlo.unary main_arg2 main_v10 ((extractStridedSlice S16x200 ![0, 168000] · slices_S16x168400_S16x200_0_168000) : (⟨S16x168400, .f32⟩ : BufTy).Contents (Elt F) → (⟨S16x200, .f32⟩ : BufTy).Contents (Elt F)),
    StableHlo.reshape main_v10 main_v11 rfl shapeCasts_S16x200_S16x1x200,
    StableHlo.unary main_arg2 main_v12 ((extractStridedSlice S16x200 ![0, 168200] · slices_S16x168400_S16x200_0_168200) : (⟨S16x168400, .f32⟩ : BufTy).Contents (Elt F) → (⟨S16x200, .f32⟩ : BufTy).Contents (Elt F)),
    StableHlo.reshape main_v12 main_v13 rfl shapeCasts_S16x200_S16x1x200,
    StableHlo.unary main_arg10 main_v14 (broadcastInDim S1x17 ![1] bcast_S17_S1x17_1 : (⟨S17, .f32⟩ : BufTy).Contents (Elt F) → (⟨S1x17, .f32⟩ : BufTy).Contents (Elt F)),
    StableHlo.unary main_v14 main_v15 (broadcastInDim S16384x17 ![0, 1] bcast_S1x17_S16384x17_0_1 : (⟨S1x17, .f32⟩ : BufTy).Contents (Elt F) → (⟨S16384x17, .f32⟩ : BufTy).Contents (Elt F)),
    StableHlo.binary main_arg0 main_v15 main_v16 (subf : (⟨S16384x17, .f32⟩ : BufTy).Contents (Elt F) → (⟨S16384x17, .f32⟩ : BufTy).Contents (Elt F) → (⟨S16384x17, .f32⟩ : BufTy).Contents (Elt F)),
    StableHlo.nullary main_cst (constant S_ .f32 0x40000000#32),
    StableHlo.unary main_cst main_v17 (broadcastInDim S16384x17 ![] bcast_S_S16384x17 : (⟨S_, .f32⟩ : BufTy).Contents (Elt F) → (⟨S16384x17, .f32⟩ : BufTy).Contents (Elt F)),
    StableHlo.binary main_v17 main_v16 main_v18 (mulf : (⟨S16384x17, .f32⟩ : BufTy).Contents (Elt F) → (⟨S16384x17, .f32⟩ : BufTy).Contents (Elt F) → (⟨S16384x17, .f32⟩ : BufTy).Contents (Elt F)),
    StableHlo.binary main_arg11 main_arg10 main_v19 (subf : (⟨S17, .f32⟩ : BufTy).Contents (Elt F) → (⟨S17, .f32⟩ : BufTy).Contents (Elt F) → (⟨S17, .f32⟩ : BufTy).Contents (Elt F)),
    StableHlo.unary main_v19 main_v20 (broadcastInDim S1x17 ![1] bcast_S17_S1x17_1 : (⟨S17, .f32⟩ : BufTy).Contents (Elt F) → (⟨S1x17, .f32⟩ : BufTy).Contents (Elt F)),
    StableHlo.unary main_v20 main_v21 (broadcastInDim S16384x17 ![0, 1] bcast_S1x17_S16384x17_0_1 : (⟨S1x17, .f32⟩ : BufTy).Contents (Elt F) → (⟨S16384x17, .f32⟩ : BufTy).Contents (Elt F)),
    StableHlo.binary main_v18 main_v21 main_v22 (Host.divf : (⟨S16384x17, .f32⟩ : BufTy).Contents (Elt F) → (⟨S16384x17, .f32⟩ : BufTy).Contents (Elt F) → (⟨S16384x17, .f32⟩ : BufTy).Contents (Elt F)),
    StableHlo.nullary main_cst_0 (constant S_ .f32 0x3F800000#32),
    StableHlo.unary main_cst_0 main_v23 (broadcastInDim S16384x17 ![] bcast_S_S16384x17 : (⟨S_, .f32⟩ : BufTy).Contents (Elt F) → (⟨S16384x17, .f32⟩ : BufTy).Contents (Elt F)),
    StableHlo.binary main_v22 main_v23 main_v24 (subf : (⟨S16384x17, .f32⟩ : BufTy).Contents (Elt F) → (⟨S16384x17, .f32⟩ : BufTy).Contents (Elt F) → (⟨S16384x17, .f32⟩ : BufTy).Contents (Elt F)),
    StableHlo.nullary main_cst_1 (constant S_ .f32 0x3F800000#32),
    StableHlo.unary main_cst_1 main_v25 (broadcastInDim S16384x17 ![] bcast_S_S16384x17 : (⟨S_, .f32⟩ : BufTy).Contents (Elt F) → (⟨S16384x17, .f32⟩ : BufTy).Contents (Elt F)),
    StableHlo.binary main_v24 main_v25 main_v26 (mulf : (⟨S16384x17, .f32⟩ : BufTy).Contents (Elt F) → (⟨S16384x17, .f32⟩ : BufTy).Contents (Elt F) → (⟨S16384x17, .f32⟩ : BufTy).Contents (Elt F)) ]

/-- The buffers window A writes. -/
abbrev partA_W : List (Ref sig .tc) := [main_v0, main_v1, main_v2, main_v3, main_v4, main_v5, main_v6, main_v7, main_v8, main_v9, main_v10, main_v11, main_v12, main_v13, main_v14, main_v15, main_v16, main_cst, main_v17, main_v18, main_v19, main_v20, main_v21, main_v22, main_cst_0, main_v23, main_v24, main_cst_1, main_v25, main_v26]

/-- Window B: operations 31 … 48. -/
def partB : List (HloOp τ sig (Elt F)) :=
  [ StableHlo.binary main_v26 main_v1 main_v27 ((fun l r => Host.dotGeneral dot_S16384x17_S16x200x17_S16384x16x200_1_2_0_01_n_n none l r) : (⟨S16384x17, .f32⟩ : BufTy).Contents (Elt F) → (⟨S16x200x17, .f32⟩ : BufTy).Contents (Elt F) → (⟨S16384x16x200, .f32⟩ : BufTy).Contents (Elt F)),
    StableHlo.unary main_v27 main_v28 ((transpose S16x16384x200 [1, 0, 2] · transposes_S16384x16x200_S16x16384x200_1_0_2) : (⟨S16384x16x200, .f32⟩ : BufTy).Contents (Elt F) → (⟨S16x16384x200, .f32⟩ : BufTy).Contents (Elt F)),
    StableHlo.unary main_arg3 main_v29 (broadcastInDim S1x1x200 ![2] bcast_S200_S1x1x200_2 : (⟨S200, .f32⟩ : BufTy).Contents (Elt F) → (⟨S1x1x200, .f32⟩ : BufTy).Contents (Elt F)),
    StableHlo.unary main_v29 main_v30 (broadcastInDim S16x16384x200 ![0, 1, 2] bcast_S1x1x200_S16x16384x200_0_1_2 : (⟨S1x1x200, .f32⟩ : BufTy).Contents (Elt F) → (⟨S16x16384x200, .f32⟩ : BufTy).Contents (Elt F)),
    StableHlo.binary main_v28 main_v30 main_v31 (addf : (⟨S16x16384x200, .f32⟩ : BufTy).Contents (Elt F) → (⟨S16x16384x200, .f32⟩ : BufTy).Contents (Elt F) → (⟨S16x16384x200, .f32⟩ : BufTy).Contents (Elt F)),
    StableHlo.binary main_arg1 main_v3 main_v32 ((fun l r => Host.dotGeneral dot_S16384x6_S16x200x6_S16384x16x200_1_2_0_01_n_n none l r) : (⟨S16384x6, .f32⟩ : BufTy).Contents (Elt F) → (⟨S16x200x6, .f32⟩ : BufTy).Contents (Elt F) → (⟨S16384x16x200, .f32⟩ : BufTy).Contents (Elt F)),
    StableHlo.unary main_v32 main_v33 ((transpose S16x16384x200 [1, 0, 2] · transposes_S16384x16x200_S16x16384x200_1_0_2) : (⟨S16384x16x200, .f32⟩ : BufTy).Contents (Elt F) → (⟨S16x16384x200, .f32⟩ : BufTy).Contents (Elt F)),
    StableHlo.unary main_arg4 main_v34 (broadcastInDim S1x1x200 ![2] bcast_S200_S1x1x200_2 : (⟨S200, .f32⟩ : BufTy).Contents (Elt F) → (⟨S1x1x200, .f32⟩ : BufTy).Contents (Elt F)),
    StableHlo.unary main_v34 main_v35 (broadcastInDim S16x16384x200 ![0, 1, 2] bcast_S1x1x200_S16x16384x200_0_1_2 : (⟨S1x1x200, .f32⟩ : BufTy).Contents (Elt F) → (⟨S16x16384x200, .f32⟩ : BufTy).Contents (Elt F)),
    StableHlo.binary main_v33 main_v35 main_v36 (addf : (⟨S16x16384x200, .f32⟩ : BufTy).Contents (Elt F) → (⟨S16x16384x200, .f32⟩ : BufTy).Contents (Elt F) → (⟨S16x16384x200, .f32⟩ : BufTy).Contents (Elt F)),
    StableHlo.binary main_v31 main_v36 main_v37 ((fun a b => concatenate S16x16384x400 2 [⟨S16x16384x200, a⟩, ⟨S16x16384x200, b⟩] concatenates_S16x16384x200_S16x16384x200_S16x16384x400_d2) : (⟨S16x16384x200, .f32⟩ : BufTy).Contents (Elt F) → (⟨S16x16384x200, .f32⟩ : BufTy).Contents (Elt F) → (⟨S16x16384x400, .f32⟩ : BufTy).Contents (Elt F)),
    TRef.nullary main_call0.cst (constant S_ .f32 0x00000000#32),
    TRef.unary main_call0.cst main_call0.v0 (broadcastInDim S16x16384x400 ![] bcast_S_S16x16384x400),
    TRef.binary (TRef.of main_v37 : TRef sig ⟨S16x16384x400, .f32⟩) main_call0.v0 main_call0.v1 (cmpf .oge),
    TRef.nullary main_call0.cst_0 (constant S_ .f32 0x3C23D70A#32),
    TRef.unary main_call0.cst_0 main_call0.v2 (broadcastInDim S16x16384x400 ![] bcast_S_S16x16384x400),
    TRef.binary main_call0.v2 (TRef.of main_v37 : TRef sig ⟨S16x16384x400, .f32⟩) main_call0.v3 mulf,
    TRef.ternary main_call0.v1 (TRef.of main_v37 : TRef sig ⟨S16x16384x400, .f32⟩) main_call0.v3 main_call0.call0.v0 select ]

/-- The buffers window B writes. -/
abbrev partB_W : List (Ref sig .tc) := [main_v27, main_v28, main_v29, main_v30, main_v31, main_v32, main_v33, main_v34, main_v35, main_v36, main_v37, main_call0_cst, main_call0_v0, main_call0_v1, main_call0_cst_0, main_call0_v2, main_call0_v3, main_v38]

/-- Window C: operations 49 … 59. -/
def partC : List (HloOp τ sig (Elt F)) :=
  [ StableHlo.binary main_v38 main_v5 main_v39 ((fun l r => Host.dotGeneral dot_S16x16384x400_S16x200x400_S16x16384x200_2_2_1_1_0_0 none l r) : (⟨S16x16384x400, .f32⟩ : BufTy).Contents (Elt F) → (⟨S16x200x400, .f32⟩ : BufTy).Contents (Elt F) → (⟨S16x16384x200, .f32⟩ : BufTy).Contents (Elt F)),
    StableHlo.unary main_arg5 main_v40 (broadcastInDim S1x1x200 ![2] bcast_S200_S1x1x200_2 : (⟨S200, .f32⟩ : BufTy).Contents (Elt F) → (⟨S1x1x200, .f32⟩ : BufTy).Contents (Elt F)),
    StableHlo.unary main_v40 main_v41 (broadcastInDim S16x16384x200 ![0, 1, 2] bcast_S1x1x200_S16x16384x200_0_1_2 : (⟨S1x1x200, .f32⟩ : BufTy).Contents (Elt F) → (⟨S16x16384x200, .f32⟩ : BufTy).Contents (Elt F)),
    StableHlo.binary main_v39 main_v41 main_v42 (addf : (⟨S16x16384x200, .f32⟩ : BufTy).Contents (Elt F) → (⟨S16x16384x200, .f32⟩ : BufTy).Contents (Elt F) → (⟨S16x16384x200, .f32⟩ : BufTy).Contents (Elt F)),
    TRef.nullary main_call1.cst (constant S_ .f32 0x00000000#32),
    TRef.unary main_call1.cst main_call1.v0 (broadcastInDim S16x16384x200 ![] bcast_S_S16x16384x200),
    TRef.binary (TRef.of main_v42 : TRef sig ⟨S16x16384x200, .f32⟩) main_call1.v0 main_call1.v1 (cmpf .oge),
    TRef.nullary main_call1.cst_0 (constant S_ .f32 0x3C23D70A#32),
    TRef.unary main_call1.cst_0 main_call1.v2 (broadcastInDim S16x16384x200 ![] bcast_S_S16x16384x200),
    TRef.binary main_call1.v2 (TRef.of main_v42 : TRef sig ⟨S16x16384x200, .f32⟩) main_call1.v3 mulf,
    TRef.ternary main_call1.v1 (TRef.of main_v42 : TRef sig ⟨S16x16384x200, .f32⟩) main_call1.v3 main_call1.call0.v0 select ]

/-- The buffers window C writes. -/
abbrev partC_W : List (Ref sig .tc) := [main_v39, main_v40, main_v41, main_v42, main_call1_cst, main_call1_v0, main_call1_v1, main_call1_cst_0, main_call1_v2, main_call1_v3, main_v43]

/-- Window D: operations 60 … 74. -/
def partD : List (HloOp τ sig (Elt F)) :=
  [ StableHlo.unary main_v7 main_v44 ((extractStridedSlice S16x1x200x200 ![0, 0, 0, 0] · slices_S16x2x200x200_S16x1x200x200_0_0_0_0) : (⟨S16x2x200x200, .f32⟩ : BufTy).Contents (Elt F) → (⟨S16x1x200x200, .f32⟩ : BufTy).Contents (Elt F)),
    StableHlo.reshape main_v44 main_v45 rfl shapeCasts_S16x1x200x200_S16x200x200,
    StableHlo.binary main_v43 main_v45 main_v46 ((fun l r => Host.dotGeneral dot_S16x16384x200_S16x200x200_S16x16384x200_2_2_1_1_0_0 none l r) : (⟨S16x16384x200, .f32⟩ : BufTy).Contents (Elt F) → (⟨S16x200x200, .f32⟩ : BufTy).Contents (Elt F) → (⟨S16x16384x200, .f32⟩ : BufTy).Contents (Elt F)),
    StableHlo.unary main_arg6 main_v47 ((extractStridedSlice S1x200 ![0, 0] · slices_S2x200_S1x200_0_0) : (⟨S2x200, .f32⟩ : BufTy).Contents (Elt F) → (⟨S1x200, .f32⟩ : BufTy).Contents (Elt F)),
    StableHlo.reshape main_v47 main_v48 rfl shapeCasts_S1x200_S200,
    StableHlo.unary main_v48 main_v49 (broadcastInDim S1x1x200 ![2] bcast_S200_S1x1x200_2 : (⟨S200, .f32⟩ : BufTy).Contents (Elt F) → (⟨S1x1x200, .f32⟩ : BufTy).Contents (Elt F)),
    StableHlo.unary main_v49 main_v50 (broadcastInDim S16x16384x200 ![0, 1, 2] bcast_S1x1x200_S16x16384x200_0_1_2 : (⟨S1x1x200, .f32⟩ : BufTy).Contents (Elt F) → (⟨S16x16384x200, .f32⟩ : BufTy).Contents (Elt F)),
    StableHlo.binary main_v46 main_v50 main_v51 (addf : (⟨S16x16384x200, .f32⟩ : BufTy).Contents (Elt F) → (⟨S16x16384x200, .f32⟩ : BufTy).Contents (Elt F) → (⟨S16x16384x200, .f32⟩ : BufTy).Contents (Elt F)),
    TRef.nullary main_call2.cst (constant S_ .f32 0x00000000#32),
    TRef.unary main_call2.cst main_call2.v0 (broadcastInDim S16x16384x200 ![] bcast_S_S16x16384x200),
    TRef.binary (TRef.of main_v51 : TRef sig ⟨S16x16384x200, .f32⟩) main_call2.v0 main_call2.v1 (cmpf .oge),
    TRef.nullary main_call2.cst_0 (constant S_ .f32 0x3C23D70A#32),
    TRef.unary main_call2.cst_0 main_call2.v2 (broadcastInDim S16x16384x200 ![] bcast_S_S16x16384x200),
    TRef.binary main_call2.v2 (TRef.of main_v51 : TRef sig ⟨S16x16384x200, .f32⟩) main_call2.v3 mulf,
    TRef.ternary main_call2.v1 (TRef.of main_v51 : TRef sig ⟨S16x16384x200, .f32⟩) main_call2.v3 main_call2.call0.v0 select ]

/-- The buffers window D writes. -/
abbrev partD_W : List (Ref sig .tc) := [main_v44, main_v45, main_v46, main_v47, main_v48, main_v49, main_v50, main_v51, main_call2_cst, main_call2_v0, main_call2_v1, main_call2_cst_0, main_call2_v2, main_call2_v3, main_v52]

/-- Window E: operations 75 … 89. -/
def partE : List (HloOp τ sig (Elt F)) :=
  [ StableHlo.unary main_v7 main_v53 ((extractStridedSlice S16x1x200x200 ![0, 1, 0, 0] · slices_S16x2x200x200_S16x1x200x200_0_1_0_0) : (⟨S16x2x200x200, .f32⟩ : BufTy).Contents (Elt F) → (⟨S16x1x200x200, .f32⟩ : BufTy).Contents (Elt F)),
    StableHlo.reshape main_v53 main_v54 rfl shapeCasts_S16x1x200x200_S16x200x200,
    StableHlo.binary main_v52 main_v54 main_v55 ((fun l r => Host.dotGeneral dot_S16x16384x200_S16x200x200_S16x16384x200_2_2_1_1_0_0 none l r) : (⟨S16x16384x200, .f32⟩ : BufTy).Contents (Elt F) → (⟨S16x200x200, .f32⟩ : BufTy).Contents (Elt F) → (⟨S16x16384x200, .f32⟩ : BufTy).Contents (Elt F)),
    StableHlo.unary main_arg6 main_v56 ((extractStridedSlice S1x200 ![1, 0] · slices_S2x200_S1x200_1_0) : (⟨S2x200, .f32⟩ : BufTy).Contents (Elt F) → (⟨S1x200, .f32⟩ : BufTy).Contents (Elt F)),
    StableHlo.reshape main_v56 main_v57 rfl shapeCasts_S1x200_S200,
    StableHlo.unary main_v57 main_v58 (broadcastInDim S1x1x200 ![2] bcast_S200_S1x1x200_2 : (⟨S200, .f32⟩ : BufTy).Contents (Elt F) → (⟨S1x1x200, .f32⟩ : BufTy).Contents (Elt F)),
    StableHlo.unary main_v58 main_v59 (broadcastInDim S16x16384x200 ![0, 1, 2] bcast_S1x1x200_S16x16384x200_0_1_2 : (⟨S1x1x200, .f32⟩ : BufTy).Contents (Elt F) → (⟨S16x16384x200, .f32⟩ : BufTy).Contents (Elt F)),
    StableHlo.binary main_v55 main_v59 main_v60 (addf : (⟨S16x16384x200, .f32⟩ : BufTy).Contents (Elt F) → (⟨S16x16384x200, .f32⟩ : BufTy).Contents (Elt F) → (⟨S16x16384x200, .f32⟩ : BufTy).Contents (Elt F)),
    TRef.nullary main_call3.cst (constant S_ .f32 0x00000000#32),
    TRef.unary main_call3.cst main_call3.v0 (broadcastInDim S16x16384x200 ![] bcast_S_S16x16384x200),
    TRef.binary (TRef.of main_v60 : TRef sig ⟨S16x16384x200, .f32⟩) main_call3.v0 main_call3.v1 (cmpf .oge),
    TRef.nullary main_call3.cst_0 (constant S_ .f32 0x3C23D70A#32),
    TRef.unary main_call3.cst_0 main_call3.v2 (broadcastInDim S16x16384x200 ![] bcast_S_S16x16384x200),
    TRef.binary main_call3.v2 (TRef.of main_v60 : TRef sig ⟨S16x16384x200, .f32⟩) main_call3.v3 mulf,
    TRef.ternary main_call3.v1 (TRef.of main_v60 : TRef sig ⟨S16x16384x200, .f32⟩) main_call3.v3 main_call3.call0.v0 select ]

/-- The buffers window E writes. -/
abbrev partE_W : List (Ref sig .tc) := [main_v53, main_v54, main_v55, main_v56, main_v57, main_v58, main_v59, main_v60, main_call3_cst, main_call3_v0, main_call3_v1, main_call3_cst_0, main_call3_v2, main_call3_v3, main_v61]

/-- Window F: operations 90 … 116. -/
def partF : List (HloOp τ sig (Elt F)) :=
  [ StableHlo.binary main_v61 main_v9 main_v62 ((fun l r => Host.dotGeneral dot_S16x16384x200_S16x17x200_S16x16384x17_2_2_1_1_0_0 none l r) : (⟨S16x16384x200, .f32⟩ : BufTy).Contents (Elt F) → (⟨S16x17x200, .f32⟩ : BufTy).Contents (Elt F) → (⟨S16x16384x17, .f32⟩ : BufTy).Contents (Elt F)),
    StableHlo.unary main_arg7 main_v63 (broadcastInDim S1x1x17 ![2] bcast_S17_S1x1x17_2 : (⟨S17, .f32⟩ : BufTy).Contents (Elt F) → (⟨S1x1x17, .f32⟩ : BufTy).Contents (Elt F)),
    StableHlo.unary main_v63 main_v64 (broadcastInDim S16x16384x17 ![0, 1, 2] bcast_S1x1x17_S16x16384x17_0_1_2 : (⟨S1x1x17, .f32⟩ : BufTy).Contents (Elt F) → (⟨S16x16384x17, .f32⟩ : BufTy).Contents (Elt F)),
    StableHlo.binary main_v62 main_v64 main_v65 (addf : (⟨S16x16384x17, .f32⟩ : BufTy).Contents (Elt F) → (⟨S16x16384x17, .f32⟩ : BufTy).Contents (Elt F) → (⟨S16x16384x17, .f32⟩ : BufTy).Contents (Elt F)),
    StableHlo.unary main_v26 main_v66 (broadcastInDim S1x16384x17 ![1, 2] bcast_S16384x17_S1x16384x17_1_2 : (⟨S16384x17, .f32⟩ : BufTy).Contents (Elt F) → (⟨S1x16384x17, .f32⟩ : BufTy).Contents (Elt F)),
    StableHlo.unary main_v66 main_v67 (broadcastInDim S16x16384x17 ![0, 1, 2] bcast_S1x16384x17_S16x16384x17_0_1_2 : (⟨S1x16384x17, .f32⟩ : BufTy).Contents (Elt F) → (⟨S16x16384x17, .f32⟩ : BufTy).Contents (Elt F)),
    StableHlo.binary main_v65 main_v67 main_v68 (addf : (⟨S16x16384x17, .f32⟩ : BufTy).Contents (Elt F) → (⟨S16x16384x17, .f32⟩ : BufTy).Contents (Elt F) → (⟨S16x16384x17, .f32⟩ : BufTy).Contents (Elt F)),
    StableHlo.binary main_v61 main_v11 main_v69 ((fun l r => Host.dotGeneral dot_S16x16384x200_S16x1x200_S16x16384x1_2_2_1_1_0_0 none l r) : (⟨S16x16384x200, .f32⟩ : BufTy).Contents (Elt F) → (⟨S16x1x200, .f32⟩ : BufTy).Contents (Elt F) → (⟨S16x16384x1, .f32⟩ : BufTy).Contents (Elt F)),
    StableHlo.unary main_arg8 main_v70 (broadcastInDim S1x1x1 ![2] bcast_S1_S1x1x1_2 : (⟨S1, .f32⟩ : BufTy).Contents (Elt F) → (⟨S1x1x1, .f32⟩ : BufTy).Contents (Elt F)),
    StableHlo.unary main_v70 main_v71 (broadcastInDim S16x16384x1 ![0, 1, 2] bcast_S1x1x1_S16x16384x1_0_1_2 : (⟨S1x1x1, .f32⟩ : BufTy).Contents (Elt F) → (⟨S16x16384x1, .f32⟩ : BufTy).Contents (Elt F)),
    StableHlo.binary main_v69 main_v71 main_v72 (addf : (⟨S16x16384x1, .f32⟩ : BufTy).Contents (Elt F) → (⟨S16x16384x1, .f32⟩ : BufTy).Contents (Elt F) → (⟨S16x16384x1, .f32⟩ : BufTy).Contents (Elt F)),
    StableHlo.unary main_v72 main_v73 (Host.tanh : (⟨S16x16384x1, .f32⟩ : BufTy).Contents (Elt F) → (⟨S16x16384x1, .f32⟩ : BufTy).Contents (Elt F)),
    StableHlo.nullary main_cst_2 (constant S_ .f32 0x40000000#32),
    StableHlo.unary main_cst_2 main_v74 (broadcastInDim S16x16384x1 ![] bcast_S_S16x16384x1 : (⟨S_, .f32⟩ : BufTy).Contents (Elt F) → (⟨S16x16384x1, .f32⟩ : BufTy).Contents (Elt F)),
    StableHlo.binary main_v73 main_v74 main_v75 (mulf : (⟨S16x16384x1, .f32⟩ : BufTy).Contents (Elt F) → (⟨S16x16384x1, .f32⟩ : BufTy).Contents (Elt F) → (⟨S16x16384x1, .f32⟩ : BufTy).Contents (Elt F)),
    StableHlo.binary main_v61 main_v13 main_v76 ((fun l r => Host.dotGeneral dot_S16x16384x200_S16x1x200_S16x16384x1_2_2_1_1_0_0 none l r) : (⟨S16x16384x200, .f32⟩ : BufTy).Contents (Elt F) → (⟨S16x1x200, .f32⟩ : BufTy).Contents (Elt F) → (⟨S16x16384x1, .f32⟩ : BufTy).Contents (Elt F)),
    StableHlo.unary main_arg9 main_v77 (broadcastInDim S1x1x1 ![2] bcast_S1_S1x1x1_2 : (⟨S1, .f32⟩ : BufTy).Contents (Elt F) → (⟨S1x1x1, .f32⟩ : BufTy).Contents (Elt F)),
    StableHlo.unary main_v77 main_v78 (broadcastInDim S16x16384x1 ![0, 1, 2] bcast_S1x1x1_S16x16384x1_0_1_2 : (⟨S1x1x1, .f32⟩ : BufTy).Contents (Elt F) → (⟨S16x16384x1, .f32⟩ : BufTy).Contents (Elt F)),
    StableHlo.binary main_v76 main_v78 main_v79 (addf : (⟨S16x16384x1, .f32⟩ : BufTy).Contents (Elt F) → (⟨S16x16384x1, .f32⟩ : BufTy).Contents (Elt F) → (⟨S16x16384x1, .f32⟩ : BufTy).Contents (Elt F)),
    StableHlo.unary main_v79 main_v80 (Host.negf : (⟨S16x16384x1, .f32⟩ : BufTy).Contents (Elt F) → (⟨S16x16384x1, .f32⟩ : BufTy).Contents (Elt F)),
    StableHlo.unary main_v80 main_v81 (Host.exp : (⟨S16x16384x1, .f32⟩ : BufTy).Contents (Elt F) → (⟨S16x16384x1, .f32⟩ : BufTy).Contents (Elt F)),
    StableHlo.nullary main_cst_3 (constant S_ .f32 0x3F800000#32),
    StableHlo.unary main_cst_3 main_v82 (broadcastInDim S16x16384x1 ![] bcast_S_S16x16384x1 : (⟨S_, .f32⟩ : BufTy).Contents (Elt F) → (⟨S16x16384x1, .f32⟩ : BufTy).Contents (Elt F)),
    StableHlo.binary main_v82 main_v81 main_v83 (addf : (⟨S16x16384x1, .f32⟩ : BufTy).Contents (Elt F) → (⟨S16x16384x1, .f32⟩ : BufTy).Contents (Elt F) → (⟨S16x16384x1, .f32⟩ : BufTy).Contents (Elt F)),
    StableHlo.nullary main_cst_4 (constant S_ .f32 0x3F800000#32),
    StableHlo.unary main_cst_4 main_v84 (broadcastInDim S16x16384x1 ![] bcast_S_S16x16384x1 : (⟨S_, .f32⟩ : BufTy).Contents (Elt F) → (⟨S16x16384x1, .f32⟩ : BufTy).Contents (Elt F)),
    StableHlo.binary main_v84 main_v83 main_v85 (Host.divf : (⟨S16x16384x1, .f32⟩ : BufTy).Contents (Elt F) → (⟨S16x16384x1, .f32⟩ : BufTy).Contents (Elt F) → (⟨S16x16384x1, .f32⟩ : BufTy).Contents (Elt F)) ]

/-- The buffers window F writes. -/
abbrev partF_W : List (Ref sig .tc) := [main_v62, main_v63, main_v64, main_v65, main_v66, main_v67, main_v68, main_v69, main_v70, main_v71, main_v72, main_v73, main_cst_2, main_v74, main_v75, main_v76, main_v77, main_v78, main_v79, main_v80, main_v81, main_cst_3, main_v82, main_v83, main_cst_4, main_v84, main_v85]

/-- Window G: operations 117 … 135. -/
def partG : List (HloOp τ sig (Elt F)) :=
  [ StableHlo.unary main_v68 main_v86 ((transpose S16384x16x17 [1, 0, 2] · transposes_S16x16384x17_S16384x16x17_1_0_2) : (⟨S16x16384x17, .f32⟩ : BufTy).Contents (Elt F) → (⟨S16384x16x17, .f32⟩ : BufTy).Contents (Elt F)),
    StableHlo.unary main_v75 main_v87 ((transpose S16384x16x1 [1, 0, 2] · transposes_S16x16384x1_S16384x16x1_1_0_2) : (⟨S16x16384x1, .f32⟩ : BufTy).Contents (Elt F) → (⟨S16384x16x1, .f32⟩ : BufTy).Contents (Elt F)),
    StableHlo.unary main_v85 main_v88 ((transpose S16384x16x1 [1, 0, 2] · transposes_S16x16384x1_S16384x16x1_1_0_2) : (⟨S16x16384x1, .f32⟩ : BufTy).Contents (Elt F) → (⟨S16384x16x1, .f32⟩ : BufTy).Contents (Elt F)),
    StableHlo.nullary main_cst_5 (constant S_ .f32 0x3F800000#32),
    StableHlo.unary main_cst_5 main_v89 (broadcastInDim S16384x16x17 ![] bcast_S_S16384x16x17 : (⟨S_, .f32⟩ : BufTy).Contents (Elt F) → (⟨S16384x16x17, .f32⟩ : BufTy).Contents (Elt F)),
    StableHlo.binary main_v86 main_v89 main_v90 (Host.divf : (⟨S16384x16x17, .f32⟩ : BufTy).Contents (Elt F) → (⟨S16384x16x17, .f32⟩ : BufTy).Contents (Elt F) → (⟨S16384x16x17, .f32⟩ : BufTy).Contents (Elt F)),
    StableHlo.nullary main_cst_6 (constant S_ .f32 0x3F800000#32),
    StableHlo.unary main_cst_6 main_v91 (broadcastInDim S16384x16x17 ![] bcast_S_S16384x16x17 : (⟨S_, .f32⟩ : BufTy).Contents (Elt F) → (⟨S16384x16x17, .f32⟩ : BufTy).Contents (Elt F)),
    StableHlo.binary main_v90 main_v91 main_v92 (addf : (⟨S16384x16x17, .f32⟩ : BufTy).Contents (Elt F) → (⟨S16384x16x17, .f32⟩ : BufTy).Contents (Elt F) → (⟨S16384x16x17, .f32⟩ : BufTy).Contents (Elt F)),
    StableHlo.nullary main_cst_7 (constant S_ .f32 0x40000000#32),
    StableHlo.unary main_cst_7 main_v93 (broadcastInDim S16384x16x17 ![] bcast_S_S16384x16x17 : (⟨S_, .f32⟩ : BufTy).Contents (Elt F) → (⟨S16384x16x17, .f32⟩ : BufTy).Contents (Elt F)),
    StableHlo.binary main_v92 main_v93 main_v94 (Host.divf : (⟨S16384x16x17, .f32⟩ : BufTy).Contents (Elt F) → (⟨S16384x16x17, .f32⟩ : BufTy).Contents (Elt F) → (⟨S16384x16x17, .f32⟩ : BufTy).Contents (Elt F)),
    StableHlo.binary main_arg11 main_arg10 main_v95 (subf : (⟨S17, .f32⟩ : BufTy).Contents (Elt F) → (⟨S17, .f32⟩ : BufTy).Contents (Elt F) → (⟨S17, .f32⟩ : BufTy).Contents (Elt F)),
    StableHlo.unary main_v95 main_v96 (broadcastInDim S1x1x17 ![2] bcast_S17_S1x1x17_2 : (⟨S17, .f32⟩ : BufTy).Contents (Elt F) → (⟨S1x1x17, .f32⟩ : BufTy).Contents (Elt F)),
    StableHlo.unary main_v96 main_v97 (broadcastInDim S16384x16x17 ![0, 1, 2] bcast_S1x1x17_S16384x16x17_0_1_2 : (⟨S1x1x17, .f32⟩ : BufTy).Contents (Elt F) → (⟨S16384x16x17, .f32⟩ : BufTy).Contents (Elt F)),
    StableHlo.binary main_v94 main_v97 main_v98 (mulf : (⟨S16384x16x17, .f32⟩ : BufTy).Contents (Elt F) → (⟨S16384x16x17, .f32⟩ : BufTy).Contents (Elt F) → (⟨S16384x16x17, .f32⟩ : BufTy).Contents (Elt F)),
    StableHlo.unary main_arg10 main_v99 (broadcastInDim S1x1x17 ![2] bcast_S17_S1x1x17_2 : (⟨S17, .f32⟩ : BufTy).Contents (Elt F) → (⟨S1x1x17, .f32⟩ : BufTy).Contents (Elt F)),
    StableHlo.unary main_v99 main_v100 (broadcastInDim S16384x16x17 ![0, 1, 2] bcast_S1x1x17_S16384x16x17_0_1_2 : (⟨S1x1x17, .f32⟩ : BufTy).Contents (Elt F) → (⟨S16384x16x17, .f32⟩ : BufTy).Contents (Elt F)),
    StableHlo.binary main_v98 main_v100 main_v101 (addf : (⟨S16384x16x17, .f32⟩ : BufTy).Contents (Elt F) → (⟨S16384x16x17, .f32⟩ : BufTy).Contents (Elt F) → (⟨S16384x16x17, .f32⟩ : BufTy).Contents (Elt F)) ]

/-- The buffers window G writes. -/
abbrev partG_W : List (Ref sig .tc) := [main_v86, main_v87, main_v88, main_cst_5, main_v89, main_v90, main_cst_6, main_v91, main_v92, main_cst_7, main_v93, main_v94, main_v95, main_v96, main_v97, main_v98, main_v99, main_v100, main_v101]

/-- The whole line. -/
def ops : List (HloOp τ sig (Elt F)) := partA ++ (partB ++ (partC ++ (partD ++ (partE ++ (partF ++ partG)))))

theorem after_ops (V : Valuation τ sig (Elt F)) :
    after ops V = after partG (after partF (after partE (after partD (after partC (after partB (after partA V)))))) := by
  simp only [ops, after_app]

end Cert.RefRun

end
-- ==== Proof.RefMain.lean ====
/-
  The reference program IS the straight line of its operations (the outlined functions' definitions unfolded at their
  calls and the calls' records at their fields, sequencing reassociated), every operation names TensorCore buffers only
  and determines its results, and nothing in the signature is scoped: so every weakly fair execution terminates with
  each buffer at the fold of the operations' results over the launch contents.
-/
import proofs.«149758_j56289841381718_2_alg».proof.Proof.RefOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 8000000 in
/-- @main is the line: both sides are one chain of `hlo` steps once the functions are unfolded and sequencing is
    reassociated. -/
theorem main_eq (c : Dev nD) : main (F := F) c = seq (ops (F := F)) := by
  simp only [main, main_part0, main_part1, fn_leaky_relu.body, fn_leaky_relu_0.body, fn_where.body, fn_where_1.body,
    ops, partA, partB, partC, partD, partE, partF, partG, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem partA_sub : (partA (F := F)).Forall fun op => op.bufs ⊆ tcRefs τ sig := by
  unfold partA
  exact ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩

theorem partA_fresh : ∀ op ∈ (partA (F := F)), op.fresh = ∅ := by
  unfold partA
  intro _ h
  (repeat (cases h with | head => rfl | tail _ h => ?_))
  exact nomatch h

theorem partB_sub : (partB (F := F)).Forall fun op => op.bufs ⊆ tcRefs τ sig := by
  unfold partB
  exact ⟨binary_bufs_sub .., unary_bufs_sub .., unary_bufs_sub .., unary_bufs_sub .., binary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub ..⟩

theorem partB_fresh : ∀ op ∈ (partB (F := F)), op.fresh = ∅ := by
  unfold partB
  intro _ h
  (repeat (cases h with | head => rfl | tail _ h => ?_))
  exact nomatch h

theorem partC_sub : (partC (F := F)).Forall fun op => op.bufs ⊆ tcRefs τ sig := by
  unfold partC
  exact ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem partC_fresh : ∀ op ∈ (partC (F := F)), op.fresh = ∅ := by
  unfold partC
  intro _ h
  (repeat (cases h with | head => rfl | tail _ h => ?_))
  exact nomatch h

theorem partD_sub : (partD (F := F)).Forall fun op => op.bufs ⊆ tcRefs τ sig := by
  unfold partD
  exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem partD_fresh : ∀ op ∈ (partD (F := F)), op.fresh = ∅ := by
  unfold partD
  intro _ h
  (repeat (cases h with | head => rfl | tail _ h => ?_))
  exact nomatch h

theorem partE_sub : (partE (F := F)).Forall fun op => op.bufs ⊆ tcRefs τ sig := by
  unfold partE
  exact ⟨unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩

theorem partE_fresh : ∀ op ∈ (partE (F := F)), op.fresh = ∅ := by
  unfold partE
  intro _ h
  (repeat (cases h with | head => rfl | tail _ h => ?_))
  exact nomatch h

theorem partF_sub : (partF (F := F)).Forall fun op => op.bufs ⊆ tcRefs τ sig := by
  unfold partF
  exact ⟨binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

theorem partF_fresh : ∀ op ∈ (partF (F := F)), op.fresh = ∅ := by
  unfold partF
  intro _ h
  (repeat (cases h with | head => rfl | tail _ h => ?_))
  exact nomatch h

theorem partG_sub : (partG (F := F)).Forall fun op => op.bufs ⊆ tcRefs τ sig := by
  unfold partG
  exact ⟨unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub ..⟩

theorem partG_fresh : ∀ op ∈ (partG (F := F)), op.fresh = ∅ := by
  unfold partG
  intro _ h
  (repeat (cases h with | head => rfl | tail _ h => ?_))
  exact nomatch h

theorem mem_ops {op : HloOp τ sig (Elt F)} (h : op ∈ ops) :
    op ∈ partA ∨ op ∈ partB ∨ op ∈ partC ∨ op ∈ partD ∨ op ∈ partE ∨ op ∈ partF ∨ op ∈ partG := by
  simpa only [ops, List.mem_append] using h

theorem ops_sub : (ops (F := F)).Forall fun op => op.bufs ⊆ tcRefs τ sig :=
  List.forall_iff_forall_mem.mpr fun op h => by
    rcases mem_ops h with h | h | h | h | h | h | h
    · exact List.forall_iff_forall_mem.mp partA_sub op h
    · exact List.forall_iff_forall_mem.mp partB_sub op h
    · exact List.forall_iff_forall_mem.mp partC_sub op h
    · exact List.forall_iff_forall_mem.mp partD_sub op h
    · exact List.forall_iff_forall_mem.mp partE_sub op h
    · exact List.forall_iff_forall_mem.mp partF_sub op h
    · exact List.forall_iff_forall_mem.mp partG_sub op h

theorem ops_fresh : ∀ op ∈ (ops (F := F)), op.fresh = ∅ := fun op h => by
  rcases mem_ops h with h | h | h | h | h | h | h
  · exact partA_fresh op h
  · exact partB_fresh op h
  · exact partC_fresh op h
  · exact partD_fresh op h
  · exact partE_fresh op h
  · exact partF_fresh op h
  · exact partG_fresh op h

/-- On every device, from any memory with zero counters: every weakly fair execution of @main terminates with each
    buffer at the fold of the operations' results over the launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc),
        r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.RefRun

end
-- ==== Proof.RefFuns.lean ====
/-
  The reference's arithmetic between its shared host prelude and its shared host epilogue, as pure functions of whole
  arrays, one per stretch of the program:
    fB   the two input layers (product against the weights, ensemble axis moved to the front, bias), side by side, rectified;
    fC   the layer on the concatenation, rectified;   fD, fE   the two hidden layers (their weights and biases are
         member 0 and member 1 of one stacked array), rectified;
    f68, f75, f85   the three heads: next state (plus the normalised observation), reward 2·tanh, termination 1/(1+exp(−·)).
  `t38 A … t85 A` are these applied in turn to the arrays `A` the network reads.
-/
import proofs.«149758_j56289841381718_2_alg».proof.Proof.Spec

noncomputable section

namespace Cert.RefRun

open Idealize.ShloMosaic Cert.ReferenceIdeal Cert.ReferenceIdeal.Gen Cert.Net

/-- The leaky rectifier over a whole array of width 400: compare with zero, scale, select. -/
def lr400 (x : FVec Ideal S16x16384x400 .f32) : FVec Ideal S16x16384x400 .f32 :=
  select (cmpf (F := Ideal) .oge x (broadcastInDim S16x16384x400 ![] bcast_S_S16x16384x400 (constant (F := Ideal) S_ .f32 0x00000000#32))) x
    (mulf (F := Ideal) (broadcastInDim S16x16384x400 ![] bcast_S_S16x16384x400 (constant (F := Ideal) S_ .f32 0x3C23D70A#32)) x)

/-- The same at width 200. -/
def lr200 (x : FVec Ideal S16x16384x200 .f32) : FVec Ideal S16x16384x200 .f32 :=
  select (cmpf (F := Ideal) .oge x (broadcastInDim S16x16384x200 ![] bcast_S_S16x16384x200 (constant (F := Ideal) S_ .f32 0x00000000#32))) x
    (mulf (F := Ideal) (broadcastInDim S16x16384x200 ![] bcast_S_S16x16384x200 (constant (F := Ideal) S_ .f32 0x3C23D70A#32)) x)

/-- A bias of 200 entries repeated over every ensemble member and row. -/
def bias200 (β : FVec Ideal S200 .f32) : FVec Ideal S16x16384x200 .f32 :=
  broadcastInDim S16x16384x200 ![0, 1, 2] bcast_S1x1x200_S16x16384x200_0_1_2 (broadcastInDim S1x1x200 ![2] bcast_S200_S1x1x200_2 β)

/-- The two input layers side by side, rectified. -/
def fB (xn : FVec Ideal S16384x17 .f32) (ac : FVec Ideal S16384x6 .f32) (wo : FVec Ideal S16x200x17 .f32)
    (wa : FVec Ideal S16x200x6 .f32) (bo ba : FVec Ideal S200 .f32) : FVec Ideal S16x16384x400 .f32 :=
  lr400 (concatenate S16x16384x400 2
    [⟨S16x16384x200, addf (F := Ideal) (transpose S16x16384x200 [1, 0, 2] (Host.dotGeneral (F := Ideal) dot_S16384x17_S16x200x17_S16384x16x200_1_2_0_01_n_n none xn wo) transposes_S16384x16x200_S16x16384x200_1_0_2) (bias200 bo)⟩,
     ⟨S16x16384x200, addf (F := Ideal) (transpose S16x16384x200 [1, 0, 2] (Host.dotGeneral (F := Ideal) dot_S16384x6_S16x200x6_S16384x16x200_1_2_0_01_n_n none ac wa) transposes_S16384x16x200_S16x16384x200_1_0_2) (bias200 ba)⟩]
    concatenates_S16x16384x200_S16x16384x200_S16x16384x400_d2)

/-- The layer on the concatenation, rectified. -/
def fC (y : FVec Ideal S16x16384x400 .f32) (wt : FVec Ideal S16x200x400 .f32) (bt : FVec Ideal S200 .f32) : FVec Ideal S16x16384x200 .f32 :=
  lr200 (addf (F := Ideal) (Host.dotGeneral (F := Ideal) dot_S16x16384x400_S16x200x400_S16x16384x200_2_2_1_1_0_0 none y wt) (bias200 bt))

/-- The first hidden layer: member 0 of the stacked weights and biases. -/
def fD (y : FVec Ideal S16x16384x200 .f32) (wh : FVec Ideal S16x2x200x200 .f32) (bh : FVec Ideal S2x200 .f32) : FVec Ideal S16x16384x200 .f32 :=
  lr200 (addf (F := Ideal) (Host.dotGeneral (F := Ideal) dot_S16x16384x200_S16x200x200_S16x16384x200_2_2_1_1_0_0 none y
      (shapeCast S16x200x200 (extractStridedSlice S16x1x200x200 ![0, 0, 0, 0] wh slices_S16x2x200x200_S16x1x200x200_0_0_0_0) shapeCasts_S16x1x200x200_S16x200x200))
    (bias200 (shapeCast S200 (extractStridedSlice S1x200 ![0, 0] bh slices_S2x200_S1x200_0_0) shapeCasts_S1x200_S200)))

/-- The second hidden layer: member 1. -/
def fE (y : FVec Ideal S16x16384x200 .f32) (wh : FVec Ideal S16x2x200x200 .f32) (bh : FVec Ideal S2x200 .f32) : FVec Ideal S16x16384x200 .f32 :=
  lr200 (addf (F := Ideal) (Host.dotGeneral (F := Ideal) dot_S16x16384x200_S16x200x200_S16x16384x200_2_2_1_1_0_0 none y
      (shapeCast S16x200x200 (extractStridedSlice S16x1x200x200 ![0, 1, 0, 0] wh slices_S16x2x200x200_S16x1x200x200_0_1_0_0) shapeCasts_S16x1x200x200_S16x200x200))
    (bias200 (shapeCast S200 (extractStridedSlice S1x200 ![1, 0] bh slices_S2x200_S1x200_1_0) shapeCasts_S1x200_S200)))

/-- The next-state head: product, bias, plus the normalised observation. -/
def f68 (y : FVec Ideal S16x16384x200 .f32) (ws : FVec Ideal S16x17x200 .f32) (bs : FVec Ideal S17 .f32) (xn : FVec Ideal S16384x17 .f32) :
    FVec Ideal S16x16384x17 .f32 :=
  addf (F := Ideal) (addf (F := Ideal) (Host.dotGeneral (F := Ideal) dot_S16x16384x200_S16x17x200_S16x16384x17_2_2_1_1_0_0 none y ws)
      (broadcastInDim S16x16384x17 ![0, 1, 2] bcast_S1x1x17_S16x16384x17_0_1_2 (broadcastInDim S1x1x17 ![2] bcast_S17_S1x1x17_2 bs)))
    (broadcastInDim S16x16384x17 ![0, 1, 2] bcast_S1x16384x17_S16x16384x17_0_1_2 (broadcastInDim S1x16384x17 ![1, 2] bcast_S16384x17_S1x16384x17_1_2 xn))

/-- The reward head: twice the hyperbolic tangent. -/
def f75 (y : FVec Ideal S16x16384x200 .f32) (wr : FVec Ideal S16x1x200 .f32) (br : FVec Ideal S1 .f32) : FVec Ideal S16x16384x1 .f32 :=
  mulf (F := Ideal) (Host.tanh (F := Ideal) (addf (F := Ideal) (Host.dotGeneral (F := Ideal) dot_S16x16384x200_S16x1x200_S16x16384x1_2_2_1_1_0_0 none y wr)
      (broadcastInDim S16x16384x1 ![0, 1, 2] bcast_S1x1x1_S16x16384x1_0_1_2 (broadcastInDim S1x1x1 ![2] bcast_S1_S1x1x1_2 br))))
    (broadcastInDim S16x16384x1 ![] bcast_S_S16x16384x1 (constant (F := Ideal) S_ .f32 0x40000000#32))

/-- The termination head: one over one plus the exponential of the negated sum. -/
def f85 (y : FVec Ideal S16x16384x200 .f32) (wd : FVec Ideal S16x1x200 .f32) (bd : FVec Ideal S1 .f32) : FVec Ideal S16x16384x1 .f32 :=
  Host.divf (F := Ideal) (broadcastInDim S16x16384x1 ![] bcast_S_S16x16384x1 (constant (F := Ideal) S_ .f32 0x3F800000#32))
    (addf (F := Ideal) (broadcastInDim S16x16384x1 ![] bcast_S_S16x16384x1 (constant (F := Ideal) S_ .f32 0x3F800000#32))
      (Host.exp (F := Ideal) (Host.negf (F := Ideal) (addf (F := Ideal) (Host.dotGeneral (F := Ideal) dot_S16x16384x200_S16x1x200_S16x16384x1_2_2_1_1_0_0 none y wd)
        (broadcastInDim S16x16384x1 ![0, 1, 2] bcast_S1x1x1_S16x16384x1_0_1_2 (broadcastInDim S1x1x1 ![2] bcast_S1_S1x1x1_2 bd))))))

/-! ## The same over the arrays the network reads -/

def t38 (A : Arrays) : FVec Ideal S16x16384x400 .f32 := fB A.xn A.ac A.wo A.wa A.bo A.ba
def t43 (A : Arrays) : FVec Ideal S16x16384x200 .f32 := fC (t38 A) A.wt A.bt
def t52 (A : Arrays) : FVec Ideal S16x16384x200 .f32 := fD (t43 A) A.wh A.bh
def t61 (A : Arrays) : FVec Ideal S16x16384x200 .f32 := fE (t52 A) A.wh A.bh
def t68 (A : Arrays) : FVec Ideal S16x16384x17 .f32 := f68 (t61 A) A.ws A.bs A.xn
def t75 (A : Arrays) : FVec Ideal S16x16384x1 .f32 := f75 (t61 A) A.wr A.br
def t85 (A : Arrays) : FVec Ideal S16x16384x1 .f32 := f85 (t61 A) A.wd A.bd

end Cert.RefRun

end
-- ==== Proof.RefWinA.lean ====
/-
  Window A read back: the weight tensors and the normalised observations, as functions of the contents the window starts from; every buffer the window does
  not write keeps its contents.
-/
import proofs.«149758_j56289841381718_2_alg».proof.Proof.RefOps
import proofs.«149758_j56289841381718_2_alg».proof.Proof.RefFuns

noncomputable section

namespace Cert.RefRun

open Cert.ReferenceIdeal Cert.ReferenceIdeal.Gen Idealize.ShloMosaic Idealize.ShloMosaic.TcCoe Idealize.SL.Sem Idealize.ShloMosaic.StableHlo Cert.Net

/-- One operation writes its own result buffer, which the window's list names. -/
local macro "wr1" : tactic =>
  `(tactic| (simp only [nullary_writes, unary_writes, binary_writes, ternary_writes, reshape_writes, Finset.singleton_subset_iff, List.mem_toFinset]
             exact List.mem_map_of_mem (by decide)))

theorem partA_writes : (partA (F := Ideal)).Forall fun op => op.writes ⊆ (partA_W.map (Proc.devRef (τ := τ) .tc)).toFinset := by
  unfold partA
  simp only [List.Forall]
  exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- A buffer window A does not write keeps its contents through it. -/
theorem partA_keep (W : Valuation τ sig (Elt Ideal)) {r : Ref sig .tc} (h : r ∉ partA_W) :
    after partA W (Proc.devRef .tc r) = W (Proc.devRef .tc r) :=
  after_of_writes_sub partA W partA_writes h

set_option maxHeartbeats 2000000 in
theorem partA_main_v1 (W : Valuation τ sig (Elt Ideal)) :
    after partA W (Proc.devRef .tc main_v1) = wObs (W (Proc.devRef .tc main_arg2)) := by
  unfold partA
  after_results_simp
  rfl

set_option maxHeartbeats 2000000 in
theorem partA_main_v3 (W : Valuation τ sig (Elt Ideal)) :
    after partA W (Proc.devRef .tc main_v3) = wAct (W (Proc.devRef .tc main_arg2)) := by
  unfold partA
  after_results_simp
  rfl

set_option maxHeartbeats 2000000 in
theorem partA_main_v5 (W : Valuation τ sig (Elt Ideal)) :
    after partA W (Proc.devRef .tc main_v5) = wTgt (W (Proc.devRef .tc main_arg2)) := by
  unfold partA
  after_results_simp
  rfl

set_option maxHeartbeats 2000000 in
theorem partA_main_v7 (W : Valuation τ sig (Elt Ideal)) :
    after partA W (Proc.devRef .tc main_v7) = wHid (W (Proc.devRef .tc main_arg2)) := by
  unfold partA
  after_results_simp
  rfl

set_option maxHeartbeats 2000000 in
theorem partA_main_v9 (W : Valuation τ sig (Elt Ideal)) :
    after partA W (Proc.devRef .tc main_v9) = wSt (W (Proc.devRef .tc main_arg2)) := by
  unfold partA
  after_results_simp
  rfl

set_option maxHeartbeats 2000000 in
theorem partA_main_v11 (W : Valuation τ sig (Elt Ideal)) :
    after partA W (Proc.devRef .tc main_v11) = wRw (W (Proc.devRef .tc main_arg2)) := by
  unfold partA
  after_results_simp
  rfl

set_option maxHeartbeats 2000000 in
theorem partA_main_v13 (W : Valuation τ sig (Elt Ideal)) :
    after partA W (Proc.devRef .tc main_v13) = wDn (W (Proc.devRef .tc main_arg2)) := by
  unfold partA
  after_results_simp
  rfl

set_option maxHeartbeats 2000000 in
theorem partA_main_v26 (W : Valuation τ sig (Elt Ideal)) :
    after partA W (Proc.devRef .tc main_v26) = obsN (W (Proc.devRef .tc main_arg0)) (W (Proc.devRef .tc main_arg10)) (W (Proc.devRef .tc main_arg11)) := by
  unfold partA
  after_results_simp
  rfl

end Cert.RefRun

end
-- ==== Proof.RefWinB.lean ====
/-
  Window B read back: the input layers' rectified concatenation, as functions of the contents the window starts from; every buffer the window does
  not write keeps its contents.
-/
import proofs.«149758_j56289841381718_2_alg».proof.Proof.RefOps
import proofs.«149758_j56289841381718_2_alg».proof.Proof.RefFuns

noncomputable section

namespace Cert.RefRun

open Cert.ReferenceIdeal Cert.ReferenceIdeal.Gen Idealize.ShloMosaic Idealize.ShloMosaic.TcCoe Idealize.SL.Sem Idealize.ShloMosaic.StableHlo Cert.Net

/-- One operation writes its own result buffer, which the window's list names. -/
local macro "wr1" : tactic =>
  `(tactic| (simp only [nullary_writes, unary_writes, binary_writes, ternary_writes, reshape_writes, Finset.singleton_subset_iff, List.mem_toFinset]
             exact List.mem_map_of_mem (by decide)))

theorem partB_writes : (partB (F := Ideal)).Forall fun op => op.writes ⊆ (partB_W.map (Proc.devRef (τ := τ) .tc)).toFinset := by
  unfold partB
  simp only [List.Forall]
  exact ⟨by wr1, by wr1, by wr1, by wr1, by wr1, by wr1, by wr1, by wr1, by wr1, by wr1, by wr1, by wr1, by wr1, by wr1, by wr1, by wr1, by wr1, by wr1⟩

/-- A buffer window B does not write keeps its contents through it. -/
theorem partB_keep (W : Valuation τ sig (Elt Ideal)) {r : Ref sig .tc} (h : r ∉ partB_W) :
    after partB W (Proc.devRef .tc r) = W (Proc.devRef .tc r) :=
  after_of_writes_sub partB W partB_writes h

set_option maxHeartbeats 2000000 in
theorem partB_main_v38 (W : Valuation τ sig (Elt Ideal)) :
    after partB W (Proc.devRef .tc main_v38) = fB (W (Proc.devRef .tc main_v26)) (W (Proc.devRef .tc main_arg1)) (W (Proc.devRef .tc main_v1)) (W (Proc.devRef .tc main_v3)) (W (Proc.devRef .tc main_arg3)) (W (Proc.devRef .tc main_arg4)) := by
  unfold partB
  after_results_simp
  rfl

end Cert.RefRun

end
-- ==== Proof.RefWinC.lean ====
/-
  Window C read back: the layer on the concatenation, as functions of the contents the window starts from; every buffer the window does
  not write keeps its contents.
-/
import proofs.«149758_j56289841381718_2_alg».proof.Proof.RefOps
import proofs.«149758_j56289841381718_2_alg».proof.Proof.RefFuns

noncomputable section

namespace Cert.RefRun

open Cert.ReferenceIdeal Cert.ReferenceIdeal.Gen Idealize.ShloMosaic Idealize.ShloMosaic.TcCoe Idealize.SL.Sem Idealize.ShloMosaic.StableHlo Cert.Net

/-- One operation writes its own result buffer, which the window's list names. -/
local macro "wr1" : tactic =>
  `(tactic| (simp only [nullary_writes, unary_writes, binary_writes, ternary_writes, reshape_writes, Finset.singleton_subset_iff, List.mem_toFinset]
             exact List.mem_map_of_mem (by decide)))

theorem partC_writes : (partC (F := Ideal)).Forall fun op => op.writes ⊆ (partC_W.map (Proc.devRef (τ := τ) .tc)).toFinset := by
  unfold partC
  simp only [List.Forall]
  exact ⟨by wr1, by wr1, by wr1, by wr1, by wr1, by wr1, by wr1, by wr1, by wr1, by wr1, by wr1⟩

/-- A buffer window C does not write keeps its contents through it. -/
theorem partC_keep (W : Valuation τ sig (Elt Ideal)) {r : Ref sig .tc} (h : r ∉ partC_W) :
    after partC W (Proc.devRef .tc r) = W (Proc.devRef .tc r) :=
  after_of_writes_sub partC W partC_writes h

set_option maxHeartbeats 2000000 in
theorem partC_main_v43 (W : Valuation τ sig (Elt Ideal)) :
    after partC W (Proc.devRef .tc main_v43) = fC (W (Proc.devRef .tc main_v38)) (W (Proc.devRef .tc main_v5)) (W (Proc.devRef .tc main_arg5)) := by
  unfold partC
  after_results_simp
  rfl

end Cert.RefRun

end
-- ==== Proof.RefWinD.lean ====
/-
  Window D read back: the first hidden layer, as functions of the contents the window starts from; every buffer the window does
  not write keeps its contents.
-/
import proofs.«149758_j56289841381718_2_alg».proof.Proof.RefOps
import proofs.«149758_j56289841381718_2_alg».proof.Proof.RefFuns

noncomputable section

namespace Cert.RefRun

open Cert.ReferenceIdeal Cert.ReferenceIdeal.Gen Idealize.ShloMosaic Idealize.ShloMosaic.TcCoe Idealize.SL.Sem Idealize.ShloMosaic.StableHlo Cert.Net

/-- One operation writes its own result buffer, which the window's list names. -/
local macro "wr1" : tactic =>
  `(tactic| (simp only [nullary_writes, unary_writes, binary_writes, ternary_writes, reshape_writes, Finset.singleton_subset_iff, List.mem_toFinset]
             exact List.mem_map_of_mem (by decide)))

theorem partD_writes : (partD (F := Ideal)).Forall fun op => op.writes ⊆ (partD_W.map (Proc.devRef (τ := τ) .tc)).toFinset := by
  unfold partD
  simp only [List.Forall]
  exact ⟨by wr1, by wr1, by wr1, by wr1, by wr1, by wr1, by wr1, by wr1, by wr1, by wr1, by wr1, by wr1, by wr1, by wr1, by wr1⟩

/-- A buffer window D does not write keeps its contents through it. -/
theorem partD_keep (W : Valuation τ sig (Elt Ideal)) {r : Ref sig .tc} (h : r ∉ partD_W) :
    after partD W (Proc.devRef .tc r) = W (Proc.devRef .tc r) :=
  after_of_writes_sub partD W partD_writes h

set_option maxHeartbeats 2000000 in
theorem partD_main_v52 (W : Valuation τ sig (Elt Ideal)) :
    after partD W (Proc.devRef .tc main_v52) = fD (W (Proc.devRef .tc main_v43)) (W (Proc.devRef .tc main_v7)) (W (Proc.devRef .tc main_arg6)) := by
  unfold partD
  after_results_simp
  rfl

end Cert.RefRun

end
-- ==== Proof.RefWinE.lean ====
/-
  Window E read back: the second hidden layer, as functions of the contents the window starts from; every buffer the window does
  not write keeps its contents.
-/
import proofs.«149758_j56289841381718_2_alg».proof.Proof.RefOps
import proofs.«149758_j56289841381718_2_alg».proof.Proof.RefFuns

noncomputable section

namespace Cert.RefRun

open Cert.ReferenceIdeal Cert.ReferenceIdeal.Gen Idealize.ShloMosaic Idealize.ShloMosaic.TcCoe Idealize.SL.Sem Idealize.ShloMosaic.StableHlo Cert.Net

/-- One operation writes its own result buffer, which the window's list names. -/
local macro "wr1" : tactic =>
  `(tactic| (simp only [nullary_writes, unary_writes, binary_writes, ternary_writes, reshape_writes, Finset.singleton_subset_iff, List.mem_toFinset]
             exact List.mem_map_of_mem (by decide)))

theorem partE_writes : (partE (F := Ideal)).Forall fun op => op.writes ⊆ (partE_W.map (Proc.devRef (τ := τ) .tc)).toFinset := by
  unfold partE
  simp only [List.Forall]
  exact ⟨by wr1, by wr1, by wr1, by wr1, by wr1, by wr1, by wr1, by wr1, by wr1, by wr1, by wr1, by wr1, by wr1, by wr1, by wr1⟩

/-- A buffer window E does not write keeps its contents through it. -/
theorem partE_keep (W : Valuation τ sig (Elt Ideal)) {r : Ref sig .tc} (h : r ∉ partE_W) :
    after partE W (Proc.devRef .tc r) = W (Proc.devRef .tc r) :=
  after_of_writes_sub partE W partE_writes h

set_option maxHeartbeats 2000000 in
theorem partE_main_v61 (W : Valuation τ sig (Elt Ideal)) :
    after partE W (Proc.devRef .tc main_v61) = fE (W (Proc.devRef .tc main_v52)) (W (Proc.devRef .tc main_v7)) (W (Proc.devRef .tc main_arg6)) := by
  unfold partE
  after_results_simp
  rfl

end Cert.RefRun

end
-- ==== Proof.RefWinF.lean ====
/-
  Window F read back: the three heads, as functions of the contents the window starts from; every buffer the window does
  not write keeps its contents.
-/
import proofs.«149758_j56289841381718_2_alg».proof.Proof.RefOps
import proofs.«149758_j56289841381718_2_alg».proof.Proof.RefFuns

noncomputable section

namespace Cert.RefRun

open Cert.ReferenceIdeal Cert.ReferenceIdeal.Gen Idealize.ShloMosaic Idealize.ShloMosaic.TcCoe Idealize.SL.Sem Idealize.ShloMosaic.StableHlo Cert.Net

/-- One operation writes its own result buffer, which the window's list names. -/
local macro "wr1" : tactic =>
  `(tactic| (simp only [nullary_writes, unary_writes, binary_writes, ternary_writes, reshape_writes, Finset.singleton_subset_iff, List.mem_toFinset]
             exact List.mem_map_of_mem (by decide)))

theorem partF_writes : (partF (F := Ideal)).Forall fun op => op.writes ⊆ (partF_W.map (Proc.devRef (τ := τ) .tc)).toFinset := by
  unfold partF
  simp only [List.Forall]
  exact ⟨by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1, by wr1⟩

/-- A buffer window F does not write keeps its contents through it. -/
theorem partF_keep (W : Valuation τ sig (Elt Ideal)) {r : Ref sig .tc} (h : r ∉ partF_W) :
    after partF W (Proc.devRef .tc r) = W (Proc.devRef .tc r) :=
  after_of_writes_sub partF W partF_writes h

set_option maxHeartbeats 2000000 in
theorem partF_main_v68 (W : Valuation τ sig (Elt Ideal)) :
    after partF W (Proc.devRef .tc main_v68) = f68 (W (Proc.devRef .tc main_v61)) (W (Proc.devRef .tc main_v9)) (W (Proc.devRef .tc main_arg7)) (W (Proc.devRef .tc main_v26)) := by
  unfold partF
  after_results_simp
  rfl

set_option maxHeartbeats 2000000 in
theorem partF_main_v75 (W : Valuation τ sig (Elt Ideal)) :
    after partF W (Proc.devRef .tc main_v75) = f75 (W (Proc.devRef .tc main_v61)) (W (Proc.devRef .tc main_v11)) (W (Proc.devRef .tc main_arg8)) := by
  unfold partF
  after_results_simp
  rfl

set_option maxHeartbeats 2000000 in
theorem partF_main_v85 (W : Valuation τ sig (Elt Ideal)) :
    after partF W (Proc.devRef .tc main_v85) = f85 (W (Proc.devRef .tc main_v61)) (W (Proc.devRef .tc main_v13)) (W (Proc.devRef .tc main_arg9)) := by
  unfold partF
  after_results_simp
  rfl

end Cert.RefRun

end
-- ==== Proof.RefWinG.lean ====
/-
  Window G read back: the three results, as functions of the contents the window starts from; every buffer the window does
  not write keeps its contents.
-/
import proofs.«149758_j56289841381718_2_alg».proof.Proof.RefOps
import proofs.«149758_j56289841381718_2_alg».proof.Proof.RefFuns

noncomputable section

namespace Cert.RefRun

open Cert.ReferenceIdeal Cert.ReferenceIdeal.Gen Idealize.ShloMosaic Idealize.ShloMosaic.TcCoe Idealize.SL.Sem Idealize.ShloMosaic.StableHlo Cert.Net

/-- One operation writes its own result buffer, which the window's list names. -/
local macro "wr1" : tactic =>
  `(tactic| (simp only [nullary_writes, unary_writes, binary_writes, ternary_writes, reshape_writes, Finset.singleton_subset_iff, List.mem_toFinset]
             exact List.mem_map_of_mem (by decide)))

theorem partG_writes : (partG (F := Ideal)).Forall fun op => op.writes ⊆ (partG_W.map (Proc.devRef (τ := τ) .tc)).toFinset := by
  unfold partG
  simp only [List.Forall]
  exact ⟨by wr1, by wr1, by wr1, by wr1, by wr1, by wr1, by wr1, by wr1, by wr1, by wr1, by wr1, by wr1, by wr1, by wr1, by wr1, by wr1, by wr1, by wr1, by wr1⟩

/-- A buffer window G does not write keeps its contents through it. -/
theorem partG_keep (W : Valuation τ sig (Elt Ideal)) {r : Ref sig .tc} (h : r ∉ partG_W) :
    after partG W (Proc.devRef .tc r) = W (Proc.devRef .tc r) :=
  after_of_writes_sub partG W partG_writes h

set_option maxHeartbeats 2000000 in
theorem partG_main_v101 (W : Valuation τ sig (Elt Ideal)) :
    after partG W (Proc.devRef .tc main_v101) = denorm (W (Proc.devRef .tc main_v68)) (W (Proc.devRef .tc main_arg10)) (W (Proc.devRef .tc main_arg11)) := by
  unfold partG
  after_results_simp
  rfl

set_option maxHeartbeats 2000000 in
theorem partG_main_v87 (W : Valuation τ sig (Elt Ideal)) :
    after partG W (Proc.devRef .tc main_v87) = flip1 (W (Proc.devRef .tc main_v75)) := by
  unfold partG
  after_results_simp
  rfl

set_option maxHeartbeats 2000000 in
theorem partG_main_v88 (W : Valuation τ sig (Elt Ideal)) :
    after partG W (Proc.devRef .tc main_v88) = flip1 (W (Proc.devRef .tc main_v85)) := by
  unfold partG
  after_results_simp
  rfl

end Cert.RefRun

end
-- ==== Proof.RefTerm.lean ====
/-
  The reference's network as whole-array terms, stage by stage, in the operations its text uses: the two input products
  (observations and actions against every ensemble member's weights, then put ensemble-major), their biases, the two
  placed side by side, the leaky rectifier, three batched products with biases and rectifiers, and the three heads.
-/
import proofs.«149758_j56289841381718_2_alg».proof.Proof.Spec

noncomputable section

namespace Cert.RefTerm

open Idealize.ShloMosaic
open Cert.ReferenceIdeal Cert.ReferenceIdeal.Gen Cert.Net

/-- The rectifier over `[16, 16384, 400]`: compare with zero, scale by the slope, select. -/
def leaky4 (t : FVec Ideal S16x16384x400 .f32) : FVec Ideal S16x16384x400 .f32 :=
  select (cmpf .oge t (broadcastInDim S16x16384x400 ![] bcast_S_S16x16384x400 (constant (F := Ideal) S_ .f32 0x00000000#32))) t
    (mulf (broadcastInDim S16x16384x400 ![] bcast_S_S16x16384x400 (constant (F := Ideal) S_ .f32 0x3C23D70A#32)) t)

/-- The rectifier over `[16, 16384, 200]`. -/
def leaky2 (t : FVec Ideal S16x16384x200 .f32) : FVec Ideal S16x16384x200 .f32 :=
  select (cmpf .oge t (broadcastInDim S16x16384x200 ![] bcast_S_S16x16384x200 (constant (F := Ideal) S_ .f32 0x00000000#32))) t
    (mulf (broadcastInDim S16x16384x200 ![] bcast_S_S16x16384x200 (constant (F := Ideal) S_ .f32 0x3C23D70A#32)) t)

/-- A bias of 200 entries spread over ensemble members and rows. -/
def bias200 (b : FVec Ideal S200 .f32) : FVec Ideal S16x16384x200 .f32 :=
  broadcastInDim S16x16384x200 ![0, 1, 2] bcast_S1x1x200_S16x16384x200_0_1_2 (broadcastInDim S1x1x200 ![2] bcast_S200_S1x1x200_2 b)

/-- A bias of one entry spread over ensemble members and rows. -/
def bias1 (b : FVec Ideal S1 .f32) : FVec Ideal S16x16384x1 .f32 :=
  broadcastInDim S16x16384x1 ![0, 1, 2] bcast_S1x1x1_S16x16384x1_0_1_2 (broadcastInDim S1x1x1 ![2] bcast_S1_S1x1x1_2 b)

/-- The observation layer, ensemble-major. -/
def o1 (A : Arrays) : FVec Ideal S16x16384x200 .f32 :=
  addf (transpose S16x16384x200 [1, 0, 2] (Host.dotGeneral dot_S16384x17_S16x200x17_S16384x16x200_1_2_0_01_n_n none A.xn A.wo)
    transposes_S16384x16x200_S16x16384x200_1_0_2) (bias200 A.bo)

/-- The action layer, ensemble-major. -/
def a1 (A : Arrays) : FVec Ideal S16x16384x200 .f32 :=
  addf (transpose S16x16384x200 [1, 0, 2] (Host.dotGeneral dot_S16384x6_S16x200x6_S16384x16x200_1_2_0_01_n_n none A.ac A.wa)
    transposes_S16384x16x200_S16x16384x200_1_0_2) (bias200 A.ba)

/-- The two side by side, rectified. -/
def y0 (A : Arrays) : FVec Ideal S16x16384x400 .f32 :=
  leaky4 (concatenate S16x16384x400 2 [⟨S16x16384x200, o1 A⟩, ⟨S16x16384x200, a1 A⟩] concatenates_S16x16384x200_S16x16384x200_S16x16384x400_d2)

/-- The first hidden layer. -/
def y1 (A : Arrays) : FVec Ideal S16x16384x200 .f32 :=
  leaky2 (addf (Host.dotGeneral dot_S16x16384x400_S16x200x400_S16x16384x200_2_2_1_1_0_0 none (y0 A) A.wt) (bias200 A.bt))

/-- Hidden matrix 0 of the stack, and its bias row. -/
def wh0 (A : Arrays) : FVec Ideal S16x200x200 .f32 :=
  shapeCast S16x200x200 (extractStridedSlice S16x1x200x200 ![0, 0, 0, 0] A.wh slices_S16x2x200x200_S16x1x200x200_0_0_0_0) shapeCasts_S16x1x200x200_S16x200x200
def bh0 (A : Arrays) : FVec Ideal S200 .f32 :=
  shapeCast S200 (extractStridedSlice S1x200 ![0, 0] A.bh slices_S2x200_S1x200_0_0) shapeCasts_S1x200_S200
/-- Hidden matrix 1 of the stack, and its bias row. -/
def wh1 (A : Arrays) : FVec Ideal S16x200x200 .f32 :=
  shapeCast S16x200x200 (extractStridedSlice S16x1x200x200 ![0, 1, 0, 0] A.wh slices_S16x2x200x200_S16x1x200x200_0_1_0_0) shapeCasts_S16x1x200x200_S16x200x200
def bh1 (A : Arrays) : FVec Ideal S200 .f32 :=
  shapeCast S200 (extractStridedSlice S1x200 ![1, 0] A.bh slices_S2x200_S1x200_1_0) shapeCasts_S1x200_S200

/-- The second hidden layer. -/
def y2 (A : Arrays) : FVec Ideal S16x16384x200 .f32 :=
  leaky2 (addf (Host.dotGeneral dot_S16x16384x200_S16x200x200_S16x16384x200_2_2_1_1_0_0 none (y1 A) (wh0 A)) (bias200 (bh0 A)))

/-- The third hidden layer. -/
def y3 (A : Arrays) : FVec Ideal S16x16384x200 .f32 :=
  leaky2 (addf (Host.dotGeneral dot_S16x16384x200_S16x200x200_S16x16384x200_2_2_1_1_0_0 none (y2 A) (wh1 A)) (bias200 (bh1 A)))

/-- The next-state head before it is put batch-major. -/
def v68 (A : Arrays) : FVec Ideal S16x16384x17 .f32 :=
  addf (addf (Host.dotGeneral dot_S16x16384x200_S16x17x200_S16x16384x17_2_2_1_1_0_0 none (y3 A) A.ws)
      (broadcastInDim S16x16384x17 ![0, 1, 2] bcast_S1x1x17_S16x16384x17_0_1_2 (broadcastInDim S1x1x17 ![2] bcast_S17_S1x1x17_2 A.bs)))
    (broadcastInDim S16x16384x17 ![0, 1, 2] bcast_S1x16384x17_S16x16384x17_0_1_2 (broadcastInDim S1x16384x17 ![1, 2] bcast_S16384x17_S1x16384x17_1_2 A.xn))

/-- The reward head before it is put batch-major. -/
def v75 (A : Arrays) : FVec Ideal S16x16384x1 .f32 :=
  mulf (Host.tanh (addf (Host.dotGeneral dot_S16x16384x200_S16x1x200_S16x16384x1_2_2_1_1_0_0 none (y3 A) A.wr) (bias1 A.br)))
    (broadcastInDim S16x16384x1 ![] bcast_S_S16x16384x1 (constant (F := Ideal) S_ .f32 0x40000000#32))

/-- The termination head before it is put batch-major: `1 / (1 + exp (−t))`. -/
def v85 (A : Arrays) : FVec Ideal S16x16384x1 .f32 :=
  Host.divf (broadcastInDim S16x16384x1 ![] bcast_S_S16x16384x1 (constant (F := Ideal) S_ .f32 0x3F800000#32))
    (addf (broadcastInDim S16x16384x1 ![] bcast_S_S16x16384x1 (constant (F := Ideal) S_ .f32 0x3F800000#32))
      (Host.exp (Host.negf (addf (Host.dotGeneral dot_S16x16384x200_S16x1x200_S16x16384x1_2_2_1_1_0_0 none (y3 A) A.wd) (bias1 A.bd)))))

end Cert.RefTerm

end
-- ==== Proof.RefRun.lean ====
/-
  The reference's run, assembled: after the seven windows in order the three result buffers hold the shared host
  epilogue (batch-major transpose; the next state mapped back) of the network's three heads over the arrays the shared
  host prelude makes of the arguments, and the twelve arguments are unchanged.
-/
import proofs.«149758_j56289841381718_2_alg».proof.Proof.RefMain
import proofs.«149758_j56289841381718_2_alg».proof.Proof.RefWinA
import proofs.«149758_j56289841381718_2_alg».proof.Proof.RefWinB
import proofs.«149758_j56289841381718_2_alg».proof.Proof.RefWinC
import proofs.«149758_j56289841381718_2_alg».proof.Proof.RefWinD
import proofs.«149758_j56289841381718_2_alg».proof.Proof.RefWinE
import proofs.«149758_j56289841381718_2_alg».proof.Proof.RefWinF
import proofs.«149758_j56289841381718_2_alg».proof.Proof.RefWinG
import proofs.«149758_j56289841381718_2_alg».proof.Proof.RefTerm

noncomputable section

namespace Cert.RefRun

open Cert.ReferenceIdeal Cert.ReferenceIdeal.Gen Idealize.ShloMosaic Idealize.ShloMosaic.TcCoe Idealize.SL.Sem Idealize.ShloMosaic.StableHlo Cert.Net

/-! ## The stages are the named ones -/

theorem t38_eq (A : Arrays) : t38 A = Cert.RefTerm.y0 A := rfl
theorem t43_eq (A : Arrays) : t43 A = Cert.RefTerm.y1 A := by
  unfold t43 Cert.RefTerm.y1; rw [t38_eq]; rfl
theorem t52_eq (A : Arrays) : t52 A = Cert.RefTerm.y2 A := by
  unfold t52 Cert.RefTerm.y2; rw [t43_eq]; rfl
theorem t61_eq (A : Arrays) : t61 A = Cert.RefTerm.y3 A := by
  unfold t61 Cert.RefTerm.y3; rw [t52_eq]; rfl
theorem t68_eq (A : Arrays) : t68 A = Cert.RefTerm.v68 A := by
  unfold t68 Cert.RefTerm.v68; rw [t61_eq]; rfl
theorem t75_eq (A : Arrays) : t75 A = Cert.RefTerm.v75 A := by
  unfold t75 Cert.RefTerm.v75; rw [t61_eq]; rfl
theorem t85_eq (A : Arrays) : t85 A = Cert.RefTerm.v85 A := by
  unfold t85 Cert.RefTerm.v85; rw [t61_eq]; rfl

/-! ## The contents after each window -/

variable (V : Valuation τ sig (Elt Ideal))

/-- The arrays the network reads, made of the launch contents of the twelve arguments. -/
def AV : Arrays := arrays (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))

def W1 : Valuation τ sig (Elt Ideal) := after partA V
def W2 : Valuation τ sig (Elt Ideal) := after partB (W1 V)
def W3 : Valuation τ sig (Elt Ideal) := after partC (W2 V)
def W4 : Valuation τ sig (Elt Ideal) := after partD (W3 V)
def W5 : Valuation τ sig (Elt Ideal) := after partE (W4 V)
def W6 : Valuation τ sig (Elt Ideal) := after partF (W5 V)

theorem after_ops_eq : after ops V = after partG (W6 V) := by rw [after_ops]; rfl

/-! A buffer the later windows do not write holds, after them, what it held after window A; one no window writes, what
    it held at launch. -/
variable {r : Ref sig .tc}
theorem W1_0 (hA : r ∉ partA_W) : W1 V (Proc.devRef .tc r) = V (Proc.devRef .tc r) := partA_keep V hA
theorem W2_1 (hB : r ∉ partB_W) : W2 V (Proc.devRef .tc r) = W1 V (Proc.devRef .tc r) := partB_keep (W1 V) hB
theorem W3_1 (hB : r ∉ partB_W) (hC : r ∉ partC_W) : W3 V (Proc.devRef .tc r) = W1 V (Proc.devRef .tc r) :=
  (partC_keep (W2 V) hC).trans (W2_1 V hB)
theorem W4_1 (hB : r ∉ partB_W) (hC : r ∉ partC_W) (hD : r ∉ partD_W) : W4 V (Proc.devRef .tc r) = W1 V (Proc.devRef .tc r) :=
  (partD_keep (W3 V) hD).trans (W3_1 V hB hC)
theorem W5_1 (hB : r ∉ partB_W) (hC : r ∉ partC_W) (hD : r ∉ partD_W) (hE : r ∉ partE_W) : W5 V (Proc.devRef .tc r) = W1 V (Proc.devRef .tc r) :=
  (partE_keep (W4 V) hE).trans (W4_1 V hB hC hD)
theorem W6_1 (hB : r ∉ partB_W) (hC : r ∉ partC_W) (hD : r ∉ partD_W) (hE : r ∉ partE_W) (hF : r ∉ partF_W) :
    W6 V (Proc.devRef .tc r) = W1 V (Proc.devRef .tc r) :=
  (partF_keep (W5 V) hF).trans (W5_1 V hB hC hD hE)
/-- A buffer no window writes holds its launch contents to the end. -/
theorem ops_keep (hA : r ∉ partA_W) (hB : r ∉ partB_W) (hC : r ∉ partC_W) (hD : r ∉ partD_W) (hE : r ∉ partE_W)
    (hF : r ∉ partF_W) (hG : r ∉ partG_W) : after ops V (Proc.devRef .tc r) = V (Proc.devRef .tc r) := by
  rw [after_ops_eq]
  exact (partG_keep (W6 V) hG).trans ((W6_1 V hB hC hD hE hF).trans (W1_0 V hA))

/-! ## Window A: the prelude's arrays -/

theorem W1_v1 : W1 V (Proc.devRef .tc main_v1) = (AV V).wo := partA_main_v1 V
theorem W1_v3 : W1 V (Proc.devRef .tc main_v3) = (AV V).wa := partA_main_v3 V
theorem W1_v5 : W1 V (Proc.devRef .tc main_v5) = (AV V).wt := partA_main_v5 V
theorem W1_v7 : W1 V (Proc.devRef .tc main_v7) = (AV V).wh := partA_main_v7 V
theorem W1_v9 : W1 V (Proc.devRef .tc main_v9) = (AV V).ws := partA_main_v9 V
theorem W1_v11 : W1 V (Proc.devRef .tc main_v11) = (AV V).wr := partA_main_v11 V
theorem W1_v13 : W1 V (Proc.devRef .tc main_v13) = (AV V).wd := partA_main_v13 V
theorem W1_v26 : W1 V (Proc.devRef .tc main_v26) = (AV V).xn := partA_main_v26 V
theorem W1_arg1 : W1 V (Proc.devRef .tc main_arg1) = (AV V).ac := W1_0 V (by decide)
theorem W1_arg3 : W1 V (Proc.devRef .tc main_arg3) = (AV V).bo := W1_0 V (by decide)
theorem W1_arg4 : W1 V (Proc.devRef .tc main_arg4) = (AV V).ba := W1_0 V (by decide)
theorem W1_arg5 : W1 V (Proc.devRef .tc main_arg5) = (AV V).bt := W1_0 V (by decide)
theorem W1_arg6 : W1 V (Proc.devRef .tc main_arg6) = (AV V).bh := W1_0 V (by decide)
theorem W1_arg7 : W1 V (Proc.devRef .tc main_arg7) = (AV V).bs := W1_0 V (by decide)
theorem W1_arg8 : W1 V (Proc.devRef .tc main_arg8) = (AV V).br := W1_0 V (by decide)
theorem W1_arg9 : W1 V (Proc.devRef .tc main_arg9) = (AV V).bd := W1_0 V (by decide)
theorem W1_arg10 : W1 V (Proc.devRef .tc main_arg10) = V (Proc.devRef .tc main_arg10) := W1_0 V (by decide)
theorem W1_arg11 : W1 V (Proc.devRef .tc main_arg11) = V (Proc.devRef .tc main_arg11) := W1_0 V (by decide)

/-! ## Windows B to F: the stages -/

theorem s38 : W2 V (Proc.devRef .tc main_v38) = t38 (AV V) := by
  refine (partB_main_v38 (W1 V)).trans ?_
  rw [W1_v26, W1_arg1, W1_v1, W1_v3, W1_arg3, W1_arg4]
  rfl
theorem s43 : W3 V (Proc.devRef .tc main_v43) = t43 (AV V) := by
  refine (partC_main_v43 (W2 V)).trans ?_
  rw [s38, W2_1 V (r := main_v5) (by decide), W2_1 V (r := main_arg5) (by decide), W1_v5, W1_arg5]
  rfl
theorem s52 : W4 V (Proc.devRef .tc main_v52) = t52 (AV V) := by
  refine (partD_main_v52 (W3 V)).trans ?_
  rw [s43, W3_1 V (r := main_v7) (by decide) (by decide), W3_1 V (r := main_arg6) (by decide) (by decide), W1_v7, W1_arg6]
  rfl
theorem s61 : W5 V (Proc.devRef .tc main_v61) = t61 (AV V) := by
  refine (partE_main_v61 (W4 V)).trans ?_
  rw [s52, W4_1 V (r := main_v7) (by decide) (by decide) (by decide), W4_1 V (r := main_arg6) (by decide) (by decide) (by decide), W1_v7, W1_arg6]
  rfl
theorem s68 : W6 V (Proc.devRef .tc main_v68) = t68 (AV V) := by
  refine (partF_main_v68 (W5 V)).trans ?_
  rw [s61, W5_1 V (r := main_v9) (by decide) (by decide) (by decide) (by decide), W5_1 V (r := main_arg7) (by decide) (by decide) (by decide) (by decide),
    W5_1 V (r := main_v26) (by decide) (by decide) (by decide) (by decide), W1_v9, W1_arg7, W1_v26]
  rfl
theorem s75 : W6 V (Proc.devRef .tc main_v75) = t75 (AV V) := by
  refine (partF_main_v75 (W5 V)).trans ?_
  rw [s61, W5_1 V (r := main_v11) (by decide) (by decide) (by decide) (by decide), W5_1 V (r := main_arg8) (by decide) (by decide) (by decide) (by decide),
    W1_v11, W1_arg8]
  rfl
theorem s85 : W6 V (Proc.devRef .tc main_v85) = t85 (AV V) := by
  refine (partF_main_v85 (W5 V)).trans ?_
  rw [s61, W5_1 V (r := main_v13) (by decide) (by decide) (by decide) (by decide), W5_1 V (r := main_arg9) (by decide) (by decide) (by decide) (by decide),
    W1_v13, W1_arg9]
  rfl

/-! ## Window G: the results -/

theorem W6_arg10 : W6 V (Proc.devRef .tc main_arg10) = V (Proc.devRef .tc main_arg10) :=
  (W6_1 V (by decide) (by decide) (by decide) (by decide) (by decide)).trans (W1_arg10 V)
theorem W6_arg11 : W6 V (Proc.devRef .tc main_arg11) = V (Proc.devRef .tc main_arg11) :=
  (W6_1 V (by decide) (by decide) (by decide) (by decide) (by decide)).trans (W1_arg11 V)

theorem res0_eq : after ops V (Proc.devRef .tc main_v101) = denorm (Cert.RefTerm.v68 (AV V)) (V (Proc.devRef .tc main_arg10)) (V (Proc.devRef .tc main_arg11)) := by
  rw [after_ops_eq, partG_main_v101, s68, W6_arg10, W6_arg11, t68_eq]
theorem res1_eq : after ops V (Proc.devRef .tc main_v87) = flip1 (Cert.RefTerm.v75 (AV V)) := by
  rw [after_ops_eq, partG_main_v87, s75, t75_eq]
theorem res2_eq : after ops V (Proc.devRef .tc main_v88) = flip1 (Cert.RefTerm.v85 (AV V)) := by
  rw [after_ops_eq, partG_main_v88, s85, t85_eq]

/-! ## The run -/

/-- On every device, from any memory with zero counters: every weakly fair execution of the reference terminates with
    the three results at the shared epilogue of the network's heads over the arrays of the arguments' launch contents,
    and the twelve arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v101) = denorm (Cert.RefTerm.v68 (arrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))) (m ((c.tc : Thread nD τ).loc main_arg10)) (m ((c.tc : Thread nD τ).loc main_arg11))
        ∧ r.2.mem ((c.tc : Thread nD τ).loc main_v87) = flip1 (Cert.RefTerm.v75 (arrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))))
        ∧ r.2.mem ((c.tc : Thread nD τ).loc main_v88) = flip1 (Cert.RefTerm.v85 (arrays (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11))) :=
  (θ_run defs _ _).mono (fun _ h c =>
      ⟨⟨(h c main_v101).trans (res0_eq (launchContents m c)), (h c main_v87).trans (res1_eq (launchContents m c)),
        (h c main_v88).trans (res2_eq (launchContents m c))⟩,
       (h c main_arg0).trans (ops_keep (launchContents m c) (by decide) (by decide) (by decide) (by decide) (by decide) (by decide) (by decide)),
       (h c main_arg1).trans (ops_keep (launchContents m c) (by decide) (by decide) (by decide) (by decide) (by decide) (by decide) (by decide)),
       (h c main_arg2).trans (ops_keep (launchContents m c) (by decide) (by decide) (by decide) (by decide) (by decide) (by decide) (by decide)),
       (h c main_arg3).trans (ops_keep (launchContents m c) (by decide) (by decide) (by decide) (by decide) (by decide) (by decide) (by decide)),
       (h c main_arg4).trans (ops_keep (launchContents m c) (by decide) (by decide) (by decide) (by decide) (by decide) (by decide) (by decide)),
       (h c main_arg5).trans (ops_keep (launchContents m c) (by decide) (by decide) (by decide) (by decide) (by decide) (by decide) (by decide)),
       (h c main_arg6).trans (ops_keep (launchContents m c) (by decide) (by decide) (by decide) (by decide) (by decide) (by decide) (by decide)),
       (h c main_arg7).trans (ops_keep (launchContents m c) (by decide) (by decide) (by decide) (by decide) (by decide) (by decide) (by decide)),
       (h c main_arg8).trans (ops_keep (launchContents m c) (by decide) (by decide) (by decide) (by decide) (by decide) (by decide) (by decide)),
       (h c main_arg9).trans (ops_keep (launchContents m c) (by decide) (by decide) (by decide) (by decide) (by decide) (by decide) (by decide)),
       (h c main_arg10).trans (ops_keep (launchContents m c) (by decide) (by decide) (by decide) (by decide) (by decide) (by decide) (by decide)),
       (h c main_arg11).trans (ops_keep (launchContents m c) (by decide) (by decide) (by decide) (by decide) (by decide) (by decide) (by decide))⟩)
    (run_after m ρ)

end Cert.RefRun

end
-- ==== Proof.LibHostBatch.lean ====
/-
  Host operations of the reference read at an index over the extended reals: a product of `[B, K]` rows with every
  ensemble member's `[N, K]` weights (result `[B, E, N]`), the batched product over the ensemble axis (`[E, B, K]` with
  `[E, N, K]`, result `[E, B, N]`), both as plain sums over `k`; the swap of the two leading axes; a vector spread over
  two leading axes; two blocks placed side by side along the last axis; and one matrix or one row taken out of a stack.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.RefLayer

open Idealize.ShloMosaic Idealize.ShloMosaic.ValueIdx

variable {E B K N : ℕ}

/-- The dimension numbers of rows against every member's weights: contract the rows' axis 1 with the weights' axis 2. -/
abbrev outerDims (B K E N : ℕ) (w : DotDims.WF ⟨2, ![B, K]⟩ ⟨3, ![E, N, K]⟩ ⟨3, ![B, E, N]⟩ [1] [2] [0] [0, 1] [] []) :
    DotDims ⟨2, ![B, K]⟩ ⟨3, ![E, N, K]⟩ ⟨3, ![B, E, N]⟩ := ⟨[1], [2], [0], [0, 1], [], [], w⟩

/-- Rows against every member's weights at `(b, e, n)`. -/
theorem outerDot_apply (w : DotDims.WF ⟨2, ![B, K]⟩ ⟨3, ![E, N, K]⟩ ⟨3, ![B, E, N]⟩ [1] [2] [0] [0, 1] [] [])
    (l : FVec Ideal ⟨2, ![B, K]⟩ .f32) (r : FVec Ideal ⟨3, ![E, N, K]⟩ .f32) (b : Fin B) (e : Fin E) (n : Fin N) :
    Host.dotGeneral (F := Ideal) (outerDims B K E N w) none l r (ix3 b e n) = ∑ k : Fin K, l (ix2 b k) * r (ix3 e n k) := by
  simp only [Host.dotGeneral]
  rw [Ideal.dotGeneral_apply, ← Equiv.sum_comp (contrEquiv1 (outerDims B K E N w) K rfl rfl).symm]
  refine Finset.sum_congr rfl fun k _ => ?_
  have hk := contrEquiv1_symm_val (outerDims B K E N w) K rfl rfl k
  have el : (outerDims B K E N w).lhsIdx (ix3 b e n) ((contrEquiv1 (outerDims B K E N w) K rfl rfl).symm k) = ix2 b k :=
    funext fun a => Fin.ext (by
      match a with
      | ⟨0, _⟩ => rfl
      | ⟨1, _⟩ => exact ((outerDims B K E N w).lhsIdx_val_of_single rfl _ _).trans hk)
  have er : (outerDims B K E N w).rhsIdx (ix3 b e n) ((contrEquiv1 (outerDims B K E N w) K rfl rfl).symm k) = ix3 e n k :=
    funext fun a => Fin.ext (by
      match a with
      | ⟨0, _⟩ => rfl
      | ⟨1, _⟩ => rfl
      | ⟨2, _⟩ => exact ((outerDims B K E N w).rhsIdx_val_of_single rfl _ _).trans hk)
  rw [el, er]

/-- The dimension numbers of the product batched over the ensemble axis and contracting the last axes. -/
abbrev batchDims (E B K N : ℕ) (w : DotDims.WF ⟨3, ![E, B, K]⟩ ⟨3, ![E, N, K]⟩ ⟨3, ![E, B, N]⟩ [2] [2] [1] [1] [0] [0]) :
    DotDims ⟨3, ![E, B, K]⟩ ⟨3, ![E, N, K]⟩ ⟨3, ![E, B, N]⟩ := ⟨[2], [2], [1], [1], [0], [0], w⟩

/-- The batched product at `(e, b, n)`. -/
theorem batchDot_apply (w : DotDims.WF ⟨3, ![E, B, K]⟩ ⟨3, ![E, N, K]⟩ ⟨3, ![E, B, N]⟩ [2] [2] [1] [1] [0] [0])
    (l : FVec Ideal ⟨3, ![E, B, K]⟩ .f32) (r : FVec Ideal ⟨3, ![E, N, K]⟩ .f32) (e : Fin E) (b : Fin B) (n : Fin N) :
    Host.dotGeneral (F := Ideal) (batchDims E B K N w) none l r (ix3 e b n) = ∑ k : Fin K, l (ix3 e b k) * r (ix3 e n k) := by
  simp only [Host.dotGeneral]
  rw [Ideal.dotGeneral_apply, ← Equiv.sum_comp (contrEquiv1 (batchDims E B K N w) K rfl rfl).symm]
  refine Finset.sum_congr rfl fun k _ => ?_
  have hk := contrEquiv1_symm_val (batchDims E B K N w) K rfl rfl k
  have el : (batchDims E B K N w).lhsIdx (ix3 e b n) ((contrEquiv1 (batchDims E B K N w) K rfl rfl).symm k) = ix3 e b k :=
    funext fun a => Fin.ext (by
      match a with
      | ⟨0, _⟩ => rfl
      | ⟨1, _⟩ => rfl
      | ⟨2, _⟩ => exact ((batchDims E B K N w).lhsIdx_val_of_single rfl _ _).trans hk)
  have er : (batchDims E B K N w).rhsIdx (ix3 e b n) ((contrEquiv1 (batchDims E B K N w) K rfl rfl).symm k) = ix3 e n k :=
    funext fun a => Fin.ext (by
      match a with
      | ⟨0, _⟩ => rfl
      | ⟨1, _⟩ => rfl
      | ⟨2, _⟩ => exact ((batchDims E B K N w).rhsIdx_val_of_single rfl _ _).trans hk)
  rw [el, er]

variable {α : Type}

/-- The two leading axes swapped: entry `(e, b, n)` of the result is entry `(b, e, n)` of the operand. -/
theorem swap01_apply (x : (⟨3, ![B, E, N]⟩ : Shape).Idx → α) (h : (⟨3, ![B, E, N]⟩ : Shape).Transposes [1, 0, 2] ⟨3, ![E, B, N]⟩)
    (e : Fin E) (b : Fin B) (n : Fin N) : transpose ⟨3, ![E, B, N]⟩ [1, 0, 2] x h (ix3 e b n) = x (ix3 b e n) :=
  transpose_apply _ x h _ _ fun c => match c with | ⟨0, _⟩ => rfl | ⟨1, _⟩ => rfl | ⟨2, _⟩ => rfl

/-- A vector given two leading unit axes and spread over them reads, at `(e, b, n)`, the vector at `n`. -/
theorem bias_apply (v : (⟨1, ![N]⟩ : Shape).Idx → α) (h1 : (⟨1, ![N]⟩ : Shape).BroadcastsInDim ⟨3, ![1, 1, N]⟩ ![2])
    (h2 : (⟨3, ![1, 1, N]⟩ : Shape).BroadcastsInDim ⟨3, ![E, B, N]⟩ ![0, 1, 2]) (e : Fin E) (b : Fin B) (n : Fin N) :
    broadcastInDim ⟨3, ![E, B, N]⟩ ![0, 1, 2] h2 (broadcastInDim ⟨3, ![1, 1, N]⟩ ![2] h1 v) (ix3 e b n) = v (ix1 n) := by
  refine (broadcastInDim_apply _ h2 _ _ (ix3 (0 : Fin 1) (0 : Fin 1) n) fun d => ?_).trans
    (broadcastInDim_apply _ h1 v _ (ix1 n) fun d => ?_)
  · match d with
    | ⟨0, _⟩ => rfl
    | ⟨1, _⟩ => rfl
    | ⟨2, _⟩ =>
      show n.val = if N = 1 then 0 else n.val
      split
      · have := n.isLt; omega
      · rfl
  · match d with
    | ⟨0, _⟩ =>
      show n.val = if N = 1 then 0 else n.val
      split
      · have := n.isLt; omega
      · rfl

/-- A matrix given a leading unit axis and spread over `E` copies reads, at `(e, b, n)`, the matrix at `(b, n)`. -/
theorem rows_apply (v : (⟨2, ![B, N]⟩ : Shape).Idx → α) (h1 : (⟨2, ![B, N]⟩ : Shape).BroadcastsInDim ⟨3, ![1, B, N]⟩ ![1, 2])
    (h2 : (⟨3, ![1, B, N]⟩ : Shape).BroadcastsInDim ⟨3, ![E, B, N]⟩ ![0, 1, 2]) (e : Fin E) (b : Fin B) (n : Fin N) :
    broadcastInDim ⟨3, ![E, B, N]⟩ ![0, 1, 2] h2 (broadcastInDim ⟨3, ![1, B, N]⟩ ![1, 2] h1 v) (ix3 e b n) = v (ix2 b n) := by
  refine (broadcastInDim_apply _ h2 _ _ (ix3 (0 : Fin 1) b n) fun d => ?_).trans
    (broadcastInDim_apply _ h1 v _ (ix2 b n) fun d => ?_)
  · match d with
    | ⟨0, _⟩ => rfl
    | ⟨1, _⟩ =>
      show b.val = if B = 1 then 0 else b.val
      split
      · have := b.isLt; omega
      · rfl
    | ⟨2, _⟩ =>
      show n.val = if N = 1 then 0 else n.val
      split
      · have := n.isLt; omega
      · rfl
  · match d with
    | ⟨0, _⟩ =>
      show b.val = if B = 1 then 0 else b.val
      split
      · have := b.isLt; omega
      · rfl
    | ⟨1, _⟩ =>
      show n.val = if N = 1 then 0 else n.val
      split
      · have := n.isLt; omega
      · rfl

/-- Two `[E, B, 200]` arrays side by side along the last axis read, at `(e, b, j)`, the first for `j < 200` and the
    second, at `j − 200`, otherwise. -/
theorem cat_apply (p q : (⟨3, ![E, B, 200]⟩ : Shape).Idx → α)
    (hcat : Shape.Concatenates [⟨3, ![E, B, 200]⟩, ⟨3, ![E, B, 200]⟩] ⟨3, ![E, B, 400]⟩ 2) (e : Fin E) (b : Fin B) (j : Fin 400) :
    concatenate ⟨3, ![E, B, 400]⟩ 2 [⟨⟨3, ![E, B, 200]⟩, p⟩, ⟨⟨3, ![E, B, 200]⟩, q⟩] hcat (ix3 e b j)
      = if h : j.val < 200 then p (ix3 e b ⟨j.val, h⟩) else q (ix3 e b ⟨j.val - 200, by omega⟩) := by
  split
  · next h =>
    exact concatenate_pair_apply_left _ p q hcat _ rfl (ix3 e b ⟨j.val, h⟩) fun ax => by
      match ax with
      | ⟨0, _⟩ => rfl
      | ⟨1, _⟩ => rfl
      | ⟨2, _⟩ => rfl
  · next h =>
    exact concatenate_pair_apply_right _ p q hcat _ rfl rfl (ix3 e b ⟨j.val - 200, by omega⟩)
      (fun ax hne => by
        match ax with
        | ⟨0, _⟩ => rfl
        | ⟨1, _⟩ => rfl
        | ⟨2, _⟩ => exact absurd rfl hne)
      (by show j.val - 200 + 200 = j.val; omega)

/-- Matrix `j` of a stack `[E, 2, N, K]`, taken out as `[E, 1, N, K]` and given the shape `[E, N, K]`, reads at
    `(e, n, k)` the stack at `(e, j, n, k)`. -/
theorem pick_apply (x : (⟨4, ![E, 2, N, K]⟩ : Shape).Idx → α) (j : Fin 2)
    (hs : (⟨4, ![E, 2, N, K]⟩ : Shape).Slices ![0, j.val, 0, 0] ⟨4, ![E, 1, N, K]⟩)
    (hc : (⟨4, ![E, 1, N, K]⟩ : Shape).ShapeCasts ⟨3, ![E, N, K]⟩) (e : Fin E) (n : Fin N) (k : Fin K) :
    shapeCast ⟨3, ![E, N, K]⟩ (extractStridedSlice ⟨4, ![E, 1, N, K]⟩ ![0, j.val, 0, 0] x hs) hc (ix3 e n k) = x (ix4 e j n k) := by
  refine (shapeCast_apply _ hc (ix3 e n k) (ix4 e (0 : Fin 1) n k) ?_).trans
    (extractStridedSlice_apply _ x hs _ (ix4 e j n k) fun a => ?_)
  · rw [Shape.rowMajor_val_four, Shape.rowMajor_val_three]
    show ((e.val * 1 + 0) * N + n.val) * K + k.val = (e.val * N + n.val) * K + k.val
    simp only [Nat.mul_one, Nat.add_zero]
  · match a with
    | ⟨0, _⟩ => show e.val = 0 + e.val; omega
    | ⟨1, _⟩ => show j.val = j.val + 0; omega
    | ⟨2, _⟩ => show n.val = 0 + n.val; omega
    | ⟨3, _⟩ => show k.val = 0 + k.val; omega

/-- Row `j` of a `[2, N]` matrix, taken out as `[1, N]` and made a vector, reads at `n` the matrix at `(j, n)`. -/
theorem pickRow_apply (x : (⟨2, ![2, N]⟩ : Shape).Idx → α) (j : Fin 2)
    (hs : (⟨2, ![2, N]⟩ : Shape).Slices ![j.val, 0] ⟨2, ![1, N]⟩) (hc : (⟨2, ![1, N]⟩ : Shape).ShapeCasts ⟨1, ![N]⟩) (n : Fin N) :
    shapeCast ⟨1, ![N]⟩ (extractStridedSlice ⟨2, ![1, N]⟩ ![j.val, 0] x hs) hc (ix1 n) = x (ix2 j n) := by
  refine (shapeCast_1a_a_apply _ hc n).trans (extractStridedSlice_apply _ x hs _ (ix2 j n) fun a => ?_)
  match a with
  | ⟨0, _⟩ => show j.val = j.val + 0; omega
  | ⟨1, _⟩ => show n.val = 0 + n.val; omega

end Cert.RefLayer

end
-- ==== Proof.RefValue.lean ====
/-
  The reference's stages are the network's, entry by entry: at ensemble member `e` and row `b` each stage of
  `Cert.RefTerm` is the matching layer of `Cert.Net` on member `e`'s weights and row `b` of the observations and actions,
  so the three heads are `G0`, `G1`, `G2`. The termination head's `1 / (1 + exp (−t))` is the logistic function by
  definition, and the hyperbolic tangent is the same function on both sides.
-/
import proofs.«149758_j56289841381718_2_alg».proof.Proof.RefTerm
import proofs.«149758_j56289841381718_2_alg».proof.Proof.LibHostBatch
import Idealize.ShloMosaic.Lib.IdealHost

noncomputable section

open scoped BigOperators

namespace Cert.RefValue

open Idealize.ShloMosaic Idealize.ShloMosaic.ValueIdx
open Cert.ReferenceIdeal Cert.ReferenceIdeal.Gen Cert.Net Cert.RefTerm

variable (A : Arrays) (e : Fin 16) (b : Fin 16384)

theorem leaky4_apply (t : FVec Ideal S16x16384x400 .f32) (i : S16x16384x400.Idx) : leaky4 t i = lrelu (t i) := rfl
theorem leaky2_apply (t : FVec Ideal S16x16384x200 .f32) (i : S16x16384x200.Idx) : leaky2 t i = lrelu (t i) := rfl

theorem bias200_apply (v : FVec Ideal S200 .f32) (h : Fin 200) : bias200 v (ix3 e b h) = v (ix1 h) :=
  Cert.RefLayer.bias_apply v _ _ e b h

theorem o1_apply (h : Fin 200) : o1 A (ix3 e b h) = lin (xrow A b) (params A e).wo (params A e).bo h := by
  unfold o1
  exact congrArg₂ (· + ·)
    ((Cert.RefLayer.swap01_apply _ _ e b h).trans (Cert.RefLayer.outerDot_apply dot_S16384x17_S16x200x17_S16384x16x200_1_2_0_01_n_n_wf A.xn A.wo b e h))
    (bias200_apply e b A.bo h)

theorem a1_apply (h : Fin 200) : a1 A (ix3 e b h) = lin (urow A b) (params A e).wa (params A e).ba h := by
  unfold a1
  exact congrArg₂ (· + ·)
    ((Cert.RefLayer.swap01_apply _ _ e b h).trans (Cert.RefLayer.outerDot_apply dot_S16384x6_S16x200x6_S16384x16x200_1_2_0_01_n_n_wf A.ac A.wa b e h))
    (bias200_apply e b A.ba h)

theorem y0_apply (j : Fin 400) : y0 A (ix3 e b j) = hid0 (params A e) (xrow A b) (urow A b) j := by
  unfold y0 hid0
  rw [leaky4_apply]
  refine congrArg lrelu ((Cert.RefLayer.cat_apply (o1 A) (a1 A) _ e b j).trans ?_)
  show cat (fun q => o1 A (ix3 e b q)) (fun q => a1 A (ix3 e b q)) j = _
  exact congrArg₂ (fun o a => cat o a j) (funext fun q => o1_apply A e b q) (funext fun q => a1_apply A e b q)

theorem y1_apply (h : Fin 200) : y1 A (ix3 e b h) = hid1 (params A e) (xrow A b) (urow A b) h := by
  unfold y1 hid1
  rw [leaky2_apply]
  refine congrArg lrelu (congrArg₂ (· + ·)
    ((Cert.RefLayer.batchDot_apply dot_S16x16384x400_S16x200x400_S16x16384x200_2_2_1_1_0_0_wf (y0 A) A.wt e b h).trans
      (Finset.sum_congr rfl fun k _ => congrArg (· * A.wt (ix3 e h k)) (y0_apply A e b k)))
    (bias200_apply e b A.bt h))

theorem wh0_apply (h k : Fin 200) : wh0 A (ix3 e h k) = A.wh (ix4 e (0 : Fin 2) h k) :=
  Cert.RefLayer.pick_apply A.wh (0 : Fin 2) _ _ e h k
theorem wh1_apply (h k : Fin 200) : wh1 A (ix3 e h k) = A.wh (ix4 e (1 : Fin 2) h k) :=
  Cert.RefLayer.pick_apply A.wh (1 : Fin 2) _ _ e h k
theorem bh0_apply (h : Fin 200) : bh0 A (ix1 h) = A.bh (ix2 (0 : Fin 2) h) :=
  Cert.RefLayer.pickRow_apply A.bh (0 : Fin 2) _ _ h
theorem bh1_apply (h : Fin 200) : bh1 A (ix1 h) = A.bh (ix2 (1 : Fin 2) h) :=
  Cert.RefLayer.pickRow_apply A.bh (1 : Fin 2) _ _ h

theorem y2_apply (h : Fin 200) : y2 A (ix3 e b h) = hid2 (params A e) (xrow A b) (urow A b) h := by
  unfold y2 hid2
  rw [leaky2_apply]
  refine congrArg lrelu (congrArg₂ (· + ·)
    ((Cert.RefLayer.batchDot_apply dot_S16x16384x200_S16x200x200_S16x16384x200_2_2_1_1_0_0_wf (y1 A) (wh0 A) e b h).trans
      (Finset.sum_congr rfl fun k _ => congrArg₂ (· * ·) (y1_apply A e b k) (wh0_apply A e h k)))
    ((bias200_apply e b (bh0 A) h).trans (bh0_apply A h)))

theorem y3_apply (h : Fin 200) : y3 A (ix3 e b h) = hid3 (params A e) (xrow A b) (urow A b) h := by
  unfold y3 hid3
  rw [leaky2_apply]
  refine congrArg lrelu (congrArg₂ (· + ·)
    ((Cert.RefLayer.batchDot_apply dot_S16x16384x200_S16x200x200_S16x16384x200_2_2_1_1_0_0_wf (y2 A) (wh1 A) e b h).trans
      (Finset.sum_congr rfl fun k _ => congrArg₂ (· * ·) (y2_apply A e b k) (wh1_apply A e h k)))
    ((bias200_apply e b (bh1 A) h).trans (bh1_apply A h)))

/-- The next-state head is `G0`. -/
theorem v68_eq : v68 A = G0 A := by
  funext i
  obtain ⟨e, b, o, rfl⟩ : ∃ (e : Fin 16) (b : Fin 16384) (o : Fin 17), i = ix3 e b o := ⟨i 0, i 1, i 2, eq_ix3 i⟩
  unfold v68
  show _ = nstate (params A e) (xrow A b) (urow A b) o
  unfold nstate
  refine congrArg₂ (· + ·) (congrArg₂ (· + ·)
    ((Cert.RefLayer.batchDot_apply dot_S16x16384x200_S16x17x200_S16x16384x17_2_2_1_1_0_0_wf (y3 A) A.ws e b o).trans
      (Finset.sum_congr rfl fun k _ => congrArg (· * A.ws (ix3 e o k)) (y3_apply A e b k)))
    (Cert.RefLayer.bias_apply A.bs _ _ e b o))
    (Cert.RefLayer.rows_apply A.xn _ _ e b o)

/-- A scalar head before its squashing function, at `(e, b, 0)`. -/
theorem head_apply (w : FVec Ideal S16x1x200 .f32) (β : FVec Ideal S1 .f32) :
    addf (Host.dotGeneral dot_S16x16384x200_S16x1x200_S16x16384x1_2_2_1_1_0_0 none (y3 A) w) (bias1 β) (ix3 e b (0 : Fin 1))
      = (∑ k : Fin 200, hid3 (params A e) (xrow A b) (urow A b) k * w (ix3 e (0 : Fin 1) k)) + β (ix1 (0 : Fin 1)) :=
  congrArg₂ (· + ·)
    ((Cert.RefLayer.batchDot_apply dot_S16x16384x200_S16x1x200_S16x16384x1_2_2_1_1_0_0_wf (y3 A) w e b (0 : Fin 1)).trans
      (Finset.sum_congr rfl fun k _ => congrArg (· * w (ix3 e (0 : Fin 1) k)) (y3_apply A e b k)))
    (Cert.RefLayer.bias_apply β _ _ e b (0 : Fin 1))

theorem eq_zero1 (q : Fin 1) : q = 0 := Fin.ext (by omega)

theorem hostExp_apply {s : Shape} (t : FVec Ideal s .f32) (i : s.Idx) : Host.exp t i = Ideal.exp (t i) := rfl
theorem hostNegf_apply {s : Shape} (t : FVec Ideal s .f32) (i : s.Idx) : Host.negf t i = -(t i) := rfl
theorem one_apply (i : S16x16384x1.Idx) :
    broadcastInDim S16x16384x1 ![] bcast_S_S16x16384x1 (constant (F := Ideal) S_ .f32 0x3F800000#32) i = 1 :=
  (broadcastInDim_scalar_apply _ _ i).trans Ideal.ofBits_one_f32

/-- The reward head is `G1`. -/
theorem v75_eq : v75 A = G1 A := by
  funext i
  obtain ⟨e, b, q, rfl⟩ : ∃ (e : Fin 16) (b : Fin 16384) (q : Fin 1), i = ix3 e b q := ⟨i 0, i 1, i 2, eq_ix3 i⟩
  obtain rfl := eq_zero1 q
  unfold v75
  show Ideal.tanh (addf (Host.dotGeneral dot_S16x16384x200_S16x1x200_S16x16384x1_2_2_1_1_0_0 none (y3 A) A.wr) (bias1 A.br) (ix3 e b (0 : Fin 1)))
      * Ideal.ofBits .f32 0x40000000#32 = reward (params A e) (xrow A b) (urow A b)
  rw [head_apply]
  rfl

/-- The termination head is `G2`. -/
theorem v85_eq : v85 A = G2 A := by
  funext i
  obtain ⟨e, b, q, rfl⟩ : ∃ (e : Fin 16) (b : Fin 16384) (q : Fin 1), i = ix3 e b q := ⟨i 0, i 1, i 2, eq_ix3 i⟩
  obtain rfl := eq_zero1 q
  unfold v85
  rw [hostDivf_apply, addf_apply, one_apply, hostExp_apply, hostNegf_apply, head_apply]
  rfl

end Cert.RefValue

end
-- ==== Proof.lean ====
/-
  A per-ensemble network — two input layers joined side by side, three hidden layers of width 200 with a leaky rectifier,
  and three heads (next state, reward through the hyperbolic tangent, termination through the logistic function) — is
  computed by a tiled kernel, one ensemble member and one block of 2048 rows per grid step, and by a reference that
  works on whole arrays with batched products. Over the extended reals the two agree entry by entry: every product is a
  finite sum of the same terms, the rectifier, the tangent and the logistic function are the same functions on both
  sides, and the arithmetic around the network (normalising the observations, cutting the flat parameter matrix into
  weight tensors, putting the heads batch-major and mapping the next state back) is the same operations in the same
  order, so it is carried as whole-array terms and never opened. No law is used that needs finite values.

  The kernel side reads each output block of a grid step as the network applied to the step's rows (`Cert.KPay`),
  glues the blocks into the three arrays (`Cert.KRun`), and follows the host operations after the region. The
  reference side runs its host operations in order (`Cert.RefRun`) and reads its stages entry by entry
  (`Cert.RefValue`). Both end at `Cert.Net.res0`, `res1`, `res2` of the twelve arguments.
-/
import proofs.«149758_j56289841381718_2_alg».proof.Defs
import proofs.«149758_j56289841381718_2_alg».proof.Proof.Gen.Kernel
import proofs.«149758_j56289841381718_2_alg».proof.Proof.Gen.Kernel.Skeleton
import proofs.«149758_j56289841381718_2_alg».proof.Proof.Gen.Kernel.Launch
import proofs.«149758_j56289841381718_2_alg».proof.Proof.Gen.Kernel.Points
import proofs.«149758_j56289841381718_2_alg».proof.Proof.Gen.Kernel.Frame
import proofs.«149758_j56289841381718_2_alg».proof.Proof.Gen.KernelIdeal
import proofs.«149758_j56289841381718_2_alg».proof.Proof.Gen.KernelIdeal.Skeleton
import proofs.«149758_j56289841381718_2_alg».proof.Proof.Gen.KernelIdeal.Launch
import proofs.«149758_j56289841381718_2_alg».proof.Proof.Gen.KernelIdeal.Points
import proofs.«149758_j56289841381718_2_alg».proof.Proof.Gen.KernelIdeal.Frame
import proofs.«149758_j56289841381718_2_alg».proof.Proof.Gen.ReferenceIdeal
import proofs.«149758_j56289841381718_2_alg».proof.Proof.Gen.Pre_finite_inputs
import proofs.«149758_j56289841381718_2_alg».proof.Proof.KRun
import proofs.«149758_j56289841381718_2_alg».proof.Proof.RefRun
import proofs.«149758_j56289841381718_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run (Cert.ReferenceIdeal.defs (F := Ideal)) _ _).mono (fun _ h c => (h c).2) (Cert.RefRun.run m ρ)

/-- The idealization rewrote no operation. -/
theorem preserves : Cert.preserves_Kernel_KernelIdeal := trivial

/-- From memories agreeing on the twelve arguments both programs end with the three results at `Cert.Net.res0`,
    `res1`, `res2` of those arguments: the kernel's arrays by its blocks, the reference's by its stages. -/
theorem algebraic : Cert.algebraic_KernelIdeal_ReferenceIdeal := by
  intro m ρ m' ρ' _ hagree
  refine ⟨fun c => Cert.Net.res0 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Net.res1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Net.res2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run (Cert.KernelIdeal.defs (F := Ideal)) _ _).mono
      (fun r h c => ⟨(h c).1.1, (h c).1.2.1, (h c).1.2.2, (h c).2⟩) (Cert.KRun.run m ρ)
  · refine (θ_run (Cert.ReferenceIdeal.defs (F := Ideal)) _ _).mono (fun r h c => ?_) (Cert.RefRun.run m' ρ')
    obtain ⟨⟨h0, h1, h2⟩, hk⟩ := h c
    obtain ⟨a0, a1, a2, a3, a4, a5, a6, a7, a8, a9, a10, a11⟩ := hagree c
    refine ⟨h0.trans ?_, h1.trans ?_, h2.trans ?_, hk⟩
    · rw [Cert.RefValue.v68_eq, a0, a1, a2, a3, a4, a5, a6, a7, a8, a9, a10, a11]; rfl
    · rw [Cert.RefValue.v75_eq, a0, a1, a2, a3, a4, a5, a6, a7, a8, a9, a10, a11]; rfl
    · rw [Cert.RefValue.v85_eq, a0, a1, a2, a3, a4, a5, a6, a7, a8, a9, a10, a11]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
